-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64x16 : Shape := ⟨4, ![64, 2048, 64, 16]⟩
abbrev S_ : Shape := ⟨0, ![]⟩

class Facts : Prop where
  bcast_S_S64x2048x64x16 : S_.BroadcastsInDim S64x2048x64x16 (![] : Fin 0 → Fin S64x2048x64x16.rank)
  reducesTo_S64x2048x64x16_S_d0_1_2_3 : S64x2048x64x16.ReducesTo [0, 1, 2, 3] S_
  h_S_ : 0 < S_.numel

variable [Facts]

def fn {F : FTy → Type} [FloatOps F] (main_arg0 : FVec F S64x2048x64x16 .f32) : IVec S_ 1 :=
  let main_v0 : FVec F S64x2048x64x16 .f32 := Host.absf main_arg0
  let main_cst : FVec F S_ .f32 := constant S_ .f32 0x7F800000#32
  let main_v1 : FVec F S64x2048x64x16 .f32 := broadcastInDim S64x2048x64x16 ![] bcast_S_S64x2048x64x16 main_cst
  let main_v2 : IVec S64x2048x64x16 1 := cmpf .olt main_v0 main_v1
  let main_c : IVec S_ 1 := constantI S_ 1 1#1
  let main_v3 : IVec S_ 1 := (fun x v => Host.reduce IntOp.andi x v reducesTo_S64x2048x64x16_S_d0_1_2_3 h_S_) main_v2 main_c
  main_v3
-- ==== Kernel.lean ====
abbrev S64x2048x64x16 : Shape := ⟨4, ![64, 2048, 64, 16]⟩
abbrev S_ : Shape := ⟨0, ![]⟩
abbrev S64x64x16 : Shape := ⟨3, ![64, 64, 16]⟩
abbrev S64x2048x64 : Shape := ⟨3, ![64, 2048, 64]⟩
abbrev S32x16x64x16 : Shape := ⟨4, ![32, 16, 64, 16]⟩
abbrev S32x64x16 : Shape := ⟨3, ![32, 64, 16]⟩
abbrev S32x16x64 : Shape := ⟨3, ![32, 16, 64]⟩
abbrev S32x1x64x16 : Shape := ⟨4, ![32, 1, 64, 16]⟩
abbrev S32x16 : Shape := ⟨2, ![32, 16]⟩
abbrev S32x16x1 : Shape := ⟨3, ![32, 16, 1]⟩
abbrev S32x16x64x1 : Shape := ⟨4, ![32, 16, 64, 1]⟩
abbrev S64x64 : Shape := ⟨2, ![64, 64]⟩
abbrev S64x64x1 : Shape := ⟨3, ![64, 64, 1]⟩

abbrev nBuf : Space → Nat
  | .hbm => 69
  | .vmem => 36
  | .smem => 0
  | _ => 0

abbrev bufTy : (tb : Table) → Fin (tcTables nBuf tb) → BufTy
  | .hbm, ⟨0, _⟩ => ⟨S64x2048x64x16, .f32⟩
  | .hbm, ⟨1, _⟩ => ⟨S_, .f32⟩
  | .hbm, ⟨2, _⟩ => ⟨S64x64x16, .f32⟩
  | .hbm, ⟨3, _⟩ => ⟨S_, .f32⟩
  | .hbm, ⟨4, _⟩ => ⟨S64x2048x64, .f32⟩
  | .hbm, ⟨5, _⟩ => ⟨S64x64x16, .f32⟩
  | .hbm, ⟨6, _⟩ => ⟨S64x2048x64, .f32⟩
  | .hbm, ⟨7, _⟩ => ⟨S64x2048x64, .f32⟩
  | .hbm, ⟨8, _⟩ => ⟨S64x64x16, .f32⟩
  | .hbm, ⟨9, _⟩ => ⟨S_, .f32⟩
  | .hbm, ⟨10, _⟩ => ⟨S64x64, .f32⟩
  | .hbm, ⟨11, _⟩ => ⟨S64x64x1, .f32⟩
  | .hbm, ⟨12, _⟩ => ⟨S_, .f32⟩
  | .hbm, ⟨13, _⟩ => ⟨S64x64x1, .f32⟩
  | .hbm, ⟨14, _⟩ => ⟨S64x64x1, .f32⟩
  | .hbm, ⟨15, _⟩ => ⟨S64x64x1, .f32⟩
  | .hbm, ⟨16, _⟩ => ⟨S64x64x16, .f32⟩
  | .hbm, ⟨17, _⟩ => ⟨S64x64x16, .f32⟩
  | .hbm, ⟨18, _⟩ => ⟨S_, .f32⟩
  | .hbm, ⟨19, _⟩ => ⟨S64x64x1, .f32⟩
  | .hbm, ⟨20, _⟩ => ⟨S64x64x1, .f32⟩
  | .hbm, ⟨21, _⟩ => ⟨S64x64x1, .f32⟩
  | .hbm, ⟨22, _⟩ => ⟨S64x64x16, .f32⟩
  | .hbm, ⟨23, _⟩ => ⟨S64x64x16, .f32⟩
  | .hbm, ⟨24, _⟩ => ⟨S64x64x16, .f32⟩
  | .hbm, ⟨25, _⟩ => ⟨S64x2048x64, .f32⟩
  | .hbm, ⟨26, _⟩ => ⟨S64x2048x64, .f32⟩
  | .hbm, ⟨27, _⟩ => ⟨S64x64x16, .f32⟩
  | .hbm, ⟨28, _⟩ => ⟨S_, .f32⟩
  | .hbm, ⟨29, _⟩ => ⟨S64x64, .f32⟩
  | .hbm, ⟨30, _⟩ => ⟨S64x64x1, .f32⟩
  | .hbm, ⟨31, _⟩ => ⟨S_, .f32⟩
  | .hbm, ⟨32, _⟩ => ⟨S64x64x1, .f32⟩
  | .hbm, ⟨33, _⟩ => ⟨S64x64x1, .f32⟩
  | .hbm, ⟨34, _⟩ => ⟨S64x64x1, .f32⟩
  | .hbm, ⟨35, _⟩ => ⟨S64x64x16, .f32⟩
  | .hbm, ⟨36, _⟩ => ⟨S64x64x16, .f32⟩
  | .hbm, ⟨37, _⟩ => ⟨S_, .f32⟩
  | .hbm, ⟨38, _⟩ => ⟨S64x64x1, .f32⟩
  | .hbm, ⟨39, _⟩ => ⟨S64x64x1, .f32⟩
  | .hbm, ⟨40, _⟩ => ⟨S64x64x1, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x2048x64, .f32⟩
  | .hbm, ⟨45, _⟩ => ⟨S64x2048x64, .f32⟩
  | .hbm, ⟨46, _⟩ => ⟨S64x64x16, .f32⟩
  | .hbm, ⟨47, _⟩ => ⟨S_, .f32⟩
  | .hbm, ⟨48, _⟩ => ⟨S64x64, .f32⟩
  | .hbm, ⟨49, _⟩ => ⟨S64x64x1, .f32⟩
  | .hbm, ⟨50, _⟩ => ⟨S_, .f32⟩
  | .hbm, ⟨51, _⟩ => ⟨S64x64x1, .f32⟩
  | .hbm, ⟨52, _⟩ => ⟨S64x64x1, .f32⟩
  | .hbm, ⟨53, _⟩ => ⟨S64x64x1, .f32⟩
  | .hbm, ⟨54, _⟩ => ⟨S64x64x16, .f32⟩
  | .hbm, ⟨55, _⟩ => ⟨S64x64x16, .f32⟩
  | .hbm, ⟨56, _⟩ => ⟨S_, .f32⟩
  | .hbm, ⟨57, _⟩ => ⟨S64x64x1, .f32⟩
  | .hbm, ⟨58, _⟩ => ⟨S64x64x1, .f32⟩
  | .hbm, ⟨59, _⟩ => ⟨S64x64x1, .f32⟩
  | .hbm, ⟨60, _⟩ => ⟨S64x64x16, .f32⟩
  | .hbm, ⟨61, _⟩ => ⟨S64x64x16, .f32⟩
  | .hbm, ⟨62, _⟩ => ⟨S64x64x16, .f32⟩
  | .hbm, ⟨63, _⟩ => ⟨S_, .f32⟩
  | .hbm, ⟨64, _⟩ => ⟨S64x64, .f32⟩
  | .hbm, ⟨65, _⟩ => ⟨S_, .f32⟩
  | .hbm, ⟨66, _⟩ => ⟨S64x64, .f32⟩
  | .hbm, ⟨67, _⟩ => ⟨S64x64, .f32⟩
  | .hbm, ⟨68, _⟩ => ⟨S64x64, .f32⟩
  | .local _ .vmem, ⟨0, _⟩ => ⟨S32x16x64x16, .f32⟩
  | .local _ .vmem, ⟨1, _⟩ => ⟨S32x16x64x16, .f32⟩
  | .local _ .vmem, ⟨2, _⟩ => ⟨S32x64x16, .f32⟩
  | .local _ .vmem, ⟨3, _⟩ => ⟨S32x64x16, .f32⟩
  | .local _ .vmem, ⟨4, _⟩ => ⟨S32x16x64, .f32⟩
  | .local _ .vmem, ⟨5, _⟩ => ⟨S32x16x64, .f32⟩
  | .local _ .vmem, ⟨6, _⟩ => ⟨S32x64x16, .f32⟩
  | .local _ .vmem, ⟨7, _⟩ => ⟨S32x64x16, .f32⟩
  | .local _ .vmem, ⟨8, _⟩ => ⟨S32x16x64, .f32⟩
  | .local _ .vmem, ⟨9, _⟩ => ⟨S32x16x64, .f32⟩
  | .local _ .vmem, ⟨10, _⟩ => ⟨S32x16x64, .f32⟩
  | .local _ .vmem, ⟨11, _⟩ => ⟨S32x16x64, .f32⟩
  | .local _ .vmem, ⟨12, _⟩ => ⟨S32x16x64x16, .f32⟩
  | .local _ .vmem, ⟨13, _⟩ => ⟨S32x16x64x16, .f32⟩
  | .local _ .vmem, ⟨14, _⟩ => ⟨S32x64x16, .f32⟩
  | .local _ .vmem, ⟨15, _⟩ => ⟨S32x64x16, .f32⟩
  | .local _ .vmem, ⟨16, _⟩ => ⟨S32x16x64, .f32⟩
  | .local _ .vmem, ⟨17, _⟩ => ⟨S32x16x64, .f32⟩
  | .local _ .vmem, ⟨18, _⟩ => ⟨S32x64x16, .f32⟩
  | .local _ .vmem, ⟨19, _⟩ => ⟨S32x64x16, .f32⟩
  | .local _ .vmem, ⟨20, _⟩ => ⟨S32x16x64, .f32⟩
  | .local _ .vmem, ⟨21, _⟩ => ⟨S32x16x64, .f32⟩
  | .local _ .vmem, ⟨22, _⟩ => ⟨S32x16x64, .f32⟩
  | .local _ .vmem, ⟨23, _⟩ => ⟨S32x16x64, .f32⟩
  | .local _ .vmem, ⟨24, _⟩ => ⟨S32x16x64x16, .f32⟩
  | .local _ .vmem, ⟨25, _⟩ => ⟨S32x16x64x16, .f32⟩
  | .local _ .vmem, ⟨26, _⟩ => ⟨S32x64x16, .f32⟩
  | .local _ .vmem, ⟨27, _⟩ => ⟨S32x64x16, .f32⟩
  | .local _ .vmem, ⟨28, _⟩ => ⟨S32x16x64, .f32⟩
  | .local _ .vmem, ⟨29, _⟩ => ⟨S32x16x64, .f32⟩
  | .local _ .vmem, ⟨30, _⟩ => ⟨S32x64x16, .f32⟩
  | .local _ .vmem, ⟨31, _⟩ => ⟨S32x64x16, .f32⟩
  | .local _ .vmem, ⟨32, _⟩ => ⟨S32x16x64, .f32⟩
  | .local _ .vmem, ⟨33, _⟩ => ⟨S32x16x64, .f32⟩
  | .local _ .vmem, ⟨34, _⟩ => ⟨S32x16x64, .f32⟩
  | .local _ .vmem, ⟨35, _⟩ => ⟨S32x16x64, .f32⟩
  | _, _ => ⟨S64x2048x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨2, ![2, 128], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x16x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 128], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S32x16x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S32x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S32x64x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S32x16x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x16x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 128], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S32x16x64x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x64x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S32x16x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S32x64x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S32x16x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S32x16x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  bcast_S_S64x64x16 : S_.BroadcastsInDim S64x64x16 (![] : Fin 0 → Fin S64x64x16.rank)
  bcast_S_S64x2048x64 : S_.BroadcastsInDim S64x2048x64 (![] : Fin 0 → Fin S64x2048x64.rank)
  inb_S32x64x16_S32x64x16_0_0_0 : ∀ a, (![0, 0, 0] : Fin 3 → Nat) a + S32x64x16.size a ≤ S32x64x16.size a
  h_S32x64x16 : 0 < S32x64x16.numel
  inb_S32x16x64x16_S32x16x64x16_0_0_0_0 : ∀ a, (![0, 0, 0, 0] : Fin 4 → Nat) a + S32x16x64x16.size a ≤ S32x16x64x16.size a
  h_S32x16x64x16 : 0 < S32x16x64x16.numel
  shapeCasts_S32x64x16_S32x64x16 : S32x64x16.ShapeCasts S32x64x16
  inb_S32x16x64_S32x16x64_0_0_0 : ∀ a, (![0, 0, 0] : Fin 3 → Nat) a + S32x16x64.size a ≤ S32x16x64.size a
  h_S32x16x64 : 0 < S32x16x64.numel
  shapeCasts_S32x16x64_S32x16x64 : S32x16x64.ShapeCasts S32x16x64
  shapeCasts_S32x64x16_S32x1x64x16 : S32x64x16.ShapeCasts S32x1x64x16
  broadcasts_S32x1x64x16_S32x16x64x16 : S32x1x64x16.Broadcasts S32x16x64x16
  reduces_S32x16x64x16_S32x16x64 : S32x16x64x16.Reduces [3] S32x16x64
  reduces_S32x16x64_S32x16 : S32x16x64.Reduces [2] S32x16
  shapeCasts_S32x16_S32x16x1 : S32x16.ShapeCasts S32x16x1
  broadcasts_S32x16x1_S32x16x64 : S32x16x1.Broadcasts S32x16x64
  shapeCasts_S32x16x64_S32x16x64x1 : S32x16x64.ShapeCasts S32x16x64x1
  broadcasts_S32x16x64x1_S32x16x64x16 : S32x16x64x1.Broadcasts S32x16x64x16
  reduces_S32x16x64x16_S32x64x16 : S32x16x64x16.Reduces [1] S32x64x16
  reducesTo_S64x64x16_S64x64_d2 : S64x64x16.ReducesTo [2] S64x64
  h_S_ : 0 < S_.numel
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S64x64x1_S64x64x16_0_1_2 : S64x64x1.BroadcastsInDim S64x64x16 (![0, 1, 2] : Fin 3 → Fin S64x64x16.rank)
  bcast_S_S64x64 : S_.BroadcastsInDim S64x64 (![] : Fin 0 → Fin S64x64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x64x16.size a ≤ S64x2048x64x16.size a
  hwx0_0 : ∀ i : grid0.Coords, EltTy.bits .f32 = 32 ∨ (Rect.block (s := S64x2048x64x16) S32x16x64x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x16.size a ≤ S64x64x16.size a
  hwx0_1 : ∀ i : grid0.Coords, EltTy.bits .f32 = 32 ∨ (Rect.block (s := S64x64x16) S32x64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16x64.size a ≤ S64x2048x64.size a
  hwx0_2 : ∀ i : grid0.Coords, EltTy.bits .f32 = 32 ∨ (Rect.block (s := S64x2048x64) S32x16x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x64x16.size a ≤ S64x64x16.size a
  hwx0_3 : ∀ i : grid0.Coords, EltTy.bits .f32 = 32 ∨ (Rect.block (s := S64x64x16) S32x64x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x16x64.size a ≤ S64x2048x64.size a
  hwx0_4 : ∀ i : grid0.Coords, EltTy.bits .f32 = 32 ∨ (Rect.block (s := S64x2048x64) S32x16x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x16x64.size a ≤ S64x2048x64.size a
  hwx0_5 : ∀ i : grid0.Coords, EltTy.bits .f32 = 32 ∨ (Rect.block (s := S64x2048x64) S32x16x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16x64x16.size a ≤ S64x2048x64x16.size a
  hwx1_0 : ∀ i : grid1.Coords, EltTy.bits .f32 = 32 ∨ (Rect.block (s := S64x2048x64x16) S32x16x64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x16.size a ≤ S64x64x16.size a
  hwx1_1 : ∀ i : grid1.Coords, EltTy.bits .f32 = 32 ∨ (Rect.block (s := S64x64x16) S32x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x16x64.size a ≤ S64x2048x64.size a
  hwx1_2 : ∀ i : grid1.Coords, EltTy.bits .f32 = 32 ∨ (Rect.block (s := S64x2048x64) S32x16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x64x16.size a ≤ S64x64x16.size a
  hwx1_3 : ∀ i : grid1.Coords, EltTy.bits .f32 = 32 ∨ (Rect.block (s := S64x64x16) S32x64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x16x64.size a ≤ S64x2048x64.size a
  hwx1_4 : ∀ i : grid1.Coords, EltTy.bits .f32 = 32 ∨ (Rect.block (s := S64x2048x64) S32x16x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x16x64.size a ≤ S64x2048x64.size a
  hwx1_5 : ∀ i : grid1.Coords, EltTy.bits .f32 = 32 ∨ (Rect.block (s := S64x2048x64) S32x16x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x16x64x16.size a ≤ S64x2048x64x16.size a
  hwx2_0 : ∀ i : grid2.Coords, EltTy.bits .f32 = 32 ∨ (Rect.block (s := S64x2048x64x16) S32x16x64x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x64x16.size a ≤ S64x64x16.size a
  hwx2_1 : ∀ i : grid2.Coords, EltTy.bits .f32 = 32 ∨ (Rect.block (s := S64x64x16) S32x64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x16x64.size a ≤ S64x2048x64.size a
  hwx2_2 : ∀ i : grid2.Coords, EltTy.bits .f32 = 32 ∨ (Rect.block (s := S64x2048x64) S32x16x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x64x16.size a ≤ S64x64x16.size a
  hwx2_3 : ∀ i : grid2.Coords, EltTy.bits .f32 = 32 ∨ (Rect.block (s := S64x64x16) S32x64x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S32x16x64.size a ≤ S64x2048x64.size a
  hwx2_4 : ∀ i : grid2.Coords, EltTy.bits .f32 = 32 ∨ (Rect.block (s := S64x2048x64) S32x16x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S32x16x64.size a ≤ S64x2048x64.size a
  hwx2_5 : ∀ i : grid2.Coords, EltTy.bits .f32 = 32 ∨ (Rect.block (s := S64x2048x64) S32x16x64.size (cc2_transform_5 i) (hinb2_5 i)).WholeWords (EltTy.packing .f32)

variable [Facts₀]

abbrev win0_0 : Pipeline.Window sig grid0 :=
  Pipeline.Window.ofSpec (Memref.whole main_arg0) S32x16x64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S32x64x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S32x16x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S32x16x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S32x16x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S32x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S32x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S32x64x16.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S32x16x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16_2) S32x16x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S32x16x64x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S32x64x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16_1) S32x16x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30_0) S32x64x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30_1) S32x16x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v30_2) S32x16x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x2048x64x16 : Shape := ⟨4, ![64, 2048, 64, 16]⟩
abbrev S_ : Shape := ⟨0, ![]⟩
abbrev S64x2048x64x1 : Shape := ⟨4, ![64, 2048, 64, 1]⟩
abbrev S64x2048x1 : Shape := ⟨3, ![64, 2048, 1]⟩
abbrev S64x2048x1x1 : Shape := ⟨4, ![64, 2048, 1, 1]⟩
abbrev S64x64x16 : Shape := ⟨3, ![64, 64, 16]⟩
abbrev S64x1x64x16 : Shape := ⟨4, ![64, 1, 64, 16]⟩
abbrev S64x1x64 : Shape := ⟨3, ![64, 1, 64]⟩
abbrev S64x1x64x1 : Shape := ⟨4, ![64, 1, 64, 1]⟩
abbrev S64x2048x64 : Shape := ⟨3, ![64, 2048, 64]⟩
abbrev S64x64 : Shape := ⟨2, ![64, 64]⟩

abbrev nBuf : Space → Nat
  | .hbm => 139
  | .vmem => 0
  | .smem => 0
  | _ => 0

abbrev hbmTy0_0 (i : Nat) : BufTy := match i % 128 with
  | 0 => ⟨S64x2048x64x16, .f32⟩
  | 1 => ⟨S_, .f32⟩
  | 2 => ⟨S64x2048x64x1, .f32⟩
  | 3 => ⟨S_, .f32⟩
  | 4 => ⟨S64x2048x64x1, .f32⟩
  | 5 => ⟨S64x2048x64x1, .f32⟩
  | 6 => ⟨S_, .f32⟩
  | 7 => ⟨S64x2048x1, .f32⟩
  | 8 => ⟨S_, .f32⟩
  | 9 => ⟨S64x2048x1, .f32⟩
  | 10 => ⟨S64x2048x1, .f32⟩
  | 11 => ⟨S64x2048x1x1, .f32⟩
  | 12 => ⟨S64x2048x64x1, .f32⟩
  | 13 => ⟨S64x2048x64x1, .f32⟩
  | 14 => ⟨S64x2048x64x1, .f32⟩
  | 15 => ⟨S_, .f32⟩
  | 16 => ⟨S64x2048x1, .f32⟩
  | 17 => ⟨S64x2048x1x1, .f32⟩
  | 18 => ⟨S64x2048x64x1, .f32⟩
  | 19 => ⟨S64x2048x64x1, .f32⟩
  | 20 => ⟨S64x2048x64x16, .f32⟩
  | 21 => ⟨S64x2048x64x16, .f32⟩
  | 22 => ⟨S_, .f32⟩
  | 23 => ⟨S64x64x16, .f32⟩
  | 24 => ⟨S64x1x64x16, .f32⟩
  | 25 => ⟨S64x1x64x16, .f32⟩
  | 26 => ⟨S_, .f32⟩
  | 27 => ⟨S64x1x64, .f32⟩
  | 28 => ⟨S64x1x64x1, .f32⟩
  | 29 => ⟨S_, .f32⟩
  | 30 => ⟨S64x1x64x1, .f32⟩
  | 31 => ⟨S64x1x64x1, .f32⟩
  | 32 => ⟨S64x1x64x1, .f32⟩
  | 33 => ⟨S64x1x64x16, .f32⟩
  | 34 => ⟨S64x1x64x16, .f32⟩
  | 35 => ⟨S_, .f32⟩
  | 36 => ⟨S64x1x64x1, .f32⟩
  | 37 => ⟨S64x1x64x1, .f32⟩
  | 38 => ⟨S64x1x64x1, .f32⟩
  | 39 => ⟨S64x1x64x16, .f32⟩
  | 40 => ⟨S64x1x64x16, .f32⟩
  | 41 => ⟨S64x2048x64x16, .f32⟩
  | 42 => ⟨S64x2048x64x16, .f32⟩
  | 43 => ⟨S_, .f32⟩
  | 44 => ⟨S64x2048x64, .f32⟩
  | 45 => ⟨S64x2048x64x1, .f32⟩
  | 46 => ⟨S64x2048x64x1, .f32⟩
  | 47 => ⟨S_, .f32⟩
  | 48 => ⟨S64x2048x64x1, .f32⟩
  | 49 => ⟨S64x2048x64x1, .f32⟩
  | 50 => ⟨S_, .f32⟩
  | 51 => ⟨S64x2048x1, .f32⟩
  | 52 => ⟨S_, .f32⟩
  | 53 => ⟨S64x2048x1, .f32⟩
  | 54 => ⟨S64x2048x1, .f32⟩
  | 55 => ⟨S64x2048x1x1, .f32⟩
  | 56 => ⟨S64x2048x64x1, .f32⟩
  | 57 => ⟨S64x2048x64x1, .f32⟩
  | 58 => ⟨S64x2048x64x1, .f32⟩
  | 59 => ⟨S_, .f32⟩
  | 60 => ⟨S64x2048x1, .f32⟩
  | 61 => ⟨S64x2048x1x1, .f32⟩
  | 62 => ⟨S64x2048x64x1, .f32⟩
  | 63 => ⟨S64x2048x64x1, .f32⟩
  | 64 => ⟨S64x2048x64x16, .f32⟩
  | 65 => ⟨S64x2048x64x16, .f32⟩
  | 66 => ⟨S_, .f32⟩
  | 67 => ⟨S64x64x16, .f32⟩
  | 68 => ⟨S64x1x64x16, .f32⟩
  | 69 => ⟨S64x1x64x16, .f32⟩
  | 70 => ⟨S_, .f32⟩
  | 71 => ⟨S64x1x64, .f32⟩
  | 72 => ⟨S64x1x64x1, .f32⟩
  | 73 => ⟨S_, .f32⟩
  | 74 => ⟨S64x1x64x1, .f32⟩
  | 75 => ⟨S64x1x64x1, .f32⟩
  | 76 => ⟨S64x1x64x1, .f32⟩
  | 77 => ⟨S64x1x64x16, .f32⟩
  | 78 => ⟨S64x1x64x16, .f32⟩
  | 79 => ⟨S_, .f32⟩
  | 80 => ⟨S64x1x64x1, .f32⟩
  | 81 => ⟨S64x1x64x1, .f32⟩
  | 82 => ⟨S64x1x64x1, .f32⟩
  | 83 => ⟨S64x1x64x16, .f32⟩
  | 84 => ⟨S64x1x64x16, .f32⟩
  | 85 => ⟨S64x2048x64x16, .f32⟩
  | 86 => ⟨S64x2048x64x16, .f32⟩
  | 87 => ⟨S_, .f32⟩
  | 88 => ⟨S64x2048x64, .f32⟩
  | 89 => ⟨S64x2048x64x1, .f32⟩
  | 90 => ⟨S64x2048x64x1, .f32⟩
  | 91 => ⟨S_, .f32⟩
  | 92 => ⟨S64x2048x64x1, .f32⟩
  | 93 => ⟨S64x2048x64x1, .f32⟩
  | 94 => ⟨S_, .f32⟩
  | 95 => ⟨S64x2048x1, .f32⟩
  | 96 => ⟨S_, .f32⟩
  | 97 => ⟨S64x2048x1, .f32⟩
  | 98 => ⟨S64x2048x1, .f32⟩
  | 99 => ⟨S64x2048x1x1, .f32⟩
  | 100 => ⟨S64x2048x64x1, .f32⟩
  | 101 => ⟨S64x2048x64x1, .f32⟩
  | 102 => ⟨S64x2048x64x1, .f32⟩
  | 103 => ⟨S_, .f32⟩
  | 104 => ⟨S64x2048x1, .f32⟩
  | 105 => ⟨S64x2048x1x1, .f32⟩
  | 106 => ⟨S64x2048x64x1, .f32⟩
  | 107 => ⟨S64x2048x64x1, .f32⟩
  | 108 => ⟨S64x2048x64x16, .f32⟩
  | 109 => ⟨S64x2048x64x16, .f32⟩
  | 110 => ⟨S_, .f32⟩
  | 111 => ⟨S64x64x16, .f32⟩
  | 112 => ⟨S64x1x64x16, .f32⟩
  | 113 => ⟨S64x1x64x16, .f32⟩
  | 114 => ⟨S_, .f32⟩
  | 115 => ⟨S64x1x64, .f32⟩
  | 116 => ⟨S64x1x64x1, .f32⟩
  | 117 => ⟨S_, .f32⟩
  | 118 => ⟨S64x1x64x1, .f32⟩
  | 119 => ⟨S64x1x64x1, .f32⟩
  | 120 => ⟨S64x1x64x1, .f32⟩
  | 121 => ⟨S64x1x64x16, .f32⟩
  | 122 => ⟨S64x1x64x16, .f32⟩
  | 123 => ⟨S_, .f32⟩
  | 124 => ⟨S64x1x64x1, .f32⟩
  | 125 => ⟨S64x1x64x1, .f32⟩
  | 126 => ⟨S64x1x64x1, .f32⟩
  | 127 => ⟨S64x1x64x16, .f32⟩
  | _ => ⟨S64x2048x64x16, .f32⟩

abbrev hbmTy0_1 (i : Nat) : BufTy := match i % 128 with
  | 0 => ⟨S64x1x64x16, .f32⟩
  | 1 => ⟨S64x64x16, .f32⟩
  | 2 => ⟨S64x1x64x16, .f32⟩
  | 3 => ⟨S_, .f32⟩
  | 4 => ⟨S64x1x64, .f32⟩
  | 5 => ⟨S_, .f32⟩
  | 6 => ⟨S64x1x64, .f32⟩
  | 7 => ⟨S64x1x64, .f32⟩
  | 8 => ⟨S64x1x64, .f32⟩
  | 9 => ⟨S64x64, .f32⟩
  | 10 => ⟨S64x2048x64, .f32⟩
  | _ => ⟨S64x2048x64x16, .f32⟩

abbrev hbmTy (i : Nat) : BufTy := match i / 128 with
  | 0 => hbmTy0_0 i
  | 1 => hbmTy0_1 i
  | _ => ⟨S64x2048x64x16, .f32⟩

abbrev bufTy : (tb : Table) → Fin (tcTables nBuf tb) → BufTy
  | .hbm, ⟨i, _⟩ => hbmTy i
  | _, _ => ⟨S64x2048x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_8 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_9 : Ref sig .tc := ⟨.hbm, 47, rfl⟩
abbrev main_v36 : Ref sig .tc := ⟨.hbm, 48, rfl⟩
abbrev main_v37 : Ref sig .tc := ⟨.hbm, 49, rfl⟩
abbrev main_cst_10 : Ref sig .tc := ⟨.hbm, 50, rfl⟩
abbrev main_v38 : Ref sig .tc := ⟨.hbm, 51, rfl⟩
abbrev main_cst_11 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_12 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_13 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_14 : Ref sig .tc := ⟨.hbm, 70, rfl⟩
abbrev main_v54 : Ref sig .tc := ⟨.hbm, 71, rfl⟩
abbrev main_v55 : Ref sig .tc := ⟨.hbm, 72, rfl⟩
abbrev main_cst_15 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_16 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_17 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_18 : Ref sig .tc := ⟨.hbm, 91, rfl⟩
abbrev main_v71 : Ref sig .tc := ⟨.hbm, 92, rfl⟩
abbrev main_v72 : Ref sig .tc := ⟨.hbm, 93, rfl⟩
abbrev main_cst_19 : Ref sig .tc := ⟨.hbm, 94, rfl⟩
abbrev main_v73 : Ref sig .tc := ⟨.hbm, 95, rfl⟩
abbrev main_cst_20 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_21 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_22 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_23 : Ref sig .tc := ⟨.hbm, 114, rfl⟩
abbrev main_v89 : Ref sig .tc := ⟨.hbm, 115, rfl⟩
abbrev main_v90 : Ref sig .tc := ⟨.hbm, 116, rfl⟩
abbrev main_cst_24 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_25 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_26 : Ref sig .tc := ⟨.hbm, 131, rfl⟩
abbrev main_v103 : Ref sig .tc := ⟨.hbm, 132, rfl⟩
abbrev main_cst_27 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩

abbrev nD : Nat := 1
abbrev τ : Topo := Topo.v7x

variable {F : FTy → Type} [FloatOps F]

class Facts₀ : Prop where
  bcast_S_S64x2048x64x1 : S_.BroadcastsInDim S64x2048x64x1 (![] : Fin 0 → Fin S64x2048x64x1.rank)
  reducesTo_S64x2048x64x1_S64x2048x1_d2 : S64x2048x64x1.ReducesTo [2] S64x2048x1
  h_S_ : 0 < S_.numel
  bcast_S_S64x2048x1 : S_.BroadcastsInDim S64x2048x1 (![] : Fin 0 → Fin S64x2048x1.rank)
  bcast_S64x2048x1_S64x2048x1x1_0_1_3 : S64x2048x1.BroadcastsInDim S64x2048x1x1 (![0, 1, 3] : Fin 3 → Fin S64x2048x1x1.rank)
  bcast_S64x2048x1x1_S64x2048x64x1_0_1_2_3 : S64x2048x1x1.BroadcastsInDim S64x2048x64x1 (![0, 1, 2, 3] : Fin 4 → Fin S64x2048x64x1.rank)
  bcast_S64x2048x64x1_S64x2048x64x16_0_1_2_3 : S64x2048x64x1.BroadcastsInDim S64x2048x64x16 (![0, 1, 2, 3] : Fin 4 → Fin S64x2048x64x16.rank)
  reducesTo_S64x2048x64x16_S64x64x16_d1 : S64x2048x64x16.ReducesTo [1] S64x64x16
  bcast_S64x64x16_S64x1x64x16_0_2_3 : S64x64x16.BroadcastsInDim S64x1x64x16 (![0, 2, 3] : Fin 3 → Fin S64x1x64x16.rank)
  reducesTo_S64x1x64x16_S64x1x64_d3 : S64x1x64x16.ReducesTo [3] S64x1x64
  bcast_S64x1x64_S64x1x64x1_0_1_2 : S64x1x64.BroadcastsInDim S64x1x64x1 (![0, 1, 2] : Fin 3 → Fin S64x1x64x1.rank)
  bcast_S_S64x1x64x1 : S_.BroadcastsInDim S64x1x64x1 (![] : Fin 0 → Fin S64x1x64x1.rank)
  bcast_S64x1x64x1_S64x1x64x16_0_1_2_3 : S64x1x64x1.BroadcastsInDim S64x1x64x16 (![0, 1, 2, 3] : Fin 4 → Fin S64x1x64x16.rank)
  bcast_S64x1x64x16_S64x2048x64x16_0_1_2_3 : S64x1x64x16.BroadcastsInDim S64x2048x64x16 (![0, 1, 2, 3] : Fin 4 → Fin S64x2048x64x16.rank)
  reducesTo_S64x2048x64x16_S64x2048x64_d3 : S64x2048x64x16.ReducesTo [3] S64x2048x64
  bcast_S64x2048x64_S64x2048x64x1_0_1_2 : S64x2048x64.BroadcastsInDim S64x2048x64x1 (![0, 1, 2] : Fin 3 → Fin S64x2048x64x1.rank)
  shapeCasts_S64x1x64x16_S64x64x16 : S64x1x64x16.ShapeCasts S64x64x16
  bcast_S_S64x1x64 : S_.BroadcastsInDim S64x1x64 (![] : Fin 0 → Fin S64x1x64.rank)
  shapeCasts_S64x1x64_S64x64 : S64x1x64.ShapeCasts S64x64
  shapeCasts_S64x2048x64x1_S64x2048x64 : S64x2048x64x1.ShapeCasts S64x2048x64

variable [Facts₀]

class Facts : Prop extends Facts₀ where

variable [Facts]
-- ==== Proof.Spec.lean ====
/-
  Routing by agreement between capsules, on the extended reals.

  A vote tensor `P b n o d` (batch b, input capsule n, output capsule o, pose coordinate d) is routed in three
  rounds. A round takes routing logits `bl b n o` and output capsules `v b o d` and forms
    the updated logits      bl b n o + ∑ d, v b o d * P b n o d                    (`passLogits`),
    the coupling weights    the softmax over o of (logits * 1), each row shifted by max(-∞, its maximum) (`coupling`),
    the weighted votes      ∑ n, c b n o * P b n o d                               (`wsum`),
  and between rounds the weighted votes are squashed: s ↦ s * (|s|² / (1 + |s|²)) / √(|s|² + ε) with |s|² the sum of
  squares over d. The first round starts from zero logits; with zero capsules its update adds ∑ d, 0 * P = 0, so the
  logits it leaves are again zero (`passLogits_zero`): that is the only place where the two programs' formulas differ
  before the sums are regrouped. Every sum here is a plain finite sum of extended reals; the float literals (1, -∞, ε)
  stay as their bit patterns and are never evaluated.

  Also here: the sum over the 2048 input capsules cut into 128 consecutive blocks of 16 (`sum_blocks`), which is how a
  tiled pass accumulates the weighted votes.
-/
import Idealize.ShloMosaic.PureOps.Ideal
import Idealize.ShloMosaic.PureOps.Ideal.Laws
import Idealize.ShloMosaic.Lib.ValueIdx

noncomputable section

namespace Cert.Routing

open Idealize.ShloMosaic Idealize.ShloMosaic.ValueIdx

/-- Votes `P b n o d`; capsule arrays `s b o d`; logits and coupling weights `x b n o`. The batch index `b : B` and the
    input-capsule index `n : N` range over any types (the whole arrays: `Fin 64` and `Fin 2048`; one tile: `Fin 32` and
    `Fin 16`): everything but the weighted sum is pointwise in them, so a tile of a round is the round of the tiles. -/
abbrev Votes (B N : Type) := B → N → Fin 64 → Fin 16 → EReal
abbrev Caps (B : Type) := B → Fin 64 → Fin 16 → EReal
abbrev Logits (B N : Type) := B → N → Fin 64 → EReal

variable {B N : Type}

/-- The literals 1.0, -∞ and ε = f32(1e-9), as the extended reals their patterns denote. -/
def one : EReal := Ideal.ofBits .f32 0x3F800000#32
def ninf : EReal := Ideal.ofBits .f32 0xFF800000#32
def eps : EReal := Ideal.ofBits .f32 0x3089705F#32

/-- Agreement of an output capsule with each vote: the inner product over the pose coordinate. -/
def agree (v : Caps B) (P : Votes B N) : Logits B N := fun b n o => ∑ d : Fin 16, v b o d * P b n o d

/-- The logits a round leaves. -/
def passLogits (P : Votes B N) (v : Caps B) (bl : Logits B N) : Logits B N := fun b n o => bl b n o + agree v P b n o

/-- The shift of a row: max(-∞, the row's maximum folded from -∞). -/
def rowMax (x : Logits B N) (b : B) (n : N) : EReal :=
  max ninf ((Finset.univ : Finset (Fin 64)).fold max ninf (fun o => x b n o))

/-- The shifted exponentials of a row. -/
def expo (x : Logits B N) : Logits B N := fun b n o => Ideal.exp (x b n o - rowMax x b n)

/-- The softmax over the output capsules. -/
def softmax (x : Logits B N) : Logits B N := fun b n o => Ideal.div (expo x b n o) (∑ o' : Fin 64, expo x b n o')

/-- The coupling weights of logits: softmax of (logits * 1). -/
def coupling (bl : Logits B N) : Logits B N := softmax (fun b n o => bl b n o * one)

/-- The votes weighted by the couplings and summed over the input capsules. -/
def wsum [Fintype N] (c : Logits B N) (P : Votes B N) : Caps B := fun b o d => ∑ n : N, c b n o * P b n o d

/-- The squared length of a capsule. -/
def norm2 (s : Caps B) (b : B) (o : Fin 64) : EReal := ∑ d : Fin 16, s b o d * s b o d

/-- The squashing non-linearity. -/
def squash (s : Caps B) : Caps B := fun b o d =>
  Ideal.div (s b o d * Ideal.div (norm2 s b o) (one + norm2 s b o)) (Ideal.sqrt (norm2 s b o + eps))

/-- The coupling weights and the weighted votes one round leaves. -/
def passCoupling (P : Votes B N) (v : Caps B) (bl : Logits B N) : Logits B N := coupling (passLogits P v bl)
def passCaps [Fintype N] (P : Votes B N) (v : Caps B) (bl : Logits B N) : Caps B := wsum (passCoupling P v bl) P

/-- Zero capsules leave zero logits zero: `0 + ∑ d, 0 * P = 0` on the extended reals, at any votes. -/
theorem passLogits_zero (P : Votes B N) : passLogits P (fun _ _ _ => 0) (fun _ _ _ => 0) = fun _ _ _ => 0 := by
  funext b n o
  simp [passLogits, agree]

/-! ## The three rounds, on the whole arrays -/

abbrev Votes' := Votes (Fin 64) (Fin 2048)
abbrev Caps' := Caps (Fin 64)
abbrev Logits' := Logits (Fin 64) (Fin 2048)

def logits0 : Logits' := fun _ _ _ => 0
def caps0 (P : Votes') : Caps' := squash (wsum (coupling logits0) P)
def logits1 (P : Votes') : Logits' := passLogits P (caps0 P) logits0
def caps1 (P : Votes') : Caps' := squash (wsum (coupling (logits1 P)) P)
def logits2 (P : Votes') : Logits' := passLogits P (caps1 P) (logits1 P)
/-- The final coupling weights, the final capsules (the pose), and their lengths (the probability). -/
def couplingOut (P : Votes') : Logits' := coupling (logits2 P)
def pose (P : Votes') : Caps' := squash (wsum (couplingOut P) P)
def prob (P : Votes') (b o : Fin 64) : EReal := Ideal.sqrt (norm2 (pose P) b o + eps)

/-! ## Arrays and coordinate functions -/

def votesOf (A : (⟨4, ![64, 2048, 64, 16]⟩ : Shape).Idx → EReal) : Votes' := fun b n o d => A (ix4 b n o d)
def capsOf (A : (⟨3, ![64, 64, 16]⟩ : Shape).Idx → EReal) : Caps' := fun b o d => A (ix3 b o d)
def logitsOf (A : (⟨3, ![64, 2048, 64]⟩ : Shape).Idx → EReal) : Logits' := fun b n o => A (ix3 b n o)
def capsArr (s : Caps') : (⟨3, ![64, 64, 16]⟩ : Shape).Idx → EReal := fun i => s (i 0) (i 1) (i 2)
def logitsArr (x : Logits') : (⟨3, ![64, 2048, 64]⟩ : Shape).Idx → EReal := fun i => x (i 0) (i 1) (i 2)
def lenArr (p : Fin 64 → Fin 64 → EReal) : (⟨2, ![64, 64]⟩ : Shape).Idx → EReal := fun i => p (i 0) (i 1)

theorem capsOf_capsArr (s : Caps') : capsOf (capsArr s) = s := rfl
theorem logitsOf_logitsArr (x : Logits') : logitsOf (logitsArr x) = x := rfl
theorem capsArr_ix3 (s : Caps') (b o : Fin 64) (d : Fin 16) : capsArr s (ix3 b o d) = s b o d := rfl
theorem logitsArr_ix3 (x : Logits') (b : Fin 64) (n : Fin 2048) (o : Fin 64) : logitsArr x (ix3 b n o) = x b n o := rfl
theorem lenArr_ix2 (p : Fin 64 → Fin 64 → EReal) (b o : Fin 64) : lenArr p (ix2 b o) = p b o := rfl

/-- An array is determined by its values at coordinate triples. -/
theorem capsArr_ext {X : (⟨3, ![64, 64, 16]⟩ : Shape).Idx → EReal} {s : Caps'}
    (h : ∀ b o d, X (ix3 b o d) = s b o d) : X = capsArr s := by
  funext i; rw [eq_ix3 i]; exact h _ _ _
theorem logitsArr_ext {X : (⟨3, ![64, 2048, 64]⟩ : Shape).Idx → EReal} {x : Logits'}
    (h : ∀ b n o, X (ix3 b n o) = x b n o) : X = logitsArr x := by
  funext i; rw [eq_ix3 i]; exact h _ _ _
theorem lenArr_ext {X : (⟨2, ![64, 64]⟩ : Shape).Idx → EReal} {p : Fin 64 → Fin 64 → EReal}
    (h : ∀ b o, X (ix2 b o) = p b o) : X = lenArr p := by
  funext i; rw [eq_ix2 i]; exact h _ _

/-! ## A sum over 2048 as 128 blocks of 16 -/

/-- Input capsule `16 j + k`: entry k of block j. -/
def blockAt (j : Fin 128) (k : Fin 16) : Fin 2048 := ⟨16 * j.val + k.val, by have := j.isLt; have := k.isLt; omega⟩

theorem sum_blocks {M : Type*} [AddCommMonoid M] (f : Fin 2048 → M) :
    ∑ n : Fin 2048, f n = ∑ j : Fin 128, ∑ k : Fin 16, f (blockAt j k) := by
  rw [← Fintype.sum_prod_type']
  refine (Fintype.sum_equiv (finProdFinEquiv (m := 128) (n := 16)) _ _ (fun p => ?_)).symm
  refine congrArg f (Fin.ext ?_)
  show 16 * p.1.val + p.2.val = p.2.val + 16 * p.1.val
  omega

end Cert.Routing

end
-- ==== Proof.RefValue.lean ====
/-
  The reference's three rounds of routing by agreement, read index by index on the extended reals.

  The reference keeps logits and coupling weights as arrays [64, 2048, 64, 1], capsules as [64, 1, 64, 16] and the
  votes as [64, 2048, 64, 16]; every step of a round is an elementwise operation, a broadcast along a unit axis, or a
  reduction over one axis. Read at an index with explicit coordinates each of them is the corresponding formula of
  the specification:
    the row maximum          fold of max from -∞ over the 64 output capsules, then max with -∞   (`rowmax_read`),
    the shifted exponential  exp (x - that maximum)                                               (`expo_read`),
    the softmax              the exponential over 0 + the row's sum of exponentials               (`softmax_read`),
    the weighted votes       0 + ∑ n, c b n o * P b n o d                                         (`wsum_read`),
    the squared length       0 + ∑ d, s b o d * s b o d                                           (`norm2_read`),
    the squashing            s * (|s|² / (1 + |s|²)) / √(|s|² + ε)                                (`squash_read`),
    the agreement update     bl b n o + (0 + ∑ d, v b o d * P b n o d)                            (`pass_read`).
  The only arithmetic used is 0 + x = x for the zero each sum starts from (the zero word is the extended real 0); the
  literals 1, -∞ and ε stay as the values their bit patterns denote. A reduction over one axis is the sum (or fold)
  over that axis's coordinate with the other coordinates fixed; the index it visits is written out by coordinates
  (`lift_d1`, `lift_d2`, `lift_d3`, `lift_c3`), and so is the source index of each broadcast.
  Each stage lemma is stated over an arbitrary source array together with the coordinate function it is known to
  equal, so the three rounds are three instances of the same lemmas, chained through the named intermediates of the
  generated run (`v0_eq` … `v100_eq`). The three results are then reshapes that keep the row-major position.
-/
import proofs.«134254_j89060441849992_2_alg».proof.Proof.Spec
import proofs.«134254_j89060441849992_2_alg».proof.Proof.Gen.ReferenceIdeal.Run
import Idealize.ShloMosaic.Lib.ValueIdx
import Idealize.ShloMosaic.Lib.Pipeline.Value
import Idealize.ShloMosaic.Lib.IdealHost
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Value Cert.Routing Idealize.ShloMosaic.ValueIdx

/-- A scalar constant broadcast to any shape reads the value its word denotes. -/
theorem bconst_apply {T : Shape} (h : (⟨0, ![]⟩ : Shape).BroadcastsInDim T ![]) (w : BitVec 32) (i : T.Idx) :
    (broadcastInDim T ![] h (constant (F := Ideal) S_ .f32 w) : FVec Ideal T .f32) i = Ideal.ofBits .f32 w := by
  rw [broadcastInDim_scalar_apply, constant_apply]

theorem red_d2 : S64x2048x64x1.Reduces [2] S64x2048x1 := by decide

theorem lift_d2 (b : Fin 64) (n : Fin 2048) (k : Fin 64) :
    red_d2.lift (ix3 b n (0 : Fin 1)) k = ix4 b n k (0 : Fin 1) := by
  funext c
  match c with
  | ⟨0, _⟩ => rfl
  | ⟨1, _⟩ => rfl
  | ⟨2, _⟩ => rfl
  | ⟨3, _⟩ => rfl

/-- A per-row value broadcast back along the output-capsule axis reads the row's value. -/
theorem bcRow_apply {α : Type} (Y : S64x2048x1.Idx → α) (b : Fin 64) (n : Fin 2048) (o : Fin 64) :
    broadcastInDim S64x2048x64x1 ![0, 1, 2, 3] bcast_S64x2048x1x1_S64x2048x64x1_0_1_2_3
      (broadcastInDim S64x2048x1x1 ![0, 1, 3] bcast_S64x2048x1_S64x2048x1x1_0_1_3 Y) (ix4 b n o (0 : Fin 1))
      = Y (ix3 b n (0 : Fin 1)) := by
  refine (broadcastInDim_apply _ _ _ (ix4 b n o (0 : Fin 1)) (ix4 b n (0 : Fin 1) (0 : Fin 1)) (fun a => ?_)).trans ?_
  · match a with
    | ⟨0, _⟩ => rfl
    | ⟨1, _⟩ => rfl
    | ⟨2, _⟩ => rfl
    | ⟨3, _⟩ => rfl
  · refine broadcastInDim_apply _ _ _ (ix4 b n (0 : Fin 1) (0 : Fin 1)) (ix3 b n (0 : Fin 1)) (fun a => ?_)
    match a with
    | ⟨0, _⟩ => rfl
    | ⟨1, _⟩ => rfl
    | ⟨2, _⟩ => rfl

theorem hostExp_apply {s : Shape} (x : FVec Ideal s .f32) (i : s.Idx) : Host.exp x i = Ideal.exp (x i) := rfl
theorem hostSqrt_apply {s : Shape} (x : FVec Ideal s .f32) (i : s.Idx) : Host.sqrt x i = Ideal.sqrt (x i) := rfl

/-- The maximum of a row of logits, folded from -∞ over the 64 output capsules. -/
theorem rowmax_read (X : FVec Ideal S64x2048x64x1 .f32) (x : Logits') (hX : ∀ b n o, X (ix4 b n o 0) = x b n o)
    (b : Fin 64) (n : Fin 2048) :
    (Host.reduce FloatOps.maximumf X (constant (F := Ideal) S_ .f32 0xFF800000#32) reducesTo_S64x2048x64x1_S64x2048x1_d2 h_S_ : FVec Ideal S64x2048x1 .f32) (ix3 b n 0)
      = (Finset.univ : Finset (Fin 64)).fold max ninf (fun o => x b n o) := by
  refine (Host.reduce_eq_fold_single (FloatOps.maximumf (F := Ideal) (φ := .f32)) X _ reducesTo_S64x2048x64x1_S64x2048x1_d2 red_d2 h_S_ (ix3 b n 0)).trans ?_
  have hf : (X ∘ red_d2.lift (ix3 b n (0 : Fin 1))) = fun o : Fin 64 => x b n o :=
    funext fun k => (congrArg X (lift_d2 b n k)).trans (hX b n k)
  rw [hf]
  rfl

/-- The shifted exponentials of an array of logits. -/
theorem expo_read (X : FVec Ideal S64x2048x64x1 .f32) (x : Logits') (hX : ∀ b n o, X (ix4 b n o 0) = x b n o)
    (b : Fin 64) (n : Fin 2048) (o : Fin 64) :
    (Host.exp (subf X (broadcastInDim S64x2048x64x1 ![0, 1, 2, 3] bcast_S64x2048x1x1_S64x2048x64x1_0_1_2_3 (broadcastInDim S64x2048x1x1 ![0, 1, 3] bcast_S64x2048x1_S64x2048x1x1_0_1_3 (maximumf (broadcastInDim S64x2048x1 ![] bcast_S_S64x2048x1 (constant S_ .f32 0xFF800000#32)) (Host.reduce FloatOps.maximumf X (constant S_ .f32 0xFF800000#32) reducesTo_S64x2048x64x1_S64x2048x1_d2 h_S_))))) : FVec Ideal S64x2048x64x1 .f32) (ix4 b n o 0)
      = expo x b n o := by
  rw [hostExp_apply, subf_apply, bcRow_apply, maximumf_apply, bconst_apply, rowmax_read X x hX, hX]
  rfl

/-- The softmax: the shifted exponentials over their row sums. -/
theorem softmax_read (E : FVec Ideal S64x2048x64x1 .f32) (x : Logits') (hE : ∀ b n o, E (ix4 b n o 0) = expo x b n o)
    (b : Fin 64) (n : Fin 2048) (o : Fin 64) :
    (Host.divf E (broadcastInDim S64x2048x64x1 ![0, 1, 2, 3] bcast_S64x2048x1x1_S64x2048x64x1_0_1_2_3 (broadcastInDim S64x2048x1x1 ![0, 1, 3] bcast_S64x2048x1_S64x2048x1x1_0_1_3 (Host.reduceAdd E (constant S_ .f32 0x00000000#32) reducesTo_S64x2048x64x1_S64x2048x1_d2 h_S_))) : FVec Ideal S64x2048x64x1 .f32) (ix4 b n o 0)
      = softmax x b n o := by
  rw [hostDivf_apply, bcRow_apply, hostReduceAdd_apply, Ideal.hostReduceAdd_single _ red_d2, constant_apply,
    Ideal.ofBits_zero_f32, zero_add, hE]
  refine congrArg (Ideal.div (expo x b n o)) ?_
  exact Finset.sum_congr rfl fun k _ => (congrArg E (lift_d2 b n k)).trans (hE b n k)

theorem red_d1 : S64x2048x64x16.Reduces [1] S64x64x16 := by decide
theorem red_d3 : S64x2048x64x16.Reduces [3] S64x2048x64 := by decide
theorem red_c3 : S64x1x64x16.Reduces [3] S64x1x64 := by decide

theorem lift_d1 (b : Fin 64) (o : Fin 64) (d : Fin 16) (k : Fin 2048) :
    red_d1.lift (ix3 b o d) k = ix4 b k o d := by
  funext c
  match c with
  | ⟨0, _⟩ => rfl
  | ⟨1, _⟩ => rfl
  | ⟨2, _⟩ => rfl
  | ⟨3, _⟩ => rfl

theorem lift_d3 (b : Fin 64) (n : Fin 2048) (o : Fin 64) (k : Fin 16) :
    red_d3.lift (ix3 b n o) k = ix4 b n o k := by
  funext c
  match c with
  | ⟨0, _⟩ => rfl
  | ⟨1, _⟩ => rfl
  | ⟨2, _⟩ => rfl
  | ⟨3, _⟩ => rfl

theorem lift_c3 (b : Fin 64) (o : Fin 64) (k : Fin 16) :
    red_c3.lift (ix3 b (0 : Fin 1) o) k = ix4 b (0 : Fin 1) o k := by
  funext c
  match c with
  | ⟨0, _⟩ => rfl
  | ⟨1, _⟩ => rfl
  | ⟨2, _⟩ => rfl
  | ⟨3, _⟩ => rfl

/-- Couplings broadcast along the pose coordinate. -/
theorem bcPose_apply {α : Type} (C : S64x2048x64x1.Idx → α) (b : Fin 64) (n : Fin 2048) (o : Fin 64) (d : Fin 16) :
    broadcastInDim S64x2048x64x16 ![0, 1, 2, 3] bcast_S64x2048x64x1_S64x2048x64x16_0_1_2_3 C (ix4 b n o d)
      = C (ix4 b n o (0 : Fin 1)) := by
  refine broadcastInDim_apply _ _ _ (ix4 b n o d) (ix4 b n o (0 : Fin 1)) (fun a => ?_)
  match a with
  | ⟨0, _⟩ => rfl
  | ⟨1, _⟩ => rfl
  | ⟨2, _⟩ => rfl
  | ⟨3, _⟩ => rfl

/-- A capsule array given a unit input-capsule axis. -/
theorem bcUnitN_apply {α : Type} (W : S64x64x16.Idx → α) (b : Fin 64) (o : Fin 64) (d : Fin 16) :
    broadcastInDim S64x1x64x16 ![0, 2, 3] bcast_S64x64x16_S64x1x64x16_0_2_3 W (ix4 b (0 : Fin 1) o d)
      = W (ix3 b o d) := by
  refine broadcastInDim_apply _ _ _ (ix4 b (0 : Fin 1) o d) (ix3 b o d) (fun a => ?_)
  match a with
  | ⟨0, _⟩ => rfl
  | ⟨1, _⟩ => rfl
  | ⟨2, _⟩ => rfl

/-- A per-capsule scalar given a unit pose axis. -/
theorem bcUnitD_apply {α : Type} (W : S64x1x64.Idx → α) (b : Fin 64) (o : Fin 64) :
    broadcastInDim S64x1x64x1 ![0, 1, 2] bcast_S64x1x64_S64x1x64x1_0_1_2 W (ix4 b (0 : Fin 1) o (0 : Fin 1))
      = W (ix3 b (0 : Fin 1) o) := by
  refine broadcastInDim_apply _ _ _ (ix4 b (0 : Fin 1) o (0 : Fin 1)) (ix3 b (0 : Fin 1) o) (fun a => ?_)
  match a with
  | ⟨0, _⟩ => rfl
  | ⟨1, _⟩ => rfl
  | ⟨2, _⟩ => rfl

/-- A per-capsule scalar broadcast along the pose coordinate. -/
theorem bcCapD_apply {α : Type} (W : S64x1x64x1.Idx → α) (b : Fin 64) (o : Fin 64) (d : Fin 16) :
    broadcastInDim S64x1x64x16 ![0, 1, 2, 3] bcast_S64x1x64x1_S64x1x64x16_0_1_2_3 W (ix4 b (0 : Fin 1) o d)
      = W (ix4 b (0 : Fin 1) o (0 : Fin 1)) := by
  refine broadcastInDim_apply _ _ _ (ix4 b (0 : Fin 1) o d) (ix4 b (0 : Fin 1) o (0 : Fin 1)) (fun a => ?_)
  match a with
  | ⟨0, _⟩ => rfl
  | ⟨1, _⟩ => rfl
  | ⟨2, _⟩ => rfl
  | ⟨3, _⟩ => rfl

/-- Capsules broadcast along the input capsules. -/
theorem bcCapN_apply {α : Type} (W : S64x1x64x16.Idx → α) (b : Fin 64) (n : Fin 2048) (o : Fin 64) (d : Fin 16) :
    broadcastInDim S64x2048x64x16 ![0, 1, 2, 3] bcast_S64x1x64x16_S64x2048x64x16_0_1_2_3 W (ix4 b n o d)
      = W (ix4 b (0 : Fin 1) o d) := by
  refine broadcastInDim_apply _ _ _ (ix4 b n o d) (ix4 b (0 : Fin 1) o d) (fun a => ?_)
  match a with
  | ⟨0, _⟩ => rfl
  | ⟨1, _⟩ => rfl
  | ⟨2, _⟩ => rfl
  | ⟨3, _⟩ => rfl

/-- Logits given a unit pose axis. -/
theorem bcUnitL_apply {α : Type} (W : S64x2048x64.Idx → α) (b : Fin 64) (n : Fin 2048) (o : Fin 64) :
    broadcastInDim S64x2048x64x1 ![0, 1, 2] bcast_S64x2048x64_S64x2048x64x1_0_1_2 W (ix4 b n o (0 : Fin 1))
      = W (ix3 b n o) := by
  refine broadcastInDim_apply _ _ _ (ix4 b n o (0 : Fin 1)) (ix3 b n o) (fun a => ?_)
  match a with
  | ⟨0, _⟩ => rfl
  | ⟨1, _⟩ => rfl
  | ⟨2, _⟩ => rfl

/-- The votes weighted by couplings and summed over the 2048 input capsules. -/
theorem wsum_read (C : FVec Ideal S64x2048x64x1 .f32) (A : FVec Ideal S64x2048x64x16 .f32) (c : Logits')
    (hC : ∀ b n o, C (ix4 b n o 0) = c b n o) (b : Fin 64) (o : Fin 64) (d : Fin 16) :
    (broadcastInDim S64x1x64x16 ![0, 2, 3] bcast_S64x64x16_S64x1x64x16_0_2_3 (Host.reduceAdd (mulf (broadcastInDim S64x2048x64x16 ![0, 1, 2, 3] bcast_S64x2048x64x1_S64x2048x64x16_0_1_2_3 C) A) (constant S_ .f32 0x00000000#32) reducesTo_S64x2048x64x16_S64x64x16_d1 h_S_) : FVec Ideal S64x1x64x16 .f32) (ix4 b 0 o d)
      = wsum c (votesOf A) b o d := by
  rw [bcUnitN_apply, hostReduceAdd_apply, Ideal.hostReduceAdd_single _ red_d1, constant_apply,
    Ideal.ofBits_zero_f32, zero_add]
  have hk : ∀ k : Fin 2048, (mulf (broadcastInDim S64x2048x64x16 ![0, 1, 2, 3] bcast_S64x2048x64x1_S64x2048x64x16_0_1_2_3 C) A : FVec Ideal S64x2048x64x16 .f32) (red_d1.lift (ix3 b o d) k)
      = c b k o * votesOf A b k o d := fun k => by
    rw [lift_d1, mulf_apply, bcPose_apply, hC]
    rfl
  exact Finset.sum_congr rfl fun k _ => hk k

/-- The squared length of a capsule. -/
theorem norm2_read (S : FVec Ideal S64x1x64x16 .f32) (s : Caps') (hS : ∀ b o d, S (ix4 b 0 o d) = s b o d)
    (b : Fin 64) (o : Fin 64) :
    (broadcastInDim S64x1x64x1 ![0, 1, 2] bcast_S64x1x64_S64x1x64x1_0_1_2 (Host.reduceAdd (mulf S S) (constant S_ .f32 0x00000000#32) reducesTo_S64x1x64x16_S64x1x64_d3 h_S_) : FVec Ideal S64x1x64x1 .f32) (ix4 b 0 o 0)
      = norm2 s b o := by
  rw [bcUnitD_apply, hostReduceAdd_apply, Ideal.hostReduceAdd_single _ red_c3, constant_apply,
    Ideal.ofBits_zero_f32, zero_add]
  have hk : ∀ k : Fin 16, (mulf S S : FVec Ideal S64x1x64x16 .f32) (red_c3.lift (ix3 b (0 : Fin 1) o) k) = s b o k * s b o k := fun k => by
    rw [lift_c3, mulf_apply, hS]
  exact Finset.sum_congr rfl fun k _ => hk k

/-- The squashing non-linearity, from a capsule array and its squared lengths. -/
theorem squash_read (S : FVec Ideal S64x1x64x16 .f32) (N : FVec Ideal S64x1x64x1 .f32) (s : Caps')
    (hS : ∀ b o d, S (ix4 b 0 o d) = s b o d) (hN : ∀ b o, N (ix4 b 0 o 0) = norm2 s b o)
    (b : Fin 64) (o : Fin 64) (d : Fin 16) :
    (Host.divf (mulf S (broadcastInDim S64x1x64x16 ![0, 1, 2, 3] bcast_S64x1x64x1_S64x1x64x16_0_1_2_3 (Host.divf N (addf (broadcastInDim S64x1x64x1 ![] bcast_S_S64x1x64x1 (constant S_ .f32 0x3F800000#32)) N)))) (broadcastInDim S64x1x64x16 ![0, 1, 2, 3] bcast_S64x1x64x1_S64x1x64x16_0_1_2_3 (Host.sqrt (addf N (broadcastInDim S64x1x64x1 ![] bcast_S_S64x1x64x1 (constant S_ .f32 0x3089705F#32))))) : FVec Ideal S64x1x64x16 .f32) (ix4 b 0 o d)
      = squash s b o d := by
  rw [hostDivf_apply, mulf_apply, bcCapD_apply, bcCapD_apply, hostDivf_apply, addf_apply, hostSqrt_apply, addf_apply,
    bconst_apply, bconst_apply, hS, hN]
  rfl

/-- The agreement update of the logits. -/
theorem pass_read (Bp : FVec Ideal S64x2048x64x1 .f32) (Vc : FVec Ideal S64x1x64x16 .f32) (A : FVec Ideal S64x2048x64x16 .f32)
    (bl : Logits') (v : Caps') (hB : ∀ b n o, Bp (ix4 b n o 0) = bl b n o) (hV : ∀ b o d, Vc (ix4 b 0 o d) = v b o d)
    (b : Fin 64) (n : Fin 2048) (o : Fin 64) :
    (addf Bp (broadcastInDim S64x2048x64x1 ![0, 1, 2] bcast_S64x2048x64_S64x2048x64x1_0_1_2 (Host.reduceAdd (mulf (broadcastInDim S64x2048x64x16 ![0, 1, 2, 3] bcast_S64x1x64x16_S64x2048x64x16_0_1_2_3 Vc) A) (constant S_ .f32 0x00000000#32) reducesTo_S64x2048x64x16_S64x2048x64_d3 h_S_)) : FVec Ideal S64x2048x64x1 .f32) (ix4 b n o 0)
      = passLogits (votesOf A) v bl b n o := by
  rw [addf_apply, bcUnitL_apply, hostReduceAdd_apply, Ideal.hostReduceAdd_single _ red_d3, constant_apply,
    Ideal.ofBits_zero_f32, zero_add, hB]
  have hk : ∀ k : Fin 16, (mulf (broadcastInDim S64x2048x64x16 ![0, 1, 2, 3] bcast_S64x1x64x16_S64x2048x64x16_0_1_2_3 Vc) A : FVec Ideal S64x2048x64x16 .f32) (red_d3.lift (ix3 b n o) k)
      = v b o k * votesOf A b n o k := fun k => by
    rw [lift_d3, mulf_apply, bcCapN_apply, hV]
    rfl
  exact congrArg (bl b n o + ·) (Finset.sum_congr rfl fun k _ => hk k)

/-! ## The three rounds of the reference, intermediate by intermediate -/

variable (V0 : Valuation τ sig (Elt Ideal))

/-- The vote array the reference is run on. -/
abbrev votesArr : FVec Ideal S64x2048x64x16 .f32 := V0 (Proc.devRef .tc main_arg0)

theorem v0_eq (b : Fin 64) (n : Fin 2048) (o : Fin 64) :
    (res_main_v0 (F := Ideal) V0 : FVec Ideal S64x2048x64x1 .f32) (ix4 b n o 0) = logits0 b n o := by
  unfold res_main_v0
  rw [bconst_apply, Ideal.ofBits_zero_f32]
  rfl

/-- Logits times the broadcast 1.0. -/
theorem timesOne_read (X : FVec Ideal S64x2048x64x1 .f32) (x : Logits') (hX : ∀ b n o, X (ix4 b n o 0) = x b n o)
    (b : Fin 64) (n : Fin 2048) (o : Fin 64) :
    (mulf X (broadcastInDim S64x2048x64x1 ![] bcast_S_S64x2048x64x1 (constant S_ .f32 0x3F800000#32)) : FVec Ideal S64x2048x64x1 .f32) (ix4 b n o 0)
      = x b n o * one := by
  rw [mulf_apply, bconst_apply, hX]
  rfl

theorem v2_eq (b : Fin 64) (n : Fin 2048) (o : Fin 64) :
    (res_main_v2 (F := Ideal) V0 : FVec Ideal S64x2048x64x1 .f32) (ix4 b n o 0) = logits0 b n o * one := by
  unfold res_main_v2
  exact timesOne_read _ _ (v0_eq V0) b n o

theorem v9_eq (b : Fin 64) (n : Fin 2048) (o : Fin 64) :
    (res_main_v9 (F := Ideal) V0 : FVec Ideal S64x2048x64x1 .f32) (ix4 b n o 0)
      = expo (fun b n o => logits0 b n o * one) b n o := by
  unfold res_main_v9
  exact expo_read _ _ (v2_eq V0) b n o

theorem v17_eq (b : Fin 64) (o : Fin 64) (d : Fin 16) :
    (res_main_v17 (F := Ideal) V0 : FVec Ideal S64x1x64x16 .f32) (ix4 b 0 o d)
      = wsum (coupling logits0) (votesOf (votesArr V0)) b o d := by
  unfold res_main_v17
  exact wsum_read _ _ _ (softmax_read _ _ (v9_eq V0)) b o d

theorem v20_eq (b : Fin 64) (o : Fin 64) :
    (res_main_v20 (F := Ideal) V0 : FVec Ideal S64x1x64x1 .f32) (ix4 b 0 o 0)
      = norm2 (wsum (coupling logits0) (votesOf (votesArr V0))) b o := by
  unfold res_main_v20
  exact norm2_read _ _ (v17_eq V0) b o

theorem v35_eq (b : Fin 64) (n : Fin 2048) (o : Fin 64) :
    (res_main_v35 (F := Ideal) V0 : FVec Ideal S64x2048x64x1 .f32) (ix4 b n o 0)
      = logits1 (votesOf (votesArr V0)) b n o := by
  unfold res_main_v35
  exact pass_read _ _ _ _ _ (v0_eq V0) (squash_read _ _ _ (v17_eq V0) (v20_eq V0)) b n o

theorem v37_eq (b : Fin 64) (n : Fin 2048) (o : Fin 64) :
    (res_main_v37 (F := Ideal) V0 : FVec Ideal S64x2048x64x1 .f32) (ix4 b n o 0)
      = logits1 (votesOf (votesArr V0)) b n o * one := by
  unfold res_main_v37
  exact timesOne_read _ _ (v35_eq V0) b n o

theorem v44_eq (b : Fin 64) (n : Fin 2048) (o : Fin 64) :
    (res_main_v44 (F := Ideal) V0 : FVec Ideal S64x2048x64x1 .f32) (ix4 b n o 0)
      = expo (fun b n o => logits1 (votesOf (votesArr V0)) b n o * one) b n o := by
  unfold res_main_v44
  exact expo_read _ _ (v37_eq V0) b n o

theorem v52_eq (b : Fin 64) (o : Fin 64) (d : Fin 16) :
    (res_main_v52 (F := Ideal) V0 : FVec Ideal S64x1x64x16 .f32) (ix4 b 0 o d)
      = wsum (coupling (logits1 (votesOf (votesArr V0)))) (votesOf (votesArr V0)) b o d := by
  unfold res_main_v52
  exact wsum_read _ _ _ (softmax_read _ _ (v44_eq V0)) b o d

theorem v55_eq (b : Fin 64) (o : Fin 64) :
    (res_main_v55 (F := Ideal) V0 : FVec Ideal S64x1x64x1 .f32) (ix4 b 0 o 0)
      = norm2 (wsum (coupling (logits1 (votesOf (votesArr V0)))) (votesOf (votesArr V0))) b o := by
  unfold res_main_v55
  exact norm2_read _ _ (v52_eq V0) b o

theorem v72_eq (b : Fin 64) (n : Fin 2048) (o : Fin 64) :
    (res_main_v72 (F := Ideal) V0 : FVec Ideal S64x2048x64x1 .f32) (ix4 b n o 0)
      = logits2 (votesOf (votesArr V0)) b n o * one := by
  unfold res_main_v72
  exact timesOne_read _ _
    (pass_read _ _ _ _ _ (v35_eq V0) (squash_read _ _ _ (v52_eq V0) (v55_eq V0))) b n o

theorem v79_eq (b : Fin 64) (n : Fin 2048) (o : Fin 64) :
    (res_main_v79 (F := Ideal) V0 : FVec Ideal S64x2048x64x1 .f32) (ix4 b n o 0)
      = expo (fun b n o => logits2 (votesOf (votesArr V0)) b n o * one) b n o := by
  unfold res_main_v79
  exact expo_read _ _ (v72_eq V0) b n o

theorem v83_eq (b : Fin 64) (n : Fin 2048) (o : Fin 64) :
    (res_main_v83 (F := Ideal) V0 : FVec Ideal S64x2048x64x1 .f32) (ix4 b n o 0)
      = couplingOut (votesOf (votesArr V0)) b n o := by
  unfold res_main_v83
  exact softmax_read _ _ (v79_eq V0) b n o

theorem v87_eq (b : Fin 64) (o : Fin 64) (d : Fin 16) :
    (res_main_v87 (F := Ideal) V0 : FVec Ideal S64x1x64x16 .f32) (ix4 b 0 o d)
      = wsum (couplingOut (votesOf (votesArr V0))) (votesOf (votesArr V0)) b o d := by
  unfold res_main_v87
  exact wsum_read _ _ _ (v83_eq V0) b o d

theorem v90_eq (b : Fin 64) (o : Fin 64) :
    (res_main_v90 (F := Ideal) V0 : FVec Ideal S64x1x64x1 .f32) (ix4 b 0 o 0)
      = norm2 (wsum (couplingOut (votesOf (votesArr V0))) (votesOf (votesArr V0))) b o := by
  unfold res_main_v90
  exact norm2_read _ _ (v87_eq V0) b o

theorem v100_eq (b : Fin 64) (o : Fin 64) (d : Fin 16) :
    (res_main_v100 (F := Ideal) V0 : FVec Ideal S64x1x64x16 .f32) (ix4 b 0 o d)
      = pose (votesOf (votesArr V0)) b o d := by
  unfold res_main_v100
  exact squash_read _ _ _ (v87_eq V0) (v90_eq V0) b o d

/-! ## The three results -/

/-- The pose: the last round's squashed capsules, reshaped to [64, 64, 16]. -/
theorem pose_eq :
    shapeCast _ (res_main_v100 (F := Ideal) V0) shapeCasts_S64x1x64x16_S64x64x16
      = capsArr (pose (votesOf (V0 (Proc.devRef .tc main_arg0)))) := by
  refine capsArr_ext fun b o d => ?_
  refine (shapeCast_apply _ _ (ix3 b o d) (ix4 b (0 : Fin 1) o d) ?_).trans (v100_eq V0 b o d)
  rw [Shape.rowMajor_val_four, Shape.rowMajor_val_three]
  show ((b.val * 1 + 0) * 64 + o.val) * 16 + d.val = (b.val * 64 + o.val) * 16 + d.val
  omega

/-- The final coupling weights, reshaped to [64, 2048, 64]. -/
theorem coupling_eq :
    shapeCast _ (res_main_v83 (F := Ideal) V0) shapeCasts_S64x2048x64x1_S64x2048x64
      = logitsArr (couplingOut (votesOf (V0 (Proc.devRef .tc main_arg0)))) := by
  refine logitsArr_ext fun b n o => ?_
  refine (shapeCast_apply _ _ (ix3 b n o) (ix4 b n o (0 : Fin 1)) ?_).trans (v83_eq V0 b n o)
  rw [Shape.rowMajor_val_four, Shape.rowMajor_val_three]
  show ((b.val * 2048 + n.val) * 64 + o.val) * 1 + 0 = (b.val * 2048 + n.val) * 64 + o.val
  omega

/-- The probability: the lengths of the pose capsules, reshaped to [64, 64]. -/
theorem prob_eq :
    shapeCast _ (Host.sqrt (addf (Host.reduceAdd (mulf (res_main_v100 (F := Ideal) V0) (res_main_v100 V0)) (constant S_ .f32 0x00000000#32) reducesTo_S64x1x64x16_S64x1x64_d3 h_S_) (broadcastInDim S64x1x64 ![] bcast_S_S64x1x64 (constant S_ .f32 0x3089705F#32)))) shapeCasts_S64x1x64_S64x64
      = lenArr (prob (votesOf (V0 (Proc.devRef .tc main_arg0)))) := by
  refine lenArr_ext fun b o => ?_
  refine (shapeCast_apply _ _ (ix2 b o) (ix3 b (0 : Fin 1) o) ?_).trans ?_
  · rw [Shape.rowMajor_val_three, Shape.rowMajor_val_two]
    show (b.val * 1 + 0) * 64 + o.val = b.val * 64 + o.val
    omega
  · rw [hostSqrt_apply, addf_apply, bconst_apply, hostReduceAdd_apply, Ideal.hostReduceAdd_single _ red_c3,
      constant_apply, Ideal.ofBits_zero_f32, zero_add]
    have hk : ∀ k : Fin 16, (mulf (res_main_v100 (F := Ideal) V0) (res_main_v100 V0) : FVec Ideal S64x1x64x16 .f32) (red_c3.lift (ix3 b (0 : Fin 1) o) k)
        = pose (votesOf (votesArr V0)) b o k * pose (votesOf (votesArr V0)) b o k := fun k => by
      rw [lift_c3, mulf_apply, v100_eq]
    exact congrArg (fun t => Ideal.sqrt (t + eps)) (Finset.sum_congr rfl fun k _ => hk k)

end Cert.ReferenceIdeal.RefValue

end
-- ==== Proof.KernelHost.lean ====
/-
  The host side of the kernel program, read as mathematics.

  Between its three tiled regions the program runs four stretches of host operations. The first fills the capsule and
  logit arrays with the zero word. Each of the other three squashes the weighted votes its region leaves:
  s ↦ s * (|s|² / (1 + |s|²)) / √(|s|² + ε), with |s|² the sum of squares over the pose coordinate, computed once on
  [64, 64], carried to [64, 64, 1] and from there to [64, 64, 16] by broadcasts. The last stretch also takes the lengths
  √(|v|² + ε) of the squashed capsules. Here each stretch's result buffer is shown to hold the specification's function
  of the stretch's input buffer, index by index: a broadcast reads its operand at the index's own coordinates, the host's
  sum over the last axis is the initial value (the zero word, which is 0) plus the finite sum over that axis, and every
  float operation at the ideal values is the extended reals' own.
-/
import proofs.«134254_j89060441849992_2_alg».proof.Proof.Spec
import proofs.«134254_j89060441849992_2_alg».proof.Proof.KernelIdealFrame
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.KernelIdeal.HostValue

open Cert.KernelIdeal Cert.KernelIdeal.Gen Cert.KernelIdeal.GenP Cert.Routing

open Idealize.ShloMosaic Idealize.ShloMosaic.TcCoe Idealize.ShloMosaic.ValueIdx
open Idealize.SL Idealize.SL.Sem

open scoped BigOperators

/-! ## The squash chain as a pure function of its input array -/

/-- The sum over the pose axis drops axis 2 of [64, 64, 16]. -/
theorem red : S64x64x16.Reduces [2] S64x64 := by decide

/-- The index over (b, o) with pose coordinate d inserted is (b, o, d). -/
theorem lift_ix (b o : Fin 64) (d : Fin 16) : red.lift (ix2 b o) d = ix3 b o d := by
  funext c
  match c with
  | ⟨0, _⟩ => rfl
  | ⟨1, _⟩ => rfl
  | ⟨2, _⟩ => rfl

/-- The host's sum of squares over the pose axis, from the zero word. -/
def normHost (X : FVec Ideal S64x64x16 .f32) : FVec Ideal S64x64 .f32 :=
  Host.reduceAdd (F := Ideal) (mulf (F := Ideal) X X) (constant (F := Ideal) S_ .f32 0x00000000#32)
    reducesTo_S64x64x16_S64x64_d2 h_S_

/-- It is the squared length. -/
theorem normHost_apply (X : FVec Ideal S64x64x16 .f32) (b o : Fin 64) :
    normHost X (ix2 b o) = norm2 (capsOf X) b o := by
  unfold normHost
  rw [hostReduceAdd_apply]
  refine (Ideal.hostReduceAdd_single reducesTo_S64x64x16_S64x64_d2 red _ _ (ix2 b o)).trans ?_
  rw [constant_apply, Ideal.ofBits_zero_f32, zero_add]
  unfold norm2 capsOf
  refine Finset.sum_congr rfl (fun d _ => ?_)
  rw [mulf_apply, lift_ix b o d]

/-- The squared length carried to [64, 64, 1]. -/
def normB (X : FVec Ideal S64x64x16 .f32) : FVec Ideal S64x64x1 .f32 :=
  broadcastInDim S64x64x1 ![0, 1] bcast_S64x64_S64x64x1_0_1 (normHost X)

theorem normB_apply (X : FVec Ideal S64x64x16 .f32) (b o : Fin 64) :
    normB X (ix3 b o (0 : Fin 1)) = norm2 (capsOf X) b o := by
  unfold normB
  refine (broadcastInDim_apply _ bcast_S64x64_S64x64x1_0_1 (normHost X) (ix3 b o (0 : Fin 1)) (ix2 b o) ?_).trans ?_
  · intro a
    match a with
    | ⟨0, _⟩ => rfl
    | ⟨1, _⟩ => rfl
  · exact normHost_apply X b o

/-- A [64, 64, 1] array carried to [64, 64, 16] reads, at (b, o, d), the array at (b, o, 0). -/
theorem bcast16_apply (Y : FVec Ideal S64x64x1 .f32) (b o : Fin 64) (d : Fin 16) :
    broadcastInDim S64x64x16 ![0, 1, 2] bcast_S64x64x1_S64x64x16_0_1_2 Y (ix3 b o d) = Y (ix3 b o (0 : Fin 1)) := by
  refine broadcastInDim_apply _ bcast_S64x64x1_S64x64x16_0_1_2 Y (ix3 b o d) (ix3 b o (0 : Fin 1)) ?_
  intro a
  match a with
  | ⟨0, _⟩ => rfl
  | ⟨1, _⟩ => rfl
  | ⟨2, _⟩ => rfl

/-- The thirteen host operations that squash an array of capsules. -/
def squashHost (X : FVec Ideal S64x64x16 .f32) : FVec Ideal S64x64x16 .f32 :=
  Host.divf (F := Ideal)
    (mulf (F := Ideal) X
      (broadcastInDim S64x64x16 ![0, 1, 2] bcast_S64x64x1_S64x64x16_0_1_2
        (Host.divf (F := Ideal) (normB X)
          (addf (F := Ideal) (broadcastInDim S64x64x1 ![] bcast_S_S64x64x1 (constant (F := Ideal) S_ .f32 0x3F800000#32))
            (normB X)))))
    (broadcastInDim S64x64x16 ![0, 1, 2] bcast_S64x64x1_S64x64x16_0_1_2
      (Host.sqrt (F := Ideal)
        (addf (F := Ideal) (normB X)
          (broadcastInDim S64x64x1 ![] bcast_S_S64x64x1 (constant (F := Ideal) S_ .f32 0x3089705F#32)))))

/-- They compute the specification's squash. -/
theorem squashHost_eq (X : FVec Ideal S64x64x16 .f32) : squashHost X = capsArr (squash (capsOf X)) := by
  refine capsArr_ext (fun b o d => ?_)
  unfold squashHost
  rw [hostDivf_apply, mulf_apply, bcast16_apply, bcast16_apply, hostDivf_apply, addf_apply, normB_apply,
    broadcastInDim_scalar_apply, constant_apply]
  show Ideal.div (X (ix3 b o d) * Ideal.div (norm2 (capsOf X) b o) (one + norm2 (capsOf X) b o))
      (Ideal.sqrt (normB X (ix3 b o (0 : Fin 1)) + broadcastInDim S64x64x1 ![] bcast_S_S64x64x1
        (constant (F := Ideal) S_ .f32 0x3089705F#32) (ix3 b o (0 : Fin 1)))) = _
  rw [normB_apply, broadcastInDim_scalar_apply, constant_apply]
  rfl

/-! ## The lengths of the squashed capsules -/

/-- The four host operations after the last squash: the sum of squares over the pose axis, plus ε on [64, 64], and the
    square root. -/
def lenHost (V : FVec Ideal S64x64x16 .f32) : FVec Ideal S64x64 .f32 :=
  Host.sqrt (F := Ideal)
    (addf (F := Ideal) (normHost V)
      (broadcastInDim S64x64 ![] bcast_S_S64x64 (constant (F := Ideal) S_ .f32 0x3089705F#32)))

/-- They compute √(|v|² + ε). -/
theorem lenHost_eq (V : FVec Ideal S64x64x16 .f32) :
    lenHost V = lenArr (fun b o => Ideal.sqrt (norm2 (capsOf V) b o + eps)) := by
  refine lenArr_ext (fun b o => ?_)
  unfold lenHost
  show Ideal.sqrt (addf (F := Ideal) (normHost V)
      (broadcastInDim S64x64 ![] bcast_S_S64x64 (constant (F := Ideal) S_ .f32 0x3089705F#32)) (ix2 b o)) = _
  rw [addf_apply, normHost_apply, broadcastInDim_scalar_apply, constant_apply]
  rfl

/-! ## The four host stretches -/

variable (m : (ℓ : Loc nD τ sig) → Buf (Elt Ideal) ℓ) (ρ : Dev nD → PrngReg)

/-! ### Before the first region: the zero arrays -/

/-- The capsule array the first region starts from is zero. -/
theorem W1_v0 (c : Dev nD) : W1 m ρ c (Proc.devRef .tc main_v0) = capsArr (fun _ _ _ => 0) := by
  show StableHlo.after hostOps0 (W0 m ρ c) (Proc.devRef .tc main_v0) = _
  after_results
  refine capsArr_ext (fun b o d => ?_)
  rw [broadcastInDim_scalar_apply, constant_apply, Ideal.ofBits_zero_f32]

/-- The logit array the first region starts from is zero. -/
theorem W1_v1 (c : Dev nD) : W1 m ρ c (Proc.devRef .tc main_v1) = logitsArr (fun _ _ _ => 0) := by
  show StableHlo.after hostOps0 (W0 m ρ c) (Proc.devRef .tc main_v1) = _
  after_results
  refine logitsArr_ext (fun b n o => ?_)
  rw [broadcastInDim_scalar_apply, constant_apply, Ideal.ofBits_zero_f32]

/-- The votes are as launched. -/
theorem W1_arg0 (c : Dev nD) : W1 m ρ c (Proc.devRef .tc main_arg0) = m ((c : Thread nD τ).loc main_arg0) := by
  show StableHlo.after hostOps0 (W0 m ρ c) (Proc.devRef .tc main_arg0) = _
  after_results

/-! ### Between the regions: the squash of the weighted votes -/

/-- After the first region the capsules are the squash of the weighted votes the region leaves. -/
theorem W3_v15 (c : Dev nD) : W3 m ρ c (Proc.devRef .tc main_v15)
    = capsArr (squash (capsOf (W2 m ρ c (Proc.devRef .tc main_v2_0)))) := by
  show StableHlo.after hostOps1 (W2 m ρ c) (Proc.devRef .tc main_v15) = _
  after_results
  exact squashHost_eq _

/-- The second stretch writes neither the votes nor the logits the first region leaves. -/
theorem W3_arg0 (c : Dev nD) : W3 m ρ c (Proc.devRef .tc main_arg0) = W2 m ρ c (Proc.devRef .tc main_arg0) := by
  show StableHlo.after hostOps1 (W2 m ρ c) (Proc.devRef .tc main_arg0) = _
  after_results
theorem W3_v2_1 (c : Dev nD) : W3 m ρ c (Proc.devRef .tc main_v2_1) = W2 m ρ c (Proc.devRef .tc main_v2_1) := by
  show StableHlo.after hostOps1 (W2 m ρ c) (Proc.devRef .tc main_v2_1) = _
  after_results

/-- After the second region likewise. -/
theorem W5_v29 (c : Dev nD) : W5 m ρ c (Proc.devRef .tc main_v29)
    = capsArr (squash (capsOf (W4 m ρ c (Proc.devRef .tc main_v16_0)))) := by
  show StableHlo.after hostOps2 (W4 m ρ c) (Proc.devRef .tc main_v29) = _
  after_results
  exact squashHost_eq _

/-- The third stretch writes neither the votes nor the logits the second region leaves. -/
theorem W5_arg0 (c : Dev nD) : W5 m ρ c (Proc.devRef .tc main_arg0) = W4 m ρ c (Proc.devRef .tc main_arg0) := by
  show StableHlo.after hostOps2 (W4 m ρ c) (Proc.devRef .tc main_arg0) = _
  after_results
theorem W5_v16_1 (c : Dev nD) : W5 m ρ c (Proc.devRef .tc main_v16_1) = W4 m ρ c (Proc.devRef .tc main_v16_1) := by
  show StableHlo.after hostOps2 (W4 m ρ c) (Proc.devRef .tc main_v16_1) = _
  after_results

/-! ### After the last region: the final capsules and their lengths -/

/-- The final capsules are the squash of the weighted votes the last region leaves. -/
theorem W7_v43 (c : Dev nD) : W7 m ρ c (Proc.devRef .tc main_v43)
    = capsArr (squash (capsOf (W6 m ρ c (Proc.devRef .tc main_v30_0)))) := by
  show StableHlo.after hostOps3 (W6 m ρ c) (Proc.devRef .tc main_v43) = _
  after_results_simp
  exact squashHost_eq _

/-- Their lengths. -/
theorem W7_v48 (c : Dev nD) : W7 m ρ c (Proc.devRef .tc main_v48)
    = lenArr (fun b o => Ideal.sqrt (norm2 (squash (capsOf (W6 m ρ c (Proc.devRef .tc main_v30_0)))) b o + eps)) := by
  show StableHlo.after hostOps3 (W6 m ρ c) (Proc.devRef .tc main_v48) = _
  after_results_simp
  refine (lenHost_eq (squashHost (W6 m ρ c (Proc.devRef .tc main_v30_0)))).trans ?_
  rw [squashHost_eq]
  rfl

/-- The last stretch does not write the coupling weights the last region leaves. -/
theorem W7_v30_2 (c : Dev nD) : W7 m ρ c (Proc.devRef .tc main_v30_2) = W6 m ρ c (Proc.devRef .tc main_v30_2) := by
  show StableHlo.after hostOps3 (W6 m ρ c) (Proc.devRef .tc main_v30_2) = _
  after_results_simp

end Cert.KernelIdeal.HostValue

end
-- ==== Proof.KernelRun.lean ====
/-
  The run of the kernel program with its results named.

  The program's @main is three tiled regions among four stretches of host operations. The contents of every buffer
  at each boundary between them are a fold from the launch memory (`W0` … `W7` of the frame module). The theorem here
  says that every weakly fair execution terminates without fault and that the final memory holds, at each of the three
  result buffers, exactly what the fold's last stage `W7` holds there, and at the argument buffer what was launched.
-/
import proofs.«134254_j89060441849992_2_alg».proof.Proof.KernelIdealFrame

set_option maxRecDepth 16384

noncomputable section

namespace Cert.KernelIdeal.HostValue

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of @main on the cores terminates, nothing
    faulting, and in every final state the three result buffers hold what the last stage of the fold holds and the
    argument buffer holds what was launched: the final thread state "every unscoped buffer at `W7`'s contents" is read
    against the final memory, buffer by buffer. -/
theorem run_named : θ_run defs (onTc (τ := τ) (main (F := F))) ⟨m, fun _ => 0, ρ⟩ (fun r => ∀ c : Dev nD,
        r.2.mem ((c.tc : Thread nD τ).loc main_v43) = W7 m ρ c (Proc.devRef .tc main_v43)
      ∧ r.2.mem ((c.tc : Thread nD τ).loc main_v48) = W7 m ρ c (Proc.devRef .tc main_v48)
      ∧ r.2.mem ((c.tc : Thread nD τ).loc main_v30_2) = W7 m ρ c (Proc.devRef .tc main_v30_2)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)), h c _ (mem_uc main_v48 (by decide)), h c _ (mem_uc main_v30_2 (by decide)),
        (h c _ (mem_uc main_arg0 (by decide))).trans (W7_main_arg0 m ρ c)⟩)

end Cert.KernelIdeal.HostValue

end
-- ==== Proof.TilePayload.lean ====
/-
  One tile of a routing round, read coordinate by coordinate on the extended reals.

  A tile holds 32 batch rows and 16 input capsules: votes `x0 (p, q, o, d)`, output capsules `x1 (p, o, d)`, logits
  `x2 (p, q, o)`. The body's arithmetic, written on whole tiles with broadcasts and lane reductions, is at each
  coordinate the round of the specification applied to the tile: the new logits `x2 + ∑ d, x1 · x0`, their softmax
  over `o` (the row maximum is `max(-∞, fold of max from -∞)`, the denominator the plain sum of the 64 exponentials), the
  coupling times the vote, and the accumulation `acc (p, o, d) + ∑ q, (coupling · vote) (p, q, o, d)`.
  A broadcast along a unit axis reads the operand at coordinate 0 of that axis; a reduction over one axis is the
  `Fin`-indexed sum (or fold of max) over that axis's coordinates.
-/
import proofs.«134254_j89060441849992_2_alg».proof.Proof.Spec
import proofs.«134254_j89060441849992_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.SL.Sem

namespace Cert.KernelIdeal.Tile

open Cert.KernelIdeal Cert.KernelIdeal.Gen Cert.Routing Idealize.ShloMosaic.ValueIdx

/-- A tile's arrays as coordinate functions. -/
def votes (x0 : FVec Ideal S32x16x64x16 .f32) : Votes (Fin 32) (Fin 16) := fun p q o d => x0 (ix4 p q o d)
def caps (x1 : FVec Ideal S32x64x16 .f32) : Caps (Fin 32) := fun p o d => x1 (ix3 p o d)
def logits (x2 : FVec Ideal S32x16x64 .f32) : Logits (Fin 32) (Fin 16) := fun p q o => x2 (ix3 p q o)

/-! ## Reductions over one axis of a tile -/

theorem sum_d (src : FVec Ideal S32x16x64x16 .f32) (hφ : FKind.Formats .f32) (hacc : (0x00000000#32 : BitVec 32) = 0x00000000#32)
    (p : Fin 32) (q : Fin 16) (o : Fin 64) :
    multiReduction .add [3] S32x16x64 src 0x00000000#32 reduces_S32x16x64x16_S32x16x64 hφ hacc (ix3 p q o)
      = ∑ d : Fin 16, src (ix4 p q o d) := by
  refine (Ideal.multiReduction_add_single src 0x00000000#32 reduces_S32x16x64x16_S32x16x64 hφ hacc (ix3 p q o)).trans ?_
  refine Finset.sum_congr rfl fun k _ => congrArg src (funext fun a => ?_)
  match a with
  | ⟨0, _⟩ => rfl
  | ⟨1, _⟩ => rfl
  | ⟨2, _⟩ => rfl
  | ⟨3, _⟩ => rfl

theorem sum_q (src : FVec Ideal S32x16x64x16 .f32) (hφ : FKind.Formats .f32) (hacc : (0x00000000#32 : BitVec 32) = 0x00000000#32)
    (p : Fin 32) (o : Fin 64) (d : Fin 16) :
    multiReduction .add [1] S32x64x16 src 0x00000000#32 reduces_S32x16x64x16_S32x64x16 hφ hacc (ix3 p o d)
      = ∑ q : Fin 16, src (ix4 p q o d) := by
  refine (Ideal.multiReduction_add_single src 0x00000000#32 reduces_S32x16x64x16_S32x64x16 hφ hacc (ix3 p o d)).trans ?_
  refine Finset.sum_congr rfl fun k _ => congrArg src (funext fun a => ?_)
  match a with
  | ⟨0, _⟩ => rfl
  | ⟨1, _⟩ => rfl
  | ⟨2, _⟩ => rfl
  | ⟨3, _⟩ => rfl

theorem sum_o (src : FVec Ideal S32x16x64 .f32) (hφ : FKind.Formats .f32) (hacc : (0x00000000#32 : BitVec 32) = 0x00000000#32)
    (p : Fin 32) (q : Fin 16) :
    multiReduction .add [2] S32x16 src 0x00000000#32 reduces_S32x16x64_S32x16 hφ hacc (ix2 p q)
      = ∑ o : Fin 64, src (ix3 p q o) := by
  refine (Ideal.multiReduction_add_single src 0x00000000#32 reduces_S32x16x64_S32x16 hφ hacc (ix2 p q)).trans ?_
  refine Finset.sum_congr rfl fun k _ => congrArg src (funext fun a => ?_)
  match a with
  | ⟨0, _⟩ => rfl
  | ⟨1, _⟩ => rfl
  | ⟨2, _⟩ => rfl

theorem max_o (src : FVec Ideal S32x16x64 .f32) (hφ : FKind.Formats .f32) (hacc : (0xFF800000#32 : BitVec 32) = 0xFF800000#32)
    (p : Fin 32) (q : Fin 16) :
    multiReduction .maximumf [2] S32x16 src 0xFF800000#32 reduces_S32x16x64_S32x16 hφ hacc (ix2 p q)
      = (Finset.univ : Finset (Fin 64)).fold max ninf (fun o => src (ix3 p q o)) := by
  refine (Ideal.multiReduction_maximumf_single src 0xFF800000#32 reduces_S32x16x64_S32x16 hφ hacc (ix2 p q)).trans ?_
  refine congrArg (fun f => (Finset.univ : Finset (Fin 64)).fold max ninf f) (funext fun k => congrArg src (funext fun a => ?_))
  match a with
  | ⟨0, _⟩ => rfl
  | ⟨1, _⟩ => rfl
  | ⟨2, _⟩ => rfl

/-! ## Broadcasts along a unit axis -/

/-- Capsules `(p, o, d)` laid along the 16 input capsules of the tile. -/
theorem bcast_caps (v : FVec Ideal S32x64x16 .f32) (p : Fin 32) (q : Fin 16) (o : Fin 64) (d : Fin 16) :
    broadcastTo S32x16x64x16 (shapeCast S32x1x64x16 v shapeCasts_S32x64x16_S32x1x64x16) broadcasts_S32x1x64x16_S32x16x64x16 (ix4 p q o d)
      = v (ix3 p o d) := by
  refine (broadcastTo_apply _ broadcasts_S32x1x64x16_S32x16x64x16 (ix4 p q o d) (ix4 p (0 : Fin 1) o d) (fun a => ?_)).trans ?_
  · match a with
    | ⟨0, _⟩ => rfl
    | ⟨1, _⟩ => rfl
    | ⟨2, _⟩ => rfl
    | ⟨3, _⟩ => rfl
  · refine shapeCast_apply v shapeCasts_S32x64x16_S32x1x64x16 (ix4 p (0 : Fin 1) o d) (ix3 p o d) ?_
    rw [Shape.rowMajor_val_three, Shape.rowMajor_val_four]
    show (p.val * 64 + o.val) * 16 + d.val = ((p.val * 1 + 0) * 64 + o.val) * 16 + d.val
    omega

/-- A per-row value `(p, q)` laid along the 64 output capsules. -/
theorem bcast_col (v : FVec Ideal S32x16 .f32) (p : Fin 32) (q : Fin 16) (o : Fin 64) :
    broadcastTo S32x16x64 (shapeCast S32x16x1 v shapeCasts_S32x16_S32x16x1) broadcasts_S32x16x1_S32x16x64 (ix3 p q o)
      = v (ix2 p q) := by
  refine (broadcastTo_apply _ broadcasts_S32x16x1_S32x16x64 (ix3 p q o) (ix3 p q (0 : Fin 1)) (fun a => ?_)).trans ?_
  · match a with
    | ⟨0, _⟩ => rfl
    | ⟨1, _⟩ => rfl
    | ⟨2, _⟩ => rfl
  · refine shapeCast_apply v shapeCasts_S32x16_S32x16x1 (ix3 p q (0 : Fin 1)) (ix2 p q) ?_
    rw [Shape.rowMajor_val_two, Shape.rowMajor_val_three]
    show p.val * 16 + q.val = (p.val * 16 + q.val) * 1 + 0
    omega

/-- A coupling weight `(p, q, o)` laid along the 16 pose coordinates. -/
theorem bcast_lane (v : FVec Ideal S32x16x64 .f32) (p : Fin 32) (q : Fin 16) (o : Fin 64) (d : Fin 16) :
    broadcastTo S32x16x64x16 (shapeCast S32x16x64x1 v shapeCasts_S32x16x64_S32x16x64x1) broadcasts_S32x16x64x1_S32x16x64x16 (ix4 p q o d)
      = v (ix3 p q o) := by
  refine (broadcastTo_apply _ broadcasts_S32x16x64x1_S32x16x64x16 (ix4 p q o d) (ix4 p q o (0 : Fin 1)) (fun a => ?_)).trans ?_
  · match a with
    | ⟨0, _⟩ => rfl
    | ⟨1, _⟩ => rfl
    | ⟨2, _⟩ => rfl
    | ⟨3, _⟩ => rfl
  · refine shapeCast_apply v shapeCasts_S32x16x64_S32x16x64x1 (ix4 p q o (0 : Fin 1)) (ix3 p q o) ?_
    rw [Shape.rowMajor_val_three, Shape.rowMajor_val_four]
    show (p.val * 16 + q.val) * 64 + o.val = ((p.val * 16 + q.val) * 64 + o.val) * 1 + 0
    omega

/-! ## The payloads at coordinates -/

variable (x0 : FVec Ideal S32x16x64x16 .f32) (x1 : FVec Ideal S32x64x16 .f32) (x2 : FVec Ideal S32x16x64 .f32)

/-- The new logits of the tile. -/
theorem pay3_apply (p : Fin 32) (q : Fin 16) (o : Fin 64) :
    k0_pay3 (F := Ideal) x0 x1 x2 (ix3 p q o) = passLogits (votes x0) (caps x1) (logits x2) p q o := by
  unfold k0_pay3
  simp only [shapeCast_self]
  refine (addf_apply _ _ _).trans ?_
  rw [sum_d]
  refine congrArg (x2 (ix3 p q o) + ·) (Finset.sum_congr rfl fun d _ => ?_)
  rw [mulf_apply, bcast_caps]
  rfl

/-- The softmax of a tile of logits along the output capsules, as the body writes it. -/
def softmaxTile (Y : FVec Ideal S32x16x64 .f32) : FVec Ideal S32x16x64 .f32 :=
  let E : FVec Ideal S32x16x64 .f32 := exp (subf Y (broadcastTo S32x16x64 (shapeCast S32x16x1 (maximumf (broadcast S32x16 (Scalar.ofBits .f32 0xFF800000#32))
    (multiReduction .maximumf [2] S32x16 Y 0xFF800000#32 reduces_S32x16x64_S32x16 (.inl rfl) rfl)) shapeCasts_S32x16_S32x16x1) broadcasts_S32x16x1_S32x16x64))
  divf E (broadcastTo S32x16x64 (shapeCast S32x16x1 (multiReduction .add [2] S32x16 E 0x00000000#32 reduces_S32x16x64_S32x16 (.inl rfl) rfl) shapeCasts_S32x16_S32x16x1) broadcasts_S32x16x1_S32x16x64)

theorem pay4_eq : k0_pay4 (F := Ideal) x0 x1 x2
    = softmaxTile (mulf (k0_pay3 x0 x1 x2) (broadcast S32x16x64 (Scalar.ofBits .f32 0x3F800000#32))) := rfl

theorem softmaxTile_apply (Y : FVec Ideal S32x16x64 .f32) (y : Logits (Fin 32) (Fin 16)) (hY : ∀ p q o, Y (ix3 p q o) = y p q o)
    (p : Fin 32) (q : Fin 16) (o : Fin 64) : softmaxTile Y (ix3 p q o) = softmax y p q o := by
  have hE : ∀ o' : Fin 64, (exp (subf Y (broadcastTo S32x16x64 (shapeCast S32x16x1 (maximumf (broadcast S32x16 (Scalar.ofBits .f32 0xFF800000#32))
      (multiReduction .maximumf [2] S32x16 Y 0xFF800000#32 reduces_S32x16x64_S32x16 (.inl rfl) rfl)) shapeCasts_S32x16_S32x16x1) broadcasts_S32x16x1_S32x16x64)) : FVec Ideal S32x16x64 .f32) (ix3 p q o')
      = expo y p q o' := by
    intro o'
    show Ideal.exp (Y (ix3 p q o') - broadcastTo S32x16x64 _ broadcasts_S32x16x1_S32x16x64 (ix3 p q o')) = _
    rw [bcast_col, maximumf_apply, max_o, hY]
    unfold expo rowMax
    refine congrArg (fun f => Ideal.exp (y p q o' - max ninf ((Finset.univ : Finset (Fin 64)).fold max ninf f))) (funext fun k => hY p q k)
  unfold softmaxTile
  dsimp only
  refine (divf_apply _ _ _).trans ?_
  rw [hE, bcast_col, sum_o]
  unfold softmax
  refine congrArg (Ideal.div (expo y p q o)) (Finset.sum_congr rfl fun k _ => hE k)

/-- The coupling weights of the tile. -/
theorem pay4_apply (p : Fin 32) (q : Fin 16) (o : Fin 64) :
    k0_pay4 (F := Ideal) x0 x1 x2 (ix3 p q o) = passCoupling (votes x0) (caps x1) (logits x2) p q o := by
  rw [pay4_eq]
  refine softmaxTile_apply _ _ (fun p q o => ?_) p q o
  rw [mulf_apply, pay3_apply]
  rfl

/-- Coupling times vote. -/
theorem pay5_apply (p : Fin 32) (q : Fin 16) (o : Fin 64) (d : Fin 16) :
    k0_pay5 (F := Ideal) x0 x1 x2 (ix4 p q o d) = passCoupling (votes x0) (caps x1) (logits x2) p q o * x0 (ix4 p q o d) := by
  unfold k0_pay5
  rw [mulf_apply, bcast_lane, pay4_apply]

/-- The accumulation: the running tile plus the sum over the tile's 16 input capsules. -/
theorem pay1_apply (v30 : FVec Ideal S32x16x64x16 .f32) (v32 : FVec Ideal S32x64x16 .f32) (p : Fin 32) (o : Fin 64) (d : Fin 16) :
    k0_pay1 (F := Ideal) v30 v32 (ix3 p o d) = v32 (ix3 p o d) + ∑ q : Fin 16, v30 (ix4 p q o d) := by
  unfold k0_pay1
  simp only [shapeCast_self]
  refine (addf_apply _ _ _).trans ?_
  rw [sum_q]

/-- The reset tile is zero. -/
theorem pay2_apply (i : S32x64x16.Idx) : k0_pay2 (F := Ideal) i = 0 := Ideal.ofBits_zero_f32

end Cert.KernelIdeal.Tile

end
-- ==== Proof.Pass0Pieces.lean ====
/-
  What one grid point of pass 0 leaves in its three output tiles, as pure functions of the tiles it loads.

  The tile of new logits is the logits payload of the loaded votes, capsules and logits; the tile of coupling weights
  is the softmax payload of the same; the tile of weighted votes is the running tile plus the sum, over the 16 input
  capsules of the tile, of coupling × vote — where the running tile is the zero tile at the first point of a row of
  the grid (the reset stores zero, and the accumulation reads it back) and what the previous point left elsewhere.
  Each statement holds at any float instance; the loads read the whole staging buffers, so a load of a buffer holding
  `x` is `x`.
-/
import proofs.«134254_j89060441849992_2_alg».proof.Proof.KernelIdealFrame
import Idealize.ShloMosaic.Lib.Pipeline.Value
import Idealize.ShloMosaic.Lib.Tactic

noncomputable section

open Idealize.ShloMosaic Idealize.ShloMosaic.TcCoe Idealize.SL.Sem

namespace Cert.KernelIdeal.Pass0

open Cert.KernelIdeal Cert.KernelIdeal.Gen Cert.KernelIdeal.GenP

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Not the first point of a row: the logits tile. -/
theorem out_B_4 (c : Dev nD) (i : grid0.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond0_0 i)
    (x0 : Vec F S32x16x64x16 .f32) (x1 : Vec F S32x64x16 .f32) (x2 : Vec F S32x16x64 .f32) (xo3 : Vec F S32x64x16 .f32) :
    out0_B_4 c i a2 h2 a3 h3 a4 h4 a5 h5 a6 h6 a7 h7 hc x0 x1 x2 xo3 = k0_pay3 x0 x1 x2 := by
  unfold out0_B_4
  rw [View.read_writes_eq_canon _ _ _ (cover0_B_4 c i a2 h2 a3 h3 a4 h4 a5 h5 a6 h6 a7 h7 hc x0 x1 x2 xo3)]
  unfold kernelRun0_B
  dsimp only
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- Not the first point of a row: the coupling tile. -/
theorem out_B_5 (c : Dev nD) (i : grid0.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond0_0 i)
    (x0 : Vec F S32x16x64x16 .f32) (x1 : Vec F S32x64x16 .f32) (x2 : Vec F S32x16x64 .f32) (xo3 : Vec F S32x64x16 .f32) :
    out0_B_5 c i a2 h2 a3 h3 a4 h4 a5 h5 a6 h6 a7 h7 hc x0 x1 x2 xo3 = k0_pay4 x0 x1 x2 := by
  unfold out0_B_5
  rw [View.read_writes_eq_canon _ _ _ (cover0_B_5 c i a2 h2 a3 h3 a4 h4 a5 h5 a6 h6 a7 h7 hc x0 x1 x2 xo3)]
  unfold kernelRun0_B
  dsimp only
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- Not the first point of a row: the running tile plus this tile's weighted votes. -/
theorem out_B_3 (c : Dev nD) (i : grid0.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond0_0 i)
    (x0 : Vec F S32x16x64x16 .f32) (x1 : Vec F S32x64x16 .f32) (x2 : Vec F S32x16x64 .f32) (xo3 : Vec F S32x64x16 .f32) :
    out0_B_3 c i a2 h2 a3 h3 a4 h4 a5 h5 a6 h6 a7 h7 hc x0 x1 x2 xo3 = k0_pay1 (k0_pay5 x0 x1 x2) xo3 := by
  unfold out0_B_3
  rw [View.read_writes_eq_canon _ _ _ (cover0_B_3 c i a2 h2 a3 h3 a4 h4 a5 h5 a6 h6 a7 h7 hc x0 x1 x2 xo3)]
  unfold kernelRun0_B
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the logits tile. -/
theorem out_A_4 (c : Dev nD) (i : grid0.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond0_0 i)
    (x0 : Vec F S32x16x64x16 .f32) (x1 : Vec F S32x64x16 .f32) (x2 : Vec F S32x16x64 .f32) :
    out0_A_4 c i a2 h2 a3 h3 a4 h4 a5 h5 a6 h6 a7 h7 hc x0 x1 x2 = k0_pay3 x0 x1 x2 := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the coupling tile. -/
theorem out_A_5 (c : Dev nD) (i : grid0.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond0_0 i)
    (x0 : Vec F S32x16x64x16 .f32) (x1 : Vec F S32x64x16 .f32) (x2 : Vec F S32x16x64 .f32) :
    out0_A_5 c i a2 h2 a3 h3 a4 h4 a5 h5 a6 h6 a7 h7 hc x0 x1 x2 = k0_pay4 x0 x1 x2 := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the zero tile plus this tile's weighted votes. -/
theorem out_A_3 (c : Dev nD) (i : grid0.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond0_0 i)
    (x0 : Vec F S32x16x64x16 .f32) (x1 : Vec F S32x64x16 .f32) (x2 : Vec F S32x16x64 .f32) :
    out0_A_3 c i a2 h2 a3 h3 a4 h4 a5 h5 a6 h6 a7 h7 hc x0 x1 x2 = k0_pay1 (k0_pay5 x0 x1 x2) k0_pay2 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S32x64x16) hz3, View.readCov_unit_zero (S := S32x64x16) _ hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

end Cert.KernelIdeal.Pass0

end
-- ==== Proof.Pass0Value.lean ====
/-
  Pass 0 of the routing on the whole arrays: what its three result arrays hold when the grid has run.

  The grid has 2 × 128 points; point `t` works on batch rows `32·(t / 128) + p` and input capsules `16·(t % 128) + q`.
  The logits and coupling tiles are written back at every point and tile their arrays, so those arrays end at the
  round's logits and couplings of the arrays the pass found. The weighted-votes tile stays in place along a row of
  the grid: after point `t` it holds the sum, over the tiles `0 … t % 128` of the row, of each tile's sum over its 16 input
  capsules of coupling × vote (induction on the point: zero plus the first tile's sum at the start of a row, the
  previous contents plus this tile's sum after), and it is written back after the row's last point, when that is the
  sum over all 2048 input capsules cut into 128 blocks of 16.
-/
import proofs.«134254_j89060441849992_2_alg».proof.Proof.Spec
import proofs.«134254_j89060441849992_2_alg».proof.Proof.TilePayload
import proofs.«134254_j89060441849992_2_alg».proof.Proof.Pass0Pieces
import proofs.«134254_j89060441849992_2_alg».proof.Proof.KernelIdealFrame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Pass0

open Cert.KernelIdeal Cert.KernelIdeal.Gen Cert.KernelIdeal.GenP Cert.Routing Idealize.ShloMosaic.ValueIdx

variable (V : (c : Dev nD) → (b : Ref sig .tc) → Buf (Elt Ideal) ((c : Thread nD τ).loc b)) (c : Dev nD)

/-- The block each window holds at point `t`: batch block `t / 128`, input-capsule block `t % 128` (decided over the grid). -/
theorem idx_facts : ∀ t : Fin cfg0.N,
    win0_0.index t (0 : Fin 4) = t.val / 128 ∧ win0_0.index t (1 : Fin 4) = t.val % 128 ∧ win0_0.index t (2 : Fin 4) = 0 ∧ win0_0.index t (3 : Fin 4) = 0
    ∧ win0_1.index t (0 : Fin 3) = t.val / 128 ∧ win0_1.index t (1 : Fin 3) = 0 ∧ win0_1.index t (2 : Fin 3) = 0
    ∧ win0_2.index t (0 : Fin 3) = t.val / 128 ∧ win0_2.index t (1 : Fin 3) = t.val % 128 ∧ win0_2.index t (2 : Fin 3) = 0
    ∧ win0_3.index t (0 : Fin 3) = t.val / 128 ∧ win0_3.index t (1 : Fin 3) = 0 ∧ win0_3.index t (2 : Fin 3) = 0
    ∧ win0_4.index t (0 : Fin 3) = t.val / 128 ∧ win0_4.index t (1 : Fin 3) = t.val % 128 ∧ win0_4.index t (2 : Fin 3) = 0
    ∧ win0_5.index t (0 : Fin 3) = t.val / 128 ∧ win0_5.index t (1 : Fin 3) = t.val % 128 ∧ win0_5.index t (2 : Fin 3) = 0 :=
  (by decide +kernel : ∀ t : Fin grid0.N, _)

theorem hN : cfg0.N = 256 := N_0

/-- Batch row `p` and input capsule `q` of point `t`'s tile, in the whole arrays. -/
def bAt (t : Fin cfg0.N) (p : Fin 32) : Fin 64 := ⟨32 * (t.val / 128) + p.val, by have := t.isLt; have := hN; have := p.isLt; omega⟩
def nAt (t : Fin cfg0.N) (q : Fin 16) : Fin 2048 := ⟨16 * (t.val % 128) + q.val, by have := q.isLt; omega⟩

/-- The arrays the pass finds, as coordinate functions: the votes, the capsules and the logits. -/
def votesIn : Votes' := votesOf (V c main_arg0)
def capsIn : Caps' := capsOf (V c main_v0)
def logitsIn : Logits' := logitsOf (V c main_v1)

/-! ## The tiles a point loads -/

theorem iblk_votes (t : Fin cfg0.N) (p : Fin 32) (q : Fin 16) (o : Fin 64) (d : Fin 16) :
    iblk0 V c 0 t (ix4 p q o d) = votesIn V c (bAt t p) (nAt t q) o d := by
  obtain ⟨e0, e1, e2, e3, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 4) * 32 + 1 * p.val = 32 * (t.val / 128) + p.val; rw [e0]; omega
  | ⟨1, _⟩ => show win0_0.index t (1 : Fin 4) * 16 + 1 * q.val = 16 * (t.val % 128) + q.val; rw [e1]; omega
  | ⟨2, _⟩ => show win0_0.index t (2 : Fin 4) * 64 + 1 * o.val = o.val; rw [e2]; omega
  | ⟨3, _⟩ => show win0_0.index t (3 : Fin 4) * 16 + 1 * d.val = d.val; rw [e3]; omega

theorem iblk_caps (t : Fin cfg0.N) (p : Fin 32) (o : Fin 64) (d : Fin 16) :
    iblk0 V c 1 t (ix3 p o d) = capsIn V c (bAt t p) o d := by
  obtain ⟨-, -, -, -, e0, e1, e2, -⟩ := idx_facts t
  unfold iblk0
  rw [View.read_apply]
  show V c main_v0 _ = V c main_v0 _
  refine congrArg (V c main_v0) (funext fun a => Fin.ext ?_)
  match a with
  | ⟨0, _⟩ => show win0_1.index t (0 : Fin 3) * 32 + 1 * p.val = 32 * (t.val / 128) + p.val; rw [e0]; omega
  | ⟨1, _⟩ => show win0_1.index t (1 : Fin 3) * 64 + 1 * o.val = o.val; rw [e1]; omega
  | ⟨2, _⟩ => show win0_1.index t (2 : Fin 3) * 16 + 1 * d.val = d.val; rw [e2]; omega

theorem iblk_logits (t : Fin cfg0.N) (p : Fin 32) (q : Fin 16) (o : Fin 64) :
    iblk0 V c 2 t (ix3 p q o) = logitsIn V c (bAt t p) (nAt t q) o := by
  obtain ⟨-, -, -, -, -, -, -, e0, e1, e2, -⟩ := idx_facts t
  unfold iblk0
  rw [View.read_apply]
  show V c main_v1 _ = V c main_v1 _
  refine congrArg (V c main_v1) (funext fun a => Fin.ext ?_)
  match a with
  | ⟨0, _⟩ => show win0_2.index t (0 : Fin 3) * 32 + 1 * p.val = 32 * (t.val / 128) + p.val; rw [e0]; omega
  | ⟨1, _⟩ => show win0_2.index t (1 : Fin 3) * 16 + 1 * q.val = 16 * (t.val % 128) + q.val; rw [e1]; omega
  | ⟨2, _⟩ => show win0_2.index t (2 : Fin 3) * 64 + 1 * o.val = o.val; rw [e2]; omega

/-- The tile's votes, capsules and logits are the arrays' at the tile's rows and input capsules. -/
theorem tile_votes (t : Fin cfg0.N) : Tile.votes (iblk0 V c 0 t) = fun p q o d => votesIn V c (bAt t p) (nAt t q) o d :=
  funext fun p => funext fun q => funext fun o => funext fun d => iblk_votes V c t p q o d
theorem tile_caps (t : Fin cfg0.N) : Tile.caps (iblk0 V c 1 t) = fun p o d => capsIn V c (bAt t p) o d :=
  funext fun p => funext fun o => funext fun d => iblk_caps V c t p o d
theorem tile_logits (t : Fin cfg0.N) : Tile.logits (iblk0 V c 2 t) = fun p q o => logitsIn V c (bAt t p) (nAt t q) o :=
  funext fun p => funext fun q => funext fun o => iblk_logits V c t p q o

/-- The round is pointwise in the batch row and the input capsule: the tile's logits and couplings are the arrays'. -/
theorem tile_passLogits (t : Fin cfg0.N) (p : Fin 32) (q : Fin 16) (o : Fin 64) :
    passLogits (Tile.votes (iblk0 V c 0 t)) (Tile.caps (iblk0 V c 1 t)) (Tile.logits (iblk0 V c 2 t)) p q o
      = passLogits (votesIn V c) (capsIn V c) (logitsIn V c) (bAt t p) (nAt t q) o := by
  rw [tile_votes, tile_caps, tile_logits]; rfl
theorem tile_passCoupling (t : Fin cfg0.N) (p : Fin 32) (q : Fin 16) (o : Fin 64) :
    passCoupling (Tile.votes (iblk0 V c 0 t)) (Tile.caps (iblk0 V c 1 t)) (Tile.logits (iblk0 V c 2 t)) p q o
      = passCoupling (votesIn V c) (capsIn V c) (logitsIn V c) (bAt t p) (nAt t q) o := by
  rw [tile_votes, tile_caps, tile_logits]; rfl

/-! ## What a point leaves -/

/-- The three passes run one body, printed once per pass: this pass's payloads are the payloads the tile module reads
    at coordinates. -/
theorem pay3_eq : @k0_pay3 Ideal _ = @k0_pay3 Ideal _ := rfl
theorem pay4_eq : @k0_pay4 Ideal _ = @k0_pay4 Ideal _ := rfl
theorem pay5_eq : @k0_pay5 Ideal _ = @k0_pay5 Ideal _ := rfl
theorem pay1_eq : @k0_pay1 Ideal _ = @k0_pay1 Ideal _ := rfl
theorem pay2_eq : @k0_pay2 Ideal _ = @k0_pay2 Ideal _ := rfl

/-- The logits tile after point `t`. -/
theorem point_logits (t : Fin cfg0.N) :
    (outsAt0 V c t.val t.isLt).2.1 = k0_pay3 (iblk0 V c 0 t) (iblk0 V c 1 t) (iblk0 V c 2 t) := by
  by_cases h0 : t.val % 128 = 0
  · rw [outsAt0_A V c t h0, ← pay3_eq]
    dsimp only
    exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0, ← pay3_eq]
    dsimp only
    exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).1

/-- The coupling tile after point `t`. -/
theorem point_coupling (t : Fin cfg0.N) :
    (outsAt0 V c t.val t.isLt).2.2 = k0_pay4 (iblk0 V c 0 t) (iblk0 V c 1 t) (iblk0 V c 2 t) := by
  by_cases h0 : t.val % 128 = 0
  · rw [outsAt0_A V c t h0, ← pay4_eq]
    dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0, ← pay4_eq]
    dsimp only
    exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).1

/-- The weighted-votes tile after the first point of a row: the zero tile plus this tile's sum. -/
theorem point_acc_first (t : Fin cfg0.N) (h0 : t.val % 128 = 0) :
    (outsAt0 V c t.val t.isLt).1 = k0_pay1 (k0_pay5 (iblk0 V c 0 t) (iblk0 V c 1 t) (iblk0 V c 2 t)) (k0_pay2 (F := Ideal)) := by
  rw [outsAt0_A V c t h0, ← pay1_eq, ← pay5_eq, ← pay2_eq]
  dsimp only
  exact out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

/-- The weighted-votes tile after any other point: what the point before left plus this tile's sum. -/
theorem point_acc_next (t : Fin cfg0.N) (h0 : ¬t.val % 128 = 0) :
    (outsAt0 V c t.val t.isLt).1
      = k0_pay1 (k0_pay5 (iblk0 V c 0 t) (iblk0 V c 1 t) (iblk0 V c 2 t)) (outsAt0 V c (t.val - 1) (Nat.lt_of_le_of_lt (Nat.sub_le _ _) t.isLt)).1 := by
  rw [outsAt0_B V c t h0, ← pay1_eq, ← pay5_eq]
  dsimp only
  exact out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).1

/-- Coupling × vote of input capsule `n` (zero past the last one), and a tile's sum of them. -/
def term (b o : Fin 64) (d : Fin 16) (n : ℕ) : EReal :=
  if h : n < 2048 then passCoupling (votesIn V c) (capsIn V c) (logitsIn V c) b ⟨n, h⟩ o * votesIn V c b ⟨n, h⟩ o d else 0
def tileSum (b o : Fin 64) (d : Fin 16) (j : ℕ) : EReal := ∑ q : Fin 16, term V c b o d (16 * j + q.val)

/-- This tile's weighted votes at point `t`. -/
theorem point_term (t : Fin cfg0.N) (p : Fin 32) (o : Fin 64) (d : Fin 16) :
    ∑ q : Fin 16, k0_pay5 (iblk0 V c 0 t) (iblk0 V c 1 t) (iblk0 V c 2 t) (ix4 p q o d) = tileSum V c (bAt t p) o d (t.val % 128) := by
  refine Finset.sum_congr rfl fun q _ => ?_
  rw [Tile.pay5_apply, tile_passCoupling, iblk_votes]
  have hq : 16 * (t.val % 128) + q.val < 2048 := by have := q.isLt; omega
  unfold term
  rw [dif_pos hq]
  rfl

/-- THE ACCUMULATION: after point `n` the weighted-votes tile holds the sums of the row's tiles `0 … n % 128`. -/
theorem acc_eq : ∀ (n : ℕ) (h : n < cfg0.N) (p : Fin 32) (o : Fin 64) (d : Fin 16),
    (outsAt0 V c n h).1 (ix3 p o d) = ∑ j ∈ Finset.range (n % 128 + 1), tileSum V c (bAt ⟨n, h⟩ p) o d j := by
  intro n
  induction n with
  | zero =>
    intro h p o d
    have e := point_acc_first V c ⟨0, h⟩ rfl
    have e' : (outsAt0 V c 0 h).1 = _ := e
    rw [e', Tile.pay1_apply, Tile.pay2_apply, zero_add, point_term]
    show _ = ∑ j ∈ Finset.range 1, _
    rw [Finset.sum_range_one]
    rfl
  | succ n ih =>
    intro h p o d
    by_cases h0 : (n + 1) % 128 = 0
    · have e : (outsAt0 V c (n + 1) h).1 = _ := point_acc_first V c ⟨n + 1, h⟩ h0
      rw [e, Tile.pay1_apply, Tile.pay2_apply, zero_add, point_term]
      show tileSum V c _ o d ((n + 1) % 128) = ∑ j ∈ Finset.range ((n + 1) % 128 + 1), _
      rw [h0, Finset.sum_range_one]
    · have hlt : n < cfg0.N := Nat.lt_of_succ_lt h
      have e : (outsAt0 V c (n + 1) h).1 = k0_pay1 (k0_pay5 (iblk0 V c 0 ⟨n + 1, h⟩) (iblk0 V c 1 ⟨n + 1, h⟩) (iblk0 V c 2 ⟨n + 1, h⟩)) (outsAt0 V c n hlt).1 :=
        point_acc_next V c ⟨n + 1, h⟩ h0
      rw [e, Tile.pay1_apply, ih hlt p o d, point_term]
      have hb : bAt ⟨n + 1, h⟩ p = bAt ⟨n, hlt⟩ p := Fin.ext (by show 32 * ((n + 1) / 128) + p.val = 32 * (n / 128) + p.val; omega)
      have hm : (n + 1) % 128 = n % 128 + 1 := by omega
      show _ + tileSum V c _ o d ((n + 1) % 128) = ∑ j ∈ Finset.range ((n + 1) % 128 + 1), _
      rw [hb, hm, Finset.sum_range_succ _ (n % 128 + 1)]

/-- After a row's last point the tile holds the whole sum over the 2048 input capsules. -/
theorem acc_last (t : Fin cfg0.N) (h127 : t.val % 128 = 127) (p : Fin 32) (o : Fin 64) (d : Fin 16) :
    (outsAt0 V c t.val t.isLt).1 (ix3 p o d) = passCaps (votesIn V c) (capsIn V c) (logitsIn V c) (bAt t p) o d := by
  rw [acc_eq V c t.val t.isLt p o d, h127]
  show ∑ j ∈ Finset.range 128, tileSum V c (bAt t p) o d j = wsum _ _ (bAt t p) o d
  unfold wsum
  rw [sum_blocks, Finset.sum_range]
  refine Finset.sum_congr rfl fun j _ => Finset.sum_congr rfl fun q _ => ?_
  have hq : 16 * j.val + q.val < 2048 := by have := j.isLt; have := q.isLt; omega
  unfold term
  rw [dif_pos hq]
  rfl

end Cert.KernelIdeal.Pass0

end
-- ==== Proof.Pass0Final.lean ====
/-
  Pass 0 of the routing on the whole arrays: the three result arrays when the grid has run.

  The logits and coupling tiles are written back at every point; the tile of point `t` sits at batch rows
  `32·(t / 128) + p` and input capsules `16·(t % 128) + q`, and these tiles cover their [64, 2048, 64] arrays: the entry
  (b, n, o) lies in the tile of the point `128·(b / 32) + n / 16`. The weighted-votes tile is written back only after
  the last point of a row of the grid, when it holds the whole sum over the 2048 input capsules; the two tiles written
  back cover the [64, 64, 16] array: the entry (b, o, d) lies in the tile of the point `128·(b / 32) + 127`. So the
  three arrays end holding the round's weighted votes, logits and coupling weights of the arrays the pass found.
-/
import proofs.«134254_j89060441849992_2_alg».proof.Proof.Pass0Value

noncomputable section

open Idealize.ShloMosaic Idealize.ShloMosaic.TcCoe Idealize.SL.Sem
open Idealize.ShloMosaic.Pipeline (Dat)

namespace Cert.KernelIdeal.Pass0

open Cert.KernelIdeal Cert.KernelIdeal.Gen Cert.KernelIdeal.GenP Cert.Routing Idealize.ShloMosaic.ValueIdx

variable (V : (c : Dev nD) → (b : Ref sig .tc) → Buf (Elt Ideal) ((c : Thread nD τ).loc b)) (c : Dev nD)

/-! ## Where a tile's entry sits in its array -/

/-- Entry (p, o, d) of point `t`'s weighted-votes tile is entry (row of p, o, d) of the array. -/
theorem emb_caps (t : Fin cfg0.N) (p : Fin 32) (o : Fin 64) (d : Fin 16) :
    ((cfg0.win 3).blk t).view.emb (ix3 p o d) = ix3 (bAt t p) o d := by
  obtain ⟨-, -, -, -, -, -, -, -, -, -, e0, e1, e2, -⟩ := idx_facts t
  funext a
  apply Fin.ext
  match a with
  | ⟨0, _⟩ => show win0_3.index t (0 : Fin 3) * 32 + 1 * p.val = 32 * (t.val / 128) + p.val; rw [e0]; omega
  | ⟨1, _⟩ => show win0_3.index t (1 : Fin 3) * 64 + 1 * o.val = o.val; rw [e1]; omega
  | ⟨2, _⟩ => show win0_3.index t (2 : Fin 3) * 16 + 1 * d.val = d.val; rw [e2]; omega

/-- Entry (p, q, o) of point `t`'s logits tile is entry (row of p, input capsule of q, o) of the array. -/
theorem emb_logits (t : Fin cfg0.N) (p : Fin 32) (q : Fin 16) (o : Fin 64) :
    ((cfg0.win 4).blk t).view.emb (ix3 p q o) = ix3 (bAt t p) (nAt t q) o := by
  obtain ⟨-, -, -, -, -, -, -, -, -, -, -, -, -, e0, e1, e2, -⟩ := idx_facts t
  funext a
  apply Fin.ext
  match a with
  | ⟨0, _⟩ => show win0_4.index t (0 : Fin 3) * 32 + 1 * p.val = 32 * (t.val / 128) + p.val; rw [e0]; omega
  | ⟨1, _⟩ => show win0_4.index t (1 : Fin 3) * 16 + 1 * q.val = 16 * (t.val % 128) + q.val; rw [e1]; omega
  | ⟨2, _⟩ => show win0_4.index t (2 : Fin 3) * 64 + 1 * o.val = o.val; rw [e2]; omega

/-- The same for the coupling tile. -/
theorem emb_coupling (t : Fin cfg0.N) (p : Fin 32) (q : Fin 16) (o : Fin 64) :
    ((cfg0.win 5).blk t).view.emb (ix3 p q o) = ix3 (bAt t p) (nAt t q) o := by
  obtain ⟨-, -, -, -, -, -, -, -, -, -, -, -, -, -, -, -, e0, e1, e2⟩ := idx_facts t
  funext a
  apply Fin.ext
  match a with
  | ⟨0, _⟩ => show win0_5.index t (0 : Fin 3) * 32 + 1 * p.val = 32 * (t.val / 128) + p.val; rw [e0]; omega
  | ⟨1, _⟩ => show win0_5.index t (1 : Fin 3) * 16 + 1 * q.val = 16 * (t.val % 128) + q.val; rw [e1]; omega
  | ⟨2, _⟩ => show win0_5.index t (2 : Fin 3) * 64 + 1 * o.val = o.val; rw [e2]; omega

/-! ## What a point writes back -/

/-- After a row's last point the weighted-votes tile written back is the tile of the round's weighted votes. -/
theorem flushed_caps (t : Fin cfg0.N) (hf : (cfg0.win 3).flush t = true) :
    (dat0 V c).flushed 3 t
      = ((cfg0.win 3).blk t).view.read (Elt Ideal) (capsArr (passCaps (votesIn V c) (capsIn V c) (logitsIn V c))) := by
  have h127 : t.val % 128 = 127 := (flush0_3 t).mp hf
  show (cfg0.win 3).cut (grid0.coords t) ((dat0 V c).after 3 t) = _
  rw [after0_3]
  refine funext fun (y : (⟨3, ![32, 64, 16]⟩ : Shape).Idx) => ?_
  obtain ⟨p, o, d, rfl⟩ : ∃ (p : Fin 32) (o : Fin 64) (d : Fin 16), y = ix3 p o d := ⟨y 0, y 1, y 2, eq_ix3 y⟩
  rw [View.read_apply, emb_caps]
  exact acc_last V c t h127 p o d

/-- The logits tile written back is the tile of the round's logits. -/
theorem flushed_logits (t : Fin cfg0.N) :
    (dat0 V c).flushed 4 t
      = ((cfg0.win 4).blk t).view.read (Elt Ideal) (logitsArr (passLogits (votesIn V c) (capsIn V c) (logitsIn V c))) := by
  show (cfg0.win 4).cut (grid0.coords t) ((dat0 V c).after 4 t) = _
  rw [after0_4, point_logits]
  refine funext fun (y : (⟨3, ![32, 16, 64]⟩ : Shape).Idx) => ?_
  obtain ⟨p, q, o, rfl⟩ : ∃ (p : Fin 32) (q : Fin 16) (o : Fin 64), y = ix3 p q o := ⟨y 0, y 1, y 2, eq_ix3 y⟩
  rw [View.read_apply, emb_logits]
  exact (Tile.pay3_apply (iblk0 V c 0 t) (iblk0 V c 1 t) (iblk0 V c 2 t) p q o).trans (tile_passLogits V c t p q o)

/-- The coupling tile written back is the tile of the round's coupling weights. -/
theorem flushed_coupling (t : Fin cfg0.N) :
    (dat0 V c).flushed 5 t
      = ((cfg0.win 5).blk t).view.read (Elt Ideal) (logitsArr (passCoupling (votesIn V c) (capsIn V c) (logitsIn V c))) := by
  show (cfg0.win 5).cut (grid0.coords t) ((dat0 V c).after 5 t) = _
  rw [after0_5, point_coupling]
  refine funext fun (y : (⟨3, ![32, 16, 64]⟩ : Shape).Idx) => ?_
  obtain ⟨p, q, o, rfl⟩ : ∃ (p : Fin 32) (q : Fin 16) (o : Fin 64), y = ix3 p q o := ⟨y 0, y 1, y 2, eq_ix3 y⟩
  rw [View.read_apply, emb_coupling]
  exact (Tile.pay4_apply (iblk0 V c 0 t) (iblk0 V c 1 t) (iblk0 V c 2 t) p q o).trans (tile_passCoupling V c t p q o)

/-! ## The tiles cover the arrays -/

/-- An entry of the array is in point `t`'s tile iff each coordinate is in the tile's range on its axis. -/
theorem mem_caps (t : Fin cfg0.N) (i : (⟨3, ![64, 64, 16]⟩ : Shape).Idx) :
    i ∈ ((cfg0.win 3).blk t).view.set ↔ ∀ a : Fin 3, win0_3.index t a * S32x64x16.size a ≤ (i a).val ∧ (i a).val < win0_3.index t a * S32x64x16.size a + S32x64x16.size a := by
  show i ∈ ((View.whole (Pipeline.arrRef spec0 3)).slice (win0_3.rect t)).set ↔ _
  rw [View.set_slice_whole, Rect.mem_set_unit]
  exact Iff.rfl
theorem mem_logits (t : Fin cfg0.N) (i : (⟨3, ![64, 2048, 64]⟩ : Shape).Idx) :
    i ∈ ((cfg0.win 4).blk t).view.set ↔ ∀ a : Fin 3, win0_4.index t a * S32x16x64.size a ≤ (i a).val ∧ (i a).val < win0_4.index t a * S32x16x64.size a + S32x16x64.size a := by
  show i ∈ ((View.whole (Pipeline.arrRef spec0 4)).slice (win0_4.rect t)).set ↔ _
  rw [View.set_slice_whole, Rect.mem_set_unit]
  exact Iff.rfl
theorem mem_coupling (t : Fin cfg0.N) (i : (⟨3, ![64, 2048, 64]⟩ : Shape).Idx) :
    i ∈ ((cfg0.win 5).blk t).view.set ↔ ∀ a : Fin 3, win0_5.index t a * S32x16x64.size a ≤ (i a).val ∧ (i a).val < win0_5.index t a * S32x16x64.size a + S32x16x64.size a := by
  show i ∈ ((View.whole (Pipeline.arrRef spec0 5)).slice (win0_5.rect t)).set ↔ _
  rw [View.set_slice_whole, Rect.mem_set_unit]
  exact Iff.rfl

/-- The last point of the grid row that holds batch row `b`. -/
def rowEnd (b : Fin 64) : Fin cfg0.N := ⟨128 * (b.val / 32) + 127, by have := b.isLt; have := hN; omega⟩
/-- The point whose tile holds batch row `b` and input capsule `n`. -/
def pointOf (b : Fin 64) (n : Fin 2048) : Fin cfg0.N := ⟨128 * (b.val / 32) + n.val / 16, by have := b.isLt; have := n.isLt; have := hN; omega⟩

/-! ## The arrays when the grid has run -/

/-- The weighted votes. -/
theorem final_caps : (dat0 V c).arrAt 3 cfg0.N = capsArr (passCaps (votesIn V c) (capsIn V c) (logitsIn V c)) :=
  (dat0 V c).arrAt_eq_of_cover 3 _ (flushed_caps V c) fun i => by
    have hb : (i 0).val < 64 := (i 0).isLt
    have ho : (i 1).val < 64 := (i 1).isLt
    have hd : (i 2).val < 16 := (i 2).isLt
    refine ⟨rowEnd ⟨(i 0).val, hb⟩, (flush0_3 _).mpr (by show (128 * ((i 0).val / 32) + 127) % 128 = 127; omega), ?_⟩
    obtain ⟨-, -, -, -, -, -, -, -, -, -, e0, e1, e2, -⟩ := idx_facts (rowEnd ⟨(i 0).val, hb⟩)
    have ht : (rowEnd ⟨(i 0).val, hb⟩).val = 128 * ((i 0).val / 32) + 127 := rfl
    rw [mem_caps]
    intro a
    match a with
    | ⟨0, _⟩ => show win0_3.index _ (0 : Fin 3) * 32 ≤ (i 0).val ∧ (i 0).val < win0_3.index _ (0 : Fin 3) * 32 + 32; rw [e0, ht]; omega
    | ⟨1, _⟩ => show win0_3.index _ (1 : Fin 3) * 64 ≤ (i 1).val ∧ (i 1).val < win0_3.index _ (1 : Fin 3) * 64 + 64; rw [e1]; omega
    | ⟨2, _⟩ => show win0_3.index _ (2 : Fin 3) * 16 ≤ (i 2).val ∧ (i 2).val < win0_3.index _ (2 : Fin 3) * 16 + 16; rw [e2]; omega

/-- The logits. -/
theorem final_logits : (dat0 V c).arrAt 4 cfg0.N = logitsArr (passLogits (votesIn V c) (capsIn V c) (logitsIn V c)) :=
  (dat0 V c).arrAt_eq_of_cover 4 _ (fun t _ => flushed_logits V c t) fun i => by
    have hb : (i 0).val < 64 := (i 0).isLt
    have hn : (i 1).val < 2048 := (i 1).isLt
    have ho : (i 2).val < 64 := (i 2).isLt
    refine ⟨pointOf ⟨(i 0).val, hb⟩ ⟨(i 1).val, hn⟩, flush0_4 _, ?_⟩
    obtain ⟨-, -, -, -, -, -, -, -, -, -, -, -, -, e0, e1, e2, -⟩ := idx_facts (pointOf ⟨(i 0).val, hb⟩ ⟨(i 1).val, hn⟩)
    have ht : (pointOf ⟨(i 0).val, hb⟩ ⟨(i 1).val, hn⟩).val = 128 * ((i 0).val / 32) + (i 1).val / 16 := rfl
    rw [mem_logits]
    intro a
    match a with
    | ⟨0, _⟩ => show win0_4.index _ (0 : Fin 3) * 32 ≤ (i 0).val ∧ (i 0).val < win0_4.index _ (0 : Fin 3) * 32 + 32; rw [e0, ht]; omega
    | ⟨1, _⟩ => show win0_4.index _ (1 : Fin 3) * 16 ≤ (i 1).val ∧ (i 1).val < win0_4.index _ (1 : Fin 3) * 16 + 16; rw [e1, ht]; omega
    | ⟨2, _⟩ => show win0_4.index _ (2 : Fin 3) * 64 ≤ (i 2).val ∧ (i 2).val < win0_4.index _ (2 : Fin 3) * 64 + 64; rw [e2]; omega

/-- The coupling weights. -/
theorem final_coupling : (dat0 V c).arrAt 5 cfg0.N = logitsArr (passCoupling (votesIn V c) (capsIn V c) (logitsIn V c)) :=
  (dat0 V c).arrAt_eq_of_cover 5 _ (fun t _ => flushed_coupling V c t) fun i => by
    have hb : (i 0).val < 64 := (i 0).isLt
    have hn : (i 1).val < 2048 := (i 1).isLt
    have ho : (i 2).val < 64 := (i 2).isLt
    refine ⟨pointOf ⟨(i 0).val, hb⟩ ⟨(i 1).val, hn⟩, flush0_5 _, ?_⟩
    obtain ⟨-, -, -, -, -, -, -, -, -, -, -, -, -, -, -, -, e0, e1, e2⟩ := idx_facts (pointOf ⟨(i 0).val, hb⟩ ⟨(i 1).val, hn⟩)
    have ht : (pointOf ⟨(i 0).val, hb⟩ ⟨(i 1).val, hn⟩).val = 128 * ((i 0).val / 32) + (i 1).val / 16 := rfl
    rw [mem_coupling]
    intro a
    match a with
    | ⟨0, _⟩ => show win0_5.index _ (0 : Fin 3) * 32 ≤ (i 0).val ∧ (i 0).val < win0_5.index _ (0 : Fin 3) * 32 + 32; rw [e0, ht]; omega
    | ⟨1, _⟩ => show win0_5.index _ (1 : Fin 3) * 16 ≤ (i 1).val ∧ (i 1).val < win0_5.index _ (1 : Fin 3) * 16 + 16; rw [e1, ht]; omega
    | ⟨2, _⟩ => show win0_5.index _ (2 : Fin 3) * 64 ≤ (i 2).val ∧ (i 2).val < win0_5.index _ (2 : Fin 3) * 64 + 64; rw [e2]; omega

end Cert.KernelIdeal.Pass0

end
-- ==== Proof.Pass1Pieces.lean ====
/-
  What one grid point of pass 1 leaves in its three output tiles, as pure functions of the tiles it loads.

  The tile of new logits is the logits payload of the loaded votes, capsules and logits; the tile of coupling weights
  is the softmax payload of the same; the tile of weighted votes is the running tile plus the sum, over the 16 input
  capsules of the tile, of coupling × vote — where the running tile is the zero tile at the first point of a row of
  the grid (the reset stores zero, and the accumulation reads it back) and what the previous point left elsewhere.
  Each statement holds at any float instance; the loads read the whole staging buffers, so a load of a buffer holding
  `x` is `x`.
-/
import proofs.«134254_j89060441849992_2_alg».proof.Proof.KernelIdealFrame
import Idealize.ShloMosaic.Lib.Pipeline.Value
import Idealize.ShloMosaic.Lib.Tactic

noncomputable section

open Idealize.ShloMosaic Idealize.ShloMosaic.TcCoe Idealize.SL.Sem

namespace Cert.KernelIdeal.Pass1

open Cert.KernelIdeal Cert.KernelIdeal.Gen Cert.KernelIdeal.GenP

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Not the first point of a row: the logits tile. -/
theorem out_B_4 (c : Dev nD) (i : grid1.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond1_0 i)
    (x0 : Vec F S32x16x64x16 .f32) (x1 : Vec F S32x64x16 .f32) (x2 : Vec F S32x16x64 .f32) (xo3 : Vec F S32x64x16 .f32) :
    out1_B_4 c i a2 h2 a3 h3 a4 h4 a5 h5 a6 h6 a7 h7 hc x0 x1 x2 xo3 = k1_pay3 x0 x1 x2 := by
  unfold out1_B_4
  rw [View.read_writes_eq_canon _ _ _ (cover1_B_4 c i a2 h2 a3 h3 a4 h4 a5 h5 a6 h6 a7 h7 hc x0 x1 x2 xo3)]
  unfold kernelRun1_B
  dsimp only
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- Not the first point of a row: the coupling tile. -/
theorem out_B_5 (c : Dev nD) (i : grid1.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond1_0 i)
    (x0 : Vec F S32x16x64x16 .f32) (x1 : Vec F S32x64x16 .f32) (x2 : Vec F S32x16x64 .f32) (xo3 : Vec F S32x64x16 .f32) :
    out1_B_5 c i a2 h2 a3 h3 a4 h4 a5 h5 a6 h6 a7 h7 hc x0 x1 x2 xo3 = k1_pay4 x0 x1 x2 := by
  unfold out1_B_5
  rw [View.read_writes_eq_canon _ _ _ (cover1_B_5 c i a2 h2 a3 h3 a4 h4 a5 h5 a6 h6 a7 h7 hc x0 x1 x2 xo3)]
  unfold kernelRun1_B
  dsimp only
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- Not the first point of a row: the running tile plus this tile's weighted votes. -/
theorem out_B_3 (c : Dev nD) (i : grid1.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond1_0 i)
    (x0 : Vec F S32x16x64x16 .f32) (x1 : Vec F S32x64x16 .f32) (x2 : Vec F S32x16x64 .f32) (xo3 : Vec F S32x64x16 .f32) :
    out1_B_3 c i a2 h2 a3 h3 a4 h4 a5 h5 a6 h6 a7 h7 hc x0 x1 x2 xo3 = k1_pay1 (k1_pay5 x0 x1 x2) xo3 := by
  unfold out1_B_3
  rw [View.read_writes_eq_canon _ _ _ (cover1_B_3 c i a2 h2 a3 h3 a4 h4 a5 h5 a6 h6 a7 h7 hc x0 x1 x2 xo3)]
  unfold kernelRun1_B
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the logits tile. -/
theorem out_A_4 (c : Dev nD) (i : grid1.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond1_0 i)
    (x0 : Vec F S32x16x64x16 .f32) (x1 : Vec F S32x64x16 .f32) (x2 : Vec F S32x16x64 .f32) :
    out1_A_4 c i a2 h2 a3 h3 a4 h4 a5 h5 a6 h6 a7 h7 hc x0 x1 x2 = k1_pay3 x0 x1 x2 := by
  unfold out1_A_4
  rw [View.read_writes_eq_canon _ _ _ (cover1_A_4 c i a2 h2 a3 h3 a4 h4 a5 h5 a6 h6 a7 h7 hc x0 x1 x2)]
  unfold kernelRun1_A
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the coupling tile. -/
theorem out_A_5 (c : Dev nD) (i : grid1.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond1_0 i)
    (x0 : Vec F S32x16x64x16 .f32) (x1 : Vec F S32x64x16 .f32) (x2 : Vec F S32x16x64 .f32) :
    out1_A_5 c i a2 h2 a3 h3 a4 h4 a5 h5 a6 h6 a7 h7 hc x0 x1 x2 = k1_pay4 x0 x1 x2 := by
  unfold out1_A_5
  rw [View.read_writes_eq_canon _ _ _ (cover1_A_5 c i a2 h2 a3 h3 a4 h4 a5 h5 a6 h6 a7 h7 hc x0 x1 x2)]
  unfold kernelRun1_A
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the zero tile plus this tile's weighted votes. -/
theorem out_A_3 (c : Dev nD) (i : grid1.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond1_0 i)
    (x0 : Vec F S32x16x64x16 .f32) (x1 : Vec F S32x64x16 .f32) (x2 : Vec F S32x16x64 .f32) :
    out1_A_3 c i a2 h2 a3 h3 a4 h4 a5 h5 a6 h6 a7 h7 hc x0 x1 x2 = k1_pay1 (k1_pay5 x0 x1 x2) k1_pay2 := by
  unfold out1_A_3
  rw [View.read_writes_eq_canon _ _ _ (cover1_A_3 c i a2 h2 a3 h3 a4 h4 a5 h5 a6 h6 a7 h7 hc x0 x1 x2)]
  unfold kernelRun1_A
  dsimp only
  sl_unfold_words
  rw [View.canon_cons_unit_zero (S := S32x64x16) hz3, View.readCov_unit_zero (S := S32x64x16) _ hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

end Cert.KernelIdeal.Pass1

end
-- ==== Proof.Pass1Value.lean ====
/-
  Pass 1 of the routing on the whole arrays: what its three result arrays hold when the grid has run.

  The grid has 2 × 128 points; point `t` works on batch rows `32·(t / 128) + p` and input capsules `16·(t % 128) + q`.
  The logits and coupling tiles are written back at every point and tile their arrays, so those arrays end at the
  round's logits and couplings of the arrays the pass found. The weighted-votes tile stays in place along a row of
  the grid: after point `t` it holds the sum, over the tiles `0 … t % 128` of the row, of each tile's sum over its 16 input
  capsules of coupling × vote (induction on the point: zero plus the first tile's sum at the start of a row, the
  previous contents plus this tile's sum after), and it is written back after the row's last point, when that is the
  sum over all 2048 input capsules cut into 128 blocks of 16.
-/
import proofs.«134254_j89060441849992_2_alg».proof.Proof.Spec
import proofs.«134254_j89060441849992_2_alg».proof.Proof.TilePayload
import proofs.«134254_j89060441849992_2_alg».proof.Proof.Pass1Pieces
import proofs.«134254_j89060441849992_2_alg».proof.Proof.KernelIdealFrame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Pass1

open Cert.KernelIdeal Cert.KernelIdeal.Gen Cert.KernelIdeal.GenP Cert.Routing Idealize.ShloMosaic.ValueIdx

variable (V : (c : Dev nD) → (b : Ref sig .tc) → Buf (Elt Ideal) ((c : Thread nD τ).loc b)) (c : Dev nD)

/-- The block each window holds at point `t`: batch block `t / 128`, input-capsule block `t % 128` (decided over the grid). -/
theorem idx_facts : ∀ t : Fin cfg1.N,
    win1_0.index t (0 : Fin 4) = t.val / 128 ∧ win1_0.index t (1 : Fin 4) = t.val % 128 ∧ win1_0.index t (2 : Fin 4) = 0 ∧ win1_0.index t (3 : Fin 4) = 0
    ∧ win1_1.index t (0 : Fin 3) = t.val / 128 ∧ win1_1.index t (1 : Fin 3) = 0 ∧ win1_1.index t (2 : Fin 3) = 0
    ∧ win1_2.index t (0 : Fin 3) = t.val / 128 ∧ win1_2.index t (1 : Fin 3) = t.val % 128 ∧ win1_2.index t (2 : Fin 3) = 0
    ∧ win1_3.index t (0 : Fin 3) = t.val / 128 ∧ win1_3.index t (1 : Fin 3) = 0 ∧ win1_3.index t (2 : Fin 3) = 0
    ∧ win1_4.index t (0 : Fin 3) = t.val / 128 ∧ win1_4.index t (1 : Fin 3) = t.val % 128 ∧ win1_4.index t (2 : Fin 3) = 0
    ∧ win1_5.index t (0 : Fin 3) = t.val / 128 ∧ win1_5.index t (1 : Fin 3) = t.val % 128 ∧ win1_5.index t (2 : Fin 3) = 0 :=
  (by decide +kernel : ∀ t : Fin grid1.N, _)

theorem hN : cfg1.N = 256 := N_1

/-- Batch row `p` and input capsule `q` of point `t`'s tile, in the whole arrays. -/
def bAt (t : Fin cfg1.N) (p : Fin 32) : Fin 64 := ⟨32 * (t.val / 128) + p.val, by have := t.isLt; have := hN; have := p.isLt; omega⟩
def nAt (t : Fin cfg1.N) (q : Fin 16) : Fin 2048 := ⟨16 * (t.val % 128) + q.val, by have := q.isLt; omega⟩

/-- The arrays the pass finds, as coordinate functions: the votes, the capsules and the logits. -/
def votesIn : Votes' := votesOf (V c main_arg0)
def capsIn : Caps' := capsOf (V c main_v15)
def logitsIn : Logits' := logitsOf (V c main_v2_1)

/-! ## The tiles a point loads -/

theorem iblk_votes (t : Fin cfg1.N) (p : Fin 32) (q : Fin 16) (o : Fin 64) (d : Fin 16) :
    iblk1 V c 0 t (ix4 p q o d) = votesIn V c (bAt t p) (nAt t q) o d := by
  obtain ⟨e0, e1, e2, e3, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 4) * 32 + 1 * p.val = 32 * (t.val / 128) + p.val; rw [e0]; omega
  | ⟨1, _⟩ => show win1_0.index t (1 : Fin 4) * 16 + 1 * q.val = 16 * (t.val % 128) + q.val; rw [e1]; omega
  | ⟨2, _⟩ => show win1_0.index t (2 : Fin 4) * 64 + 1 * o.val = o.val; rw [e2]; omega
  | ⟨3, _⟩ => show win1_0.index t (3 : Fin 4) * 16 + 1 * d.val = d.val; rw [e3]; omega

theorem iblk_caps (t : Fin cfg1.N) (p : Fin 32) (o : Fin 64) (d : Fin 16) :
    iblk1 V c 1 t (ix3 p o d) = capsIn V c (bAt t p) o d := by
  obtain ⟨-, -, -, -, e0, e1, e2, -⟩ := idx_facts t
  unfold iblk1
  rw [View.read_apply]
  show V c main_v15 _ = V c main_v15 _
  refine congrArg (V c main_v15) (funext fun a => Fin.ext ?_)
  match a with
  | ⟨0, _⟩ => show win1_1.index t (0 : Fin 3) * 32 + 1 * p.val = 32 * (t.val / 128) + p.val; rw [e0]; omega
  | ⟨1, _⟩ => show win1_1.index t (1 : Fin 3) * 64 + 1 * o.val = o.val; rw [e1]; omega
  | ⟨2, _⟩ => show win1_1.index t (2 : Fin 3) * 16 + 1 * d.val = d.val; rw [e2]; omega

theorem iblk_logits (t : Fin cfg1.N) (p : Fin 32) (q : Fin 16) (o : Fin 64) :
    iblk1 V c 2 t (ix3 p q o) = logitsIn V c (bAt t p) (nAt t q) o := by
  obtain ⟨-, -, -, -, -, -, -, e0, e1, e2, -⟩ := idx_facts t
  unfold iblk1
  rw [View.read_apply]
  show V c main_v2_1 _ = V c main_v2_1 _
  refine congrArg (V c main_v2_1) (funext fun a => Fin.ext ?_)
  match a with
  | ⟨0, _⟩ => show win1_2.index t (0 : Fin 3) * 32 + 1 * p.val = 32 * (t.val / 128) + p.val; rw [e0]; omega
  | ⟨1, _⟩ => show win1_2.index t (1 : Fin 3) * 16 + 1 * q.val = 16 * (t.val % 128) + q.val; rw [e1]; omega
  | ⟨2, _⟩ => show win1_2.index t (2 : Fin 3) * 64 + 1 * o.val = o.val; rw [e2]; omega

/-- The tile's votes, capsules and logits are the arrays' at the tile's rows and input capsules. -/
theorem tile_votes (t : Fin cfg1.N) : Tile.votes (iblk1 V c 0 t) = fun p q o d => votesIn V c (bAt t p) (nAt t q) o d :=
  funext fun p => funext fun q => funext fun o => funext fun d => iblk_votes V c t p q o d
theorem tile_caps (t : Fin cfg1.N) : Tile.caps (iblk1 V c 1 t) = fun p o d => capsIn V c (bAt t p) o d :=
  funext fun p => funext fun o => funext fun d => iblk_caps V c t p o d
theorem tile_logits (t : Fin cfg1.N) : Tile.logits (iblk1 V c 2 t) = fun p q o => logitsIn V c (bAt t p) (nAt t q) o :=
  funext fun p => funext fun q => funext fun o => iblk_logits V c t p q o

/-- The round is pointwise in the batch row and the input capsule: the tile's logits and couplings are the arrays'. -/
theorem tile_passLogits (t : Fin cfg1.N) (p : Fin 32) (q : Fin 16) (o : Fin 64) :
    passLogits (Tile.votes (iblk1 V c 0 t)) (Tile.caps (iblk1 V c 1 t)) (Tile.logits (iblk1 V c 2 t)) p q o
      = passLogits (votesIn V c) (capsIn V c) (logitsIn V c) (bAt t p) (nAt t q) o := by
  rw [tile_votes, tile_caps, tile_logits]; rfl
theorem tile_passCoupling (t : Fin cfg1.N) (p : Fin 32) (q : Fin 16) (o : Fin 64) :
    passCoupling (Tile.votes (iblk1 V c 0 t)) (Tile.caps (iblk1 V c 1 t)) (Tile.logits (iblk1 V c 2 t)) p q o
      = passCoupling (votesIn V c) (capsIn V c) (logitsIn V c) (bAt t p) (nAt t q) o := by
  rw [tile_votes, tile_caps, tile_logits]; rfl

/-! ## What a point leaves -/

/-- The three passes run one body, printed once per pass: this pass's payloads are the payloads the tile module reads
    at coordinates. -/
theorem pay3_eq : @k1_pay3 Ideal _ = @k0_pay3 Ideal _ := rfl
theorem pay4_eq : @k1_pay4 Ideal _ = @k0_pay4 Ideal _ := rfl
theorem pay5_eq : @k1_pay5 Ideal _ = @k0_pay5 Ideal _ := rfl
theorem pay1_eq : @k1_pay1 Ideal _ = @k0_pay1 Ideal _ := rfl
theorem pay2_eq : @k1_pay2 Ideal _ = @k0_pay2 Ideal _ := rfl

/-- The logits tile after point `t`. -/
theorem point_logits (t : Fin cfg1.N) :
    (outsAt1 V c t.val t.isLt).2.1 = k0_pay3 (iblk1 V c 0 t) (iblk1 V c 1 t) (iblk1 V c 2 t) := by
  by_cases h0 : t.val % 128 = 0
  · rw [outsAt1_A V c t h0, ← pay3_eq]
    dsimp only
    exact out_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0, ← pay3_eq]
    dsimp only
    exact out_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).1

/-- The coupling tile after point `t`. -/
theorem point_coupling (t : Fin cfg1.N) :
    (outsAt1 V c t.val t.isLt).2.2 = k0_pay4 (iblk1 V c 0 t) (iblk1 V c 1 t) (iblk1 V c 2 t) := by
  by_cases h0 : t.val % 128 = 0
  · rw [outsAt1_A V c t h0, ← pay4_eq]
    dsimp only
    exact out_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0, ← pay4_eq]
    dsimp only
    exact out_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).1

/-- The weighted-votes tile after the first point of a row: the zero tile plus this tile's sum. -/
theorem point_acc_first (t : Fin cfg1.N) (h0 : t.val % 128 = 0) :
    (outsAt1 V c t.val t.isLt).1 = k0_pay1 (k0_pay5 (iblk1 V c 0 t) (iblk1 V c 1 t) (iblk1 V c 2 t)) (k0_pay2 (F := Ideal)) := by
  rw [outsAt1_A V c t h0, ← pay1_eq, ← pay5_eq, ← pay2_eq]
  dsimp only
  exact out_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)

/-- The weighted-votes tile after any other point: what the point before left plus this tile's sum. -/
theorem point_acc_next (t : Fin cfg1.N) (h0 : ¬t.val % 128 = 0) :
    (outsAt1 V c t.val t.isLt).1
      = k0_pay1 (k0_pay5 (iblk1 V c 0 t) (iblk1 V c 1 t) (iblk1 V c 2 t)) (outsAt1 V c (t.val - 1) (Nat.lt_of_le_of_lt (Nat.sub_le _ _) t.isLt)).1 := by
  rw [outsAt1_B V c t h0, ← pay1_eq, ← pay5_eq]
  dsimp only
  exact out_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).1

/-- Coupling × vote of input capsule `n` (zero past the last one), and a tile's sum of them. -/
def term (b o : Fin 64) (d : Fin 16) (n : ℕ) : EReal :=
  if h : n < 2048 then passCoupling (votesIn V c) (capsIn V c) (logitsIn V c) b ⟨n, h⟩ o * votesIn V c b ⟨n, h⟩ o d else 0
def tileSum (b o : Fin 64) (d : Fin 16) (j : ℕ) : EReal := ∑ q : Fin 16, term V c b o d (16 * j + q.val)

/-- This tile's weighted votes at point `t`. -/
theorem point_term (t : Fin cfg1.N) (p : Fin 32) (o : Fin 64) (d : Fin 16) :
    ∑ q : Fin 16, k0_pay5 (iblk1 V c 0 t) (iblk1 V c 1 t) (iblk1 V c 2 t) (ix4 p q o d) = tileSum V c (bAt t p) o d (t.val % 128) := by
  refine Finset.sum_congr rfl fun q _ => ?_
  rw [Tile.pay5_apply, tile_passCoupling, iblk_votes]
  have hq : 16 * (t.val % 128) + q.val < 2048 := by have := q.isLt; omega
  unfold term
  rw [dif_pos hq]
  rfl

/-- THE ACCUMULATION: after point `n` the weighted-votes tile holds the sums of the row's tiles `0 … n % 128`. -/
theorem acc_eq : ∀ (n : ℕ) (h : n < cfg1.N) (p : Fin 32) (o : Fin 64) (d : Fin 16),
    (outsAt1 V c n h).1 (ix3 p o d) = ∑ j ∈ Finset.range (n % 128 + 1), tileSum V c (bAt ⟨n, h⟩ p) o d j := by
  intro n
  induction n with
  | zero =>
    intro h p o d
    have e := point_acc_first V c ⟨0, h⟩ rfl
    have e' : (outsAt1 V c 0 h).1 = _ := e
    rw [e', Tile.pay1_apply, Tile.pay2_apply, zero_add, point_term]
    show _ = ∑ j ∈ Finset.range 1, _
    rw [Finset.sum_range_one]
    rfl
  | succ n ih =>
    intro h p o d
    by_cases h0 : (n + 1) % 128 = 0
    · have e : (outsAt1 V c (n + 1) h).1 = _ := point_acc_first V c ⟨n + 1, h⟩ h0
      rw [e, Tile.pay1_apply, Tile.pay2_apply, zero_add, point_term]
      show tileSum V c _ o d ((n + 1) % 128) = ∑ j ∈ Finset.range ((n + 1) % 128 + 1), _
      rw [h0, Finset.sum_range_one]
    · have hlt : n < cfg1.N := Nat.lt_of_succ_lt h
      have e : (outsAt1 V c (n + 1) h).1 = k0_pay1 (k0_pay5 (iblk1 V c 0 ⟨n + 1, h⟩) (iblk1 V c 1 ⟨n + 1, h⟩) (iblk1 V c 2 ⟨n + 1, h⟩)) (outsAt1 V c n hlt).1 :=
        point_acc_next V c ⟨n + 1, h⟩ h0
      rw [e, Tile.pay1_apply, ih hlt p o d, point_term]
      have hb : bAt ⟨n + 1, h⟩ p = bAt ⟨n, hlt⟩ p := Fin.ext (by show 32 * ((n + 1) / 128) + p.val = 32 * (n / 128) + p.val; omega)
      have hm : (n + 1) % 128 = n % 128 + 1 := by omega
      show _ + tileSum V c _ o d ((n + 1) % 128) = ∑ j ∈ Finset.range ((n + 1) % 128 + 1), _
      rw [hb, hm, Finset.sum_range_succ _ (n % 128 + 1)]

/-- After a row's last point the tile holds the whole sum over the 2048 input capsules. -/
theorem acc_last (t : Fin cfg1.N) (h127 : t.val % 128 = 127) (p : Fin 32) (o : Fin 64) (d : Fin 16) :
    (outsAt1 V c t.val t.isLt).1 (ix3 p o d) = passCaps (votesIn V c) (capsIn V c) (logitsIn V c) (bAt t p) o d := by
  rw [acc_eq V c t.val t.isLt p o d, h127]
  show ∑ j ∈ Finset.range 128, tileSum V c (bAt t p) o d j = wsum _ _ (bAt t p) o d
  unfold wsum
  rw [sum_blocks, Finset.sum_range]
  refine Finset.sum_congr rfl fun j _ => Finset.sum_congr rfl fun q _ => ?_
  have hq : 16 * j.val + q.val < 2048 := by have := j.isLt; have := q.isLt; omega
  unfold term
  rw [dif_pos hq]
  rfl

end Cert.KernelIdeal.Pass1

end
-- ==== Proof.Pass1Final.lean ====
/-
  Pass 1 of the routing on the whole arrays: the three result arrays when the grid has run.

  The logits and coupling tiles are written back at every point; the tile of point `t` sits at batch rows
  `32·(t / 128) + p` and input capsules `16·(t % 128) + q`, and these tiles cover their [64, 2048, 64] arrays: the entry
  (b, n, o) lies in the tile of the point `128·(b / 32) + n / 16`. The weighted-votes tile is written back only after
  the last point of a row of the grid, when it holds the whole sum over the 2048 input capsules; the two tiles written
  back cover the [64, 64, 16] array: the entry (b, o, d) lies in the tile of the point `128·(b / 32) + 127`. So the
  three arrays end holding the round's weighted votes, logits and coupling weights of the arrays the pass found.
-/
import proofs.«134254_j89060441849992_2_alg».proof.Proof.Pass1Value

noncomputable section

open Idealize.ShloMosaic Idealize.ShloMosaic.TcCoe Idealize.SL.Sem
open Idealize.ShloMosaic.Pipeline (Dat)

namespace Cert.KernelIdeal.Pass1

open Cert.KernelIdeal Cert.KernelIdeal.Gen Cert.KernelIdeal.GenP Cert.Routing Idealize.ShloMosaic.ValueIdx

variable (V : (c : Dev nD) → (b : Ref sig .tc) → Buf (Elt Ideal) ((c : Thread nD τ).loc b)) (c : Dev nD)

/-! ## Where a tile's entry sits in its array -/

/-- Entry (p, o, d) of point `t`'s weighted-votes tile is entry (row of p, o, d) of the array. -/
theorem emb_caps (t : Fin cfg1.N) (p : Fin 32) (o : Fin 64) (d : Fin 16) :
    ((cfg1.win 3).blk t).view.emb (ix3 p o d) = ix3 (bAt t p) o d := by
  obtain ⟨-, -, -, -, -, -, -, -, -, -, e0, e1, e2, -⟩ := idx_facts t
  funext a
  apply Fin.ext
  match a with
  | ⟨0, _⟩ => show win1_3.index t (0 : Fin 3) * 32 + 1 * p.val = 32 * (t.val / 128) + p.val; rw [e0]; omega
  | ⟨1, _⟩ => show win1_3.index t (1 : Fin 3) * 64 + 1 * o.val = o.val; rw [e1]; omega
  | ⟨2, _⟩ => show win1_3.index t (2 : Fin 3) * 16 + 1 * d.val = d.val; rw [e2]; omega

/-- Entry (p, q, o) of point `t`'s logits tile is entry (row of p, input capsule of q, o) of the array. -/
theorem emb_logits (t : Fin cfg1.N) (p : Fin 32) (q : Fin 16) (o : Fin 64) :
    ((cfg1.win 4).blk t).view.emb (ix3 p q o) = ix3 (bAt t p) (nAt t q) o := by
  obtain ⟨-, -, -, -, -, -, -, -, -, -, -, -, -, e0, e1, e2, -⟩ := idx_facts t
  funext a
  apply Fin.ext
  match a with
  | ⟨0, _⟩ => show win1_4.index t (0 : Fin 3) * 32 + 1 * p.val = 32 * (t.val / 128) + p.val; rw [e0]; omega
  | ⟨1, _⟩ => show win1_4.index t (1 : Fin 3) * 16 + 1 * q.val = 16 * (t.val % 128) + q.val; rw [e1]; omega
  | ⟨2, _⟩ => show win1_4.index t (2 : Fin 3) * 64 + 1 * o.val = o.val; rw [e2]; omega

/-- The same for the coupling tile. -/
theorem emb_coupling (t : Fin cfg1.N) (p : Fin 32) (q : Fin 16) (o : Fin 64) :
    ((cfg1.win 5).blk t).view.emb (ix3 p q o) = ix3 (bAt t p) (nAt t q) o := by
  obtain ⟨-, -, -, -, -, -, -, -, -, -, -, -, -, -, -, -, e0, e1, e2⟩ := idx_facts t
  funext a
  apply Fin.ext
  match a with
  | ⟨0, _⟩ => show win1_5.index t (0 : Fin 3) * 32 + 1 * p.val = 32 * (t.val / 128) + p.val; rw [e0]; omega
  | ⟨1, _⟩ => show win1_5.index t (1 : Fin 3) * 16 + 1 * q.val = 16 * (t.val % 128) + q.val; rw [e1]; omega
  | ⟨2, _⟩ => show win1_5.index t (2 : Fin 3) * 64 + 1 * o.val = o.val; rw [e2]; omega

/-! ## What a point writes back -/

/-- After a row's last point the weighted-votes tile written back is the tile of the round's weighted votes. -/
theorem flushed_caps (t : Fin cfg1.N) (hf : (cfg1.win 3).flush t = true) :
    (dat1 V c).flushed 3 t
      = ((cfg1.win 3).blk t).view.read (Elt Ideal) (capsArr (passCaps (votesIn V c) (capsIn V c) (logitsIn V c))) := by
  have h127 : t.val % 128 = 127 := (flush1_3 t).mp hf
  show (cfg1.win 3).cut (grid1.coords t) ((dat1 V c).after 3 t) = _
  rw [after1_3]
  refine funext fun (y : (⟨3, ![32, 64, 16]⟩ : Shape).Idx) => ?_
  obtain ⟨p, o, d, rfl⟩ : ∃ (p : Fin 32) (o : Fin 64) (d : Fin 16), y = ix3 p o d := ⟨y 0, y 1, y 2, eq_ix3 y⟩
  rw [View.read_apply, emb_caps]
  exact acc_last V c t h127 p o d

/-- The logits tile written back is the tile of the round's logits. -/
theorem flushed_logits (t : Fin cfg1.N) :
    (dat1 V c).flushed 4 t
      = ((cfg1.win 4).blk t).view.read (Elt Ideal) (logitsArr (passLogits (votesIn V c) (capsIn V c) (logitsIn V c))) := by
  show (cfg1.win 4).cut (grid1.coords t) ((dat1 V c).after 4 t) = _
  rw [after1_4, point_logits]
  refine funext fun (y : (⟨3, ![32, 16, 64]⟩ : Shape).Idx) => ?_
  obtain ⟨p, q, o, rfl⟩ : ∃ (p : Fin 32) (q : Fin 16) (o : Fin 64), y = ix3 p q o := ⟨y 0, y 1, y 2, eq_ix3 y⟩
  rw [View.read_apply, emb_logits]
  exact (Tile.pay3_apply (iblk1 V c 0 t) (iblk1 V c 1 t) (iblk1 V c 2 t) p q o).trans (tile_passLogits V c t p q o)

/-- The coupling tile written back is the tile of the round's coupling weights. -/
theorem flushed_coupling (t : Fin cfg1.N) :
    (dat1 V c).flushed 5 t
      = ((cfg1.win 5).blk t).view.read (Elt Ideal) (logitsArr (passCoupling (votesIn V c) (capsIn V c) (logitsIn V c))) := by
  show (cfg1.win 5).cut (grid1.coords t) ((dat1 V c).after 5 t) = _
  rw [after1_5, point_coupling]
  refine funext fun (y : (⟨3, ![32, 16, 64]⟩ : Shape).Idx) => ?_
  obtain ⟨p, q, o, rfl⟩ : ∃ (p : Fin 32) (q : Fin 16) (o : Fin 64), y = ix3 p q o := ⟨y 0, y 1, y 2, eq_ix3 y⟩
  rw [View.read_apply, emb_coupling]
  exact (Tile.pay4_apply (iblk1 V c 0 t) (iblk1 V c 1 t) (iblk1 V c 2 t) p q o).trans (tile_passCoupling V c t p q o)

/-! ## The tiles cover the arrays -/

/-- An entry of the array is in point `t`'s tile iff each coordinate is in the tile's range on its axis. -/
theorem mem_caps (t : Fin cfg1.N) (i : (⟨3, ![64, 64, 16]⟩ : Shape).Idx) :
    i ∈ ((cfg1.win 3).blk t).view.set ↔ ∀ a : Fin 3, win1_3.index t a * S32x64x16.size a ≤ (i a).val ∧ (i a).val < win1_3.index t a * S32x64x16.size a + S32x64x16.size a := by
  show i ∈ ((View.whole (Pipeline.arrRef spec1 3)).slice (win1_3.rect t)).set ↔ _
  rw [View.set_slice_whole, Rect.mem_set_unit]
  exact Iff.rfl
theorem mem_logits (t : Fin cfg1.N) (i : (⟨3, ![64, 2048, 64]⟩ : Shape).Idx) :
    i ∈ ((cfg1.win 4).blk t).view.set ↔ ∀ a : Fin 3, win1_4.index t a * S32x16x64.size a ≤ (i a).val ∧ (i a).val < win1_4.index t a * S32x16x64.size a + S32x16x64.size a := by
  show i ∈ ((View.whole (Pipeline.arrRef spec1 4)).slice (win1_4.rect t)).set ↔ _
  rw [View.set_slice_whole, Rect.mem_set_unit]
  exact Iff.rfl
theorem mem_coupling (t : Fin cfg1.N) (i : (⟨3, ![64, 2048, 64]⟩ : Shape).Idx) :
    i ∈ ((cfg1.win 5).blk t).view.set ↔ ∀ a : Fin 3, win1_5.index t a * S32x16x64.size a ≤ (i a).val ∧ (i a).val < win1_5.index t a * S32x16x64.size a + S32x16x64.size a := by
  show i ∈ ((View.whole (Pipeline.arrRef spec1 5)).slice (win1_5.rect t)).set ↔ _
  rw [View.set_slice_whole, Rect.mem_set_unit]
  exact Iff.rfl

/-- The last point of the grid row that holds batch row `b`. -/
def rowEnd (b : Fin 64) : Fin cfg1.N := ⟨128 * (b.val / 32) + 127, by have := b.isLt; have := hN; omega⟩
/-- The point whose tile holds batch row `b` and input capsule `n`. -/
def pointOf (b : Fin 64) (n : Fin 2048) : Fin cfg1.N := ⟨128 * (b.val / 32) + n.val / 16, by have := b.isLt; have := n.isLt; have := hN; omega⟩

/-! ## The arrays when the grid has run -/

/-- The weighted votes. -/
theorem final_caps : (dat1 V c).arrAt 3 cfg1.N = capsArr (passCaps (votesIn V c) (capsIn V c) (logitsIn V c)) :=
  (dat1 V c).arrAt_eq_of_cover 3 _ (flushed_caps V c) fun i => by
    have hb : (i 0).val < 64 := (i 0).isLt
    have ho : (i 1).val < 64 := (i 1).isLt
    have hd : (i 2).val < 16 := (i 2).isLt
    refine ⟨rowEnd ⟨(i 0).val, hb⟩, (flush1_3 _).mpr (by show (128 * ((i 0).val / 32) + 127) % 128 = 127; omega), ?_⟩
    obtain ⟨-, -, -, -, -, -, -, -, -, -, e0, e1, e2, -⟩ := idx_facts (rowEnd ⟨(i 0).val, hb⟩)
    have ht : (rowEnd ⟨(i 0).val, hb⟩).val = 128 * ((i 0).val / 32) + 127 := rfl
    rw [mem_caps]
    intro a
    match a with
    | ⟨0, _⟩ => show win1_3.index _ (0 : Fin 3) * 32 ≤ (i 0).val ∧ (i 0).val < win1_3.index _ (0 : Fin 3) * 32 + 32; rw [e0, ht]; omega
    | ⟨1, _⟩ => show win1_3.index _ (1 : Fin 3) * 64 ≤ (i 1).val ∧ (i 1).val < win1_3.index _ (1 : Fin 3) * 64 + 64; rw [e1]; omega
    | ⟨2, _⟩ => show win1_3.index _ (2 : Fin 3) * 16 ≤ (i 2).val ∧ (i 2).val < win1_3.index _ (2 : Fin 3) * 16 + 16; rw [e2]; omega

/-- The logits. -/
theorem final_logits : (dat1 V c).arrAt 4 cfg1.N = logitsArr (passLogits (votesIn V c) (capsIn V c) (logitsIn V c)) :=
  (dat1 V c).arrAt_eq_of_cover 4 _ (fun t _ => flushed_logits V c t) fun i => by
    have hb : (i 0).val < 64 := (i 0).isLt
    have hn : (i 1).val < 2048 := (i 1).isLt
    have ho : (i 2).val < 64 := (i 2).isLt
    refine ⟨pointOf ⟨(i 0).val, hb⟩ ⟨(i 1).val, hn⟩, flush1_4 _, ?_⟩
    obtain ⟨-, -, -, -, -, -, -, -, -, -, -, -, -, e0, e1, e2, -⟩ := idx_facts (pointOf ⟨(i 0).val, hb⟩ ⟨(i 1).val, hn⟩)
    have ht : (pointOf ⟨(i 0).val, hb⟩ ⟨(i 1).val, hn⟩).val = 128 * ((i 0).val / 32) + (i 1).val / 16 := rfl
    rw [mem_logits]
    intro a
    match a with
    | ⟨0, _⟩ => show win1_4.index _ (0 : Fin 3) * 32 ≤ (i 0).val ∧ (i 0).val < win1_4.index _ (0 : Fin 3) * 32 + 32; rw [e0, ht]; omega
    | ⟨1, _⟩ => show win1_4.index _ (1 : Fin 3) * 16 ≤ (i 1).val ∧ (i 1).val < win1_4.index _ (1 : Fin 3) * 16 + 16; rw [e1, ht]; omega
    | ⟨2, _⟩ => show win1_4.index _ (2 : Fin 3) * 64 ≤ (i 2).val ∧ (i 2).val < win1_4.index _ (2 : Fin 3) * 64 + 64; rw [e2]; omega

/-- The coupling weights. -/
theorem final_coupling : (dat1 V c).arrAt 5 cfg1.N = logitsArr (passCoupling (votesIn V c) (capsIn V c) (logitsIn V c)) :=
  (dat1 V c).arrAt_eq_of_cover 5 _ (fun t _ => flushed_coupling V c t) fun i => by
    have hb : (i 0).val < 64 := (i 0).isLt
    have hn : (i 1).val < 2048 := (i 1).isLt
    have ho : (i 2).val < 64 := (i 2).isLt
    refine ⟨pointOf ⟨(i 0).val, hb⟩ ⟨(i 1).val, hn⟩, flush1_5 _, ?_⟩
    obtain ⟨-, -, -, -, -, -, -, -, -, -, -, -, -, -, -, -, e0, e1, e2⟩ := idx_facts (pointOf ⟨(i 0).val, hb⟩ ⟨(i 1).val, hn⟩)
    have ht : (pointOf ⟨(i 0).val, hb⟩ ⟨(i 1).val, hn⟩).val = 128 * ((i 0).val / 32) + (i 1).val / 16 := rfl
    rw [mem_coupling]
    intro a
    match a with
    | ⟨0, _⟩ => show win1_5.index _ (0 : Fin 3) * 32 ≤ (i 0).val ∧ (i 0).val < win1_5.index _ (0 : Fin 3) * 32 + 32; rw [e0, ht]; omega
    | ⟨1, _⟩ => show win1_5.index _ (1 : Fin 3) * 16 ≤ (i 1).val ∧ (i 1).val < win1_5.index _ (1 : Fin 3) * 16 + 16; rw [e1, ht]; omega
    | ⟨2, _⟩ => show win1_5.index _ (2 : Fin 3) * 64 ≤ (i 2).val ∧ (i 2).val < win1_5.index _ (2 : Fin 3) * 64 + 64; rw [e2]; omega

end Cert.KernelIdeal.Pass1

end
-- ==== Proof.Pass2Pieces.lean ====
/-
  What one grid point of pass 2 leaves in its three output tiles, as pure functions of the tiles it loads.

  The tile of new logits is the logits payload of the loaded votes, capsules and logits; the tile of coupling weights
  is the softmax payload of the same; the tile of weighted votes is the running tile plus the sum, over the 16 input
  capsules of the tile, of coupling × vote — where the running tile is the zero tile at the first point of a row of
  the grid (the reset stores zero, and the accumulation reads it back) and what the previous point left elsewhere.
  Each statement holds at any float instance; the loads read the whole staging buffers, so a load of a buffer holding
  `x` is `x`.
-/
import proofs.«134254_j89060441849992_2_alg».proof.Proof.KernelIdealFrame
import Idealize.ShloMosaic.Lib.Pipeline.Value
import Idealize.ShloMosaic.Lib.Tactic

noncomputable section

open Idealize.ShloMosaic Idealize.ShloMosaic.TcCoe Idealize.SL.Sem

namespace Cert.KernelIdeal.Pass2

open Cert.KernelIdeal Cert.KernelIdeal.Gen Cert.KernelIdeal.GenP

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Not the first point of a row: the logits tile. -/
theorem out_B_4 (c : Dev nD) (i : grid2.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond2_0 i)
    (x0 : Vec F S32x16x64x16 .f32) (x1 : Vec F S32x64x16 .f32) (x2 : Vec F S32x16x64 .f32) (xo3 : Vec F S32x64x16 .f32) :
    out2_B_4 c i a2 h2 a3 h3 a4 h4 a5 h5 a6 h6 a7 h7 hc x0 x1 x2 xo3 = k2_pay3 x0 x1 x2 := by
  unfold out2_B_4
  rw [View.read_writes_eq_canon _ _ _ (cover2_B_4 c i a2 h2 a3 h3 a4 h4 a5 h5 a6 h6 a7 h7 hc x0 x1 x2 xo3)]
  unfold kernelRun2_B
  dsimp only
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- Not the first point of a row: the coupling tile. -/
theorem out_B_5 (c : Dev nD) (i : grid2.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond2_0 i)
    (x0 : Vec F S32x16x64x16 .f32) (x1 : Vec F S32x64x16 .f32) (x2 : Vec F S32x16x64 .f32) (xo3 : Vec F S32x64x16 .f32) :
    out2_B_5 c i a2 h2 a3 h3 a4 h4 a5 h5 a6 h6 a7 h7 hc x0 x1 x2 xo3 = k2_pay4 x0 x1 x2 := by
  unfold out2_B_5
  rw [View.read_writes_eq_canon _ _ _ (cover2_B_5 c i a2 h2 a3 h3 a4 h4 a5 h5 a6 h6 a7 h7 hc x0 x1 x2 xo3)]
  unfold kernelRun2_B
  dsimp only
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- Not the first point of a row: the running tile plus this tile's weighted votes. -/
theorem out_B_3 (c : Dev nD) (i : grid2.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : ¬cond2_0 i)
    (x0 : Vec F S32x16x64x16 .f32) (x1 : Vec F S32x64x16 .f32) (x2 : Vec F S32x16x64 .f32) (xo3 : Vec F S32x64x16 .f32) :
    out2_B_3 c i a2 h2 a3 h3 a4 h4 a5 h5 a6 h6 a7 h7 hc x0 x1 x2 xo3 = k2_pay1 (k2_pay5 x0 x1 x2) xo3 := by
  unfold out2_B_3
  rw [View.read_writes_eq_canon _ _ _ (cover2_B_3 c i a2 h2 a3 h3 a4 h4 a5 h5 a6 h6 a7 h7 hc x0 x1 x2 xo3)]
  unfold kernelRun2_B
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the logits tile. -/
theorem out_A_4 (c : Dev nD) (i : grid2.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond2_0 i)
    (x0 : Vec F S32x16x64x16 .f32) (x1 : Vec F S32x64x16 .f32) (x2 : Vec F S32x16x64 .f32) :
    out2_A_4 c i a2 h2 a3 h3 a4 h4 a5 h5 a6 h6 a7 h7 hc x0 x1 x2 = k2_pay3 x0 x1 x2 := by
  unfold out2_A_4
  rw [View.read_writes_eq_canon _ _ _ (cover2_A_4 c i a2 h2 a3 h3 a4 h4 a5 h5 a6 h6 a7 h7 hc x0 x1 x2)]
  unfold kernelRun2_A
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the coupling tile. -/
theorem out_A_5 (c : Dev nD) (i : grid2.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond2_0 i)
    (x0 : Vec F S32x16x64x16 .f32) (x1 : Vec F S32x64x16 .f32) (x2 : Vec F S32x16x64 .f32) :
    out2_A_5 c i a2 h2 a3 h3 a4 h4 a5 h5 a6 h6 a7 h7 hc x0 x1 x2 = k2_pay4 x0 x1 x2 := by
  unfold out2_A_5
  rw [View.read_writes_eq_canon _ _ _ (cover2_A_5 c i a2 h2 a3 h3 a4 h4 a5 h5 a6 h6 a7 h7 hc x0 x1 x2)]
  unfold kernelRun2_A
  dsimp only
  sl_unfold_words
  rw [View.canon_unit_zero hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

/-- The first point of a row: the zero tile plus this tile's weighted votes. -/
theorem out_A_3 (c : Dev nD) (i : grid2.Coords) (a2 : Memref sig .tc .vmem S32x16x64x16 .f32) (h2 : a2.IsWhole) (a3 : Memref sig .tc .vmem S32x64x16 .f32) (h3 : a3.IsWhole) (a4 : Memref sig .tc .vmem S32x16x64 .f32) (h4 : a4.IsWhole) (a5 : Memref sig .tc .vmem S32x64x16 .f32) (h5 : a5.IsWhole) (a6 : Memref sig .tc .vmem S32x16x64 .f32) (h6 : a6.IsWhole) (a7 : Memref sig .tc .vmem S32x16x64 .f32) (h7 : a7.IsWhole) (hc : cond2_0 i)
    (x0 : Vec F S32x16x64x16 .f32) (x1 : Vec F S32x64x16 .f32) (x2 : Vec F S32x16x64 .f32) :
    out2_A_3 c i a2 h2 a3 h3 a4 h4 a5 h5 a6 h6 a7 h7 hc x0 x1 x2 = k2_pay1 (k2_pay5 x0 x1 x2) k2_pay2 := by
  unfold out2_A_3
  rw [View.read_writes_eq_canon _ _ _ (cover2_A_3 c i a2 h2 a3 h3 a4 h4 a5 h5 a6 h6 a7 h7 hc x0 x1 x2)]
  unfold kernelRun2_A
  dsimp only
  sl_unfold_words
  rw [View.canon_cons_unit_zero (S := S32x64x16) hz3, View.readCov_unit_zero (S := S32x64x16) _ hz3]
  simp only [View.readAt_eq_ld, h2.read_unread, h3.read_unread, h4.read_unread, h5.read_unread, View.ld_unit_zero (S := S32x16x64x16) hz4, View.ld_unit_zero (S := S32x64x16) hz3, View.ld_unit_zero (S := S32x16x64) hz3]

end Cert.KernelIdeal.Pass2

end
-- ==== Proof.Pass2Value.lean ====
/-
  Pass 2 of the routing on the whole arrays: what its three result arrays hold when the grid has run.

  The grid has 2 × 128 points; point `t` works on batch rows `32·(t / 128) + p` and input capsules `16·(t % 128) + q`.
  The logits and coupling tiles are written back at every point and tile their arrays, so those arrays end at the
  round's logits and couplings of the arrays the pass found. The weighted-votes tile stays in place along a row of
  the grid: after point `t` it holds the sum, over the tiles `0 … t % 128` of the row, of each tile's sum over its 16 input
  capsules of coupling × vote (induction on the point: zero plus the first tile's sum at the start of a row, the
  previous contents plus this tile's sum after), and it is written back after the row's last point, when that is the
  sum over all 2048 input capsules cut into 128 blocks of 16.
-/
import proofs.«134254_j89060441849992_2_alg».proof.Proof.Spec
import proofs.«134254_j89060441849992_2_alg».proof.Proof.TilePayload
import proofs.«134254_j89060441849992_2_alg».proof.Proof.Pass2Pieces
import proofs.«134254_j89060441849992_2_alg».proof.Proof.KernelIdealFrame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Pass2

open Cert.KernelIdeal Cert.KernelIdeal.Gen Cert.KernelIdeal.GenP Cert.Routing Idealize.ShloMosaic.ValueIdx

variable (V : (c : Dev nD) → (b : Ref sig .tc) → Buf (Elt Ideal) ((c : Thread nD τ).loc b)) (c : Dev nD)

/-- The block each window holds at point `t`: batch block `t / 128`, input-capsule block `t % 128` (decided over the grid). -/
theorem idx_facts : ∀ t : Fin cfg2.N,
    win2_0.index t (0 : Fin 4) = t.val / 128 ∧ win2_0.index t (1 : Fin 4) = t.val % 128 ∧ win2_0.index t (2 : Fin 4) = 0 ∧ win2_0.index t (3 : Fin 4) = 0
    ∧ win2_1.index t (0 : Fin 3) = t.val / 128 ∧ win2_1.index t (1 : Fin 3) = 0 ∧ win2_1.index t (2 : Fin 3) = 0
    ∧ win2_2.index t (0 : Fin 3) = t.val / 128 ∧ win2_2.index t (1 : Fin 3) = t.val % 128 ∧ win2_2.index t (2 : Fin 3) = 0
    ∧ win2_3.index t (0 : Fin 3) = t.val / 128 ∧ win2_3.index t (1 : Fin 3) = 0 ∧ win2_3.index t (2 : Fin 3) = 0
    ∧ win2_4.index t (0 : Fin 3) = t.val / 128 ∧ win2_4.index t (1 : Fin 3) = t.val % 128 ∧ win2_4.index t (2 : Fin 3) = 0
    ∧ win2_5.index t (0 : Fin 3) = t.val / 128 ∧ win2_5.index t (1 : Fin 3) = t.val % 128 ∧ win2_5.index t (2 : Fin 3) = 0 :=
  (by decide +kernel : ∀ t : Fin grid2.N, _)

theorem hN : cfg2.N = 256 := N_2

/-- Batch row `p` and input capsule `q` of point `t`'s tile, in the whole arrays. -/
def bAt (t : Fin cfg2.N) (p : Fin 32) : Fin 64 := ⟨32 * (t.val / 128) + p.val, by have := t.isLt; have := hN; have := p.isLt; omega⟩
def nAt (t : Fin cfg2.N) (q : Fin 16) : Fin 2048 := ⟨16 * (t.val % 128) + q.val, by have := q.isLt; omega⟩

/-- The arrays the pass finds, as coordinate functions: the votes, the capsules and the logits. -/
def votesIn : Votes' := votesOf (V c main_arg0)
def capsIn : Caps' := capsOf (V c main_v29)
def logitsIn : Logits' := logitsOf (V c main_v16_1)

/-! ## The tiles a point loads -/

theorem iblk_votes (t : Fin cfg2.N) (p : Fin 32) (q : Fin 16) (o : Fin 64) (d : Fin 16) :
    iblk2 V c 0 t (ix4 p q o d) = votesIn V c (bAt t p) (nAt t q) o d := by
  obtain ⟨e0, e1, e2, e3, -⟩ := idx_facts t
  unfold iblk2
  rw [View.read_apply]
  show V c main_arg0 _ = V c main_arg0 _
  refine congrArg (V c main_arg0) (funext fun a => Fin.ext ?_)
  match a with
  | ⟨0, _⟩ => show win2_0.index t (0 : Fin 4) * 32 + 1 * p.val = 32 * (t.val / 128) + p.val; rw [e0]; omega
  | ⟨1, _⟩ => show win2_0.index t (1 : Fin 4) * 16 + 1 * q.val = 16 * (t.val % 128) + q.val; rw [e1]; omega
  | ⟨2, _⟩ => show win2_0.index t (2 : Fin 4) * 64 + 1 * o.val = o.val; rw [e2]; omega
  | ⟨3, _⟩ => show win2_0.index t (3 : Fin 4) * 16 + 1 * d.val = d.val; rw [e3]; omega

theorem iblk_caps (t : Fin cfg2.N) (p : Fin 32) (o : Fin 64) (d : Fin 16) :
    iblk2 V c 1 t (ix3 p o d) = capsIn V c (bAt t p) o d := by
  obtain ⟨-, -, -, -, e0, e1, e2, -⟩ := idx_facts t
  unfold iblk2
  rw [View.read_apply]
  show V c main_v29 _ = V c main_v29 _
  refine congrArg (V c main_v29) (funext fun a => Fin.ext ?_)
  match a with
  | ⟨0, _⟩ => show win2_1.index t (0 : Fin 3) * 32 + 1 * p.val = 32 * (t.val / 128) + p.val; rw [e0]; omega
  | ⟨1, _⟩ => show win2_1.index t (1 : Fin 3) * 64 + 1 * o.val = o.val; rw [e1]; omega
  | ⟨2, _⟩ => show win2_1.index t (2 : Fin 3) * 16 + 1 * d.val = d.val; rw [e2]; omega

theorem iblk_logits (t : Fin cfg2.N) (p : Fin 32) (q : Fin 16) (o : Fin 64) :
    iblk2 V c 2 t (ix3 p q o) = logitsIn V c (bAt t p) (nAt t q) o := by
  obtain ⟨-, -, -, -, -, -, -, e0, e1, e2, -⟩ := idx_facts t
  unfold iblk2
  rw [View.read_apply]
  show V c main_v16_1 _ = V c main_v16_1 _
  refine congrArg (V c main_v16_1) (funext fun a => Fin.ext ?_)
  match a with
  | ⟨0, _⟩ => show win2_2.index t (0 : Fin 3) * 32 + 1 * p.val = 32 * (t.val / 128) + p.val; rw [e0]; omega
  | ⟨1, _⟩ => show win2_2.index t (1 : Fin 3) * 16 + 1 * q.val = 16 * (t.val % 128) + q.val; rw [e1]; omega
  | ⟨2, _⟩ => show win2_2.index t (2 : Fin 3) * 64 + 1 * o.val = o.val; rw [e2]; omega

/-- The tile's votes, capsules and logits are the arrays' at the tile's rows and input capsules. -/
theorem tile_votes (t : Fin cfg2.N) : Tile.votes (iblk2 V c 0 t) = fun p q o d => votesIn V c (bAt t p) (nAt t q) o d :=
  funext fun p => funext fun q => funext fun o => funext fun d => iblk_votes V c t p q o d
theorem tile_caps (t : Fin cfg2.N) : Tile.caps (iblk2 V c 1 t) = fun p o d => capsIn V c (bAt t p) o d :=
  funext fun p => funext fun o => funext fun d => iblk_caps V c t p o d
theorem tile_logits (t : Fin cfg2.N) : Tile.logits (iblk2 V c 2 t) = fun p q o => logitsIn V c (bAt t p) (nAt t q) o :=
  funext fun p => funext fun q => funext fun o => iblk_logits V c t p q o

/-- The round is pointwise in the batch row and the input capsule: the tile's logits and couplings are the arrays'. -/
theorem tile_passLogits (t : Fin cfg2.N) (p : Fin 32) (q : Fin 16) (o : Fin 64) :
    passLogits (Tile.votes (iblk2 V c 0 t)) (Tile.caps (iblk2 V c 1 t)) (Tile.logits (iblk2 V c 2 t)) p q o
      = passLogits (votesIn V c) (capsIn V c) (logitsIn V c) (bAt t p) (nAt t q) o := by
  rw [tile_votes, tile_caps, tile_logits]; rfl
theorem tile_passCoupling (t : Fin cfg2.N) (p : Fin 32) (q : Fin 16) (o : Fin 64) :
    passCoupling (Tile.votes (iblk2 V c 0 t)) (Tile.caps (iblk2 V c 1 t)) (Tile.logits (iblk2 V c 2 t)) p q o
      = passCoupling (votesIn V c) (capsIn V c) (logitsIn V c) (bAt t p) (nAt t q) o := by
  rw [tile_votes, tile_caps, tile_logits]; rfl

/-! ## What a point leaves -/

/-- The three passes run one body, printed once per pass: this pass's payloads are the payloads the tile module reads
    at coordinates. -/
theorem pay3_eq : @k2_pay3 Ideal _ = @k0_pay3 Ideal _ := rfl
theorem pay4_eq : @k2_pay4 Ideal _ = @k0_pay4 Ideal _ := rfl
theorem pay5_eq : @k2_pay5 Ideal _ = @k0_pay5 Ideal _ := rfl
theorem pay1_eq : @k2_pay1 Ideal _ = @k0_pay1 Ideal _ := rfl
theorem pay2_eq : @k2_pay2 Ideal _ = @k0_pay2 Ideal _ := rfl

/-- The logits tile after point `t`. -/
theorem point_logits (t : Fin cfg2.N) :
    (outsAt2 V c t.val t.isLt).2.1 = k0_pay3 (iblk2 V c 0 t) (iblk2 V c 1 t) (iblk2 V c 2 t) := by
  by_cases h0 : t.val % 128 = 0
  · rw [outsAt2_A V c t h0, ← pay3_eq]
    dsimp only
    exact out_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)
  · rw [outsAt2_B V c t h0, ← pay3_eq]
    dsimp only
    exact out_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).1

/-- The coupling tile after point `t`. -/
theorem point_coupling (t : Fin cfg2.N) :
    (outsAt2 V c t.val t.isLt).2.2 = k0_pay4 (iblk2 V c 0 t) (iblk2 V c 1 t) (iblk2 V c 2 t) := by
  by_cases h0 : t.val % 128 = 0
  · rw [outsAt2_A V c t h0, ← pay4_eq]
    dsimp only
    exact out_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)
  · rw [outsAt2_B V c t h0, ← pay4_eq]
    dsimp only
    exact out_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).1

/-- The weighted-votes tile after the first point of a row: the zero tile plus this tile's sum. -/
theorem point_acc_first (t : Fin cfg2.N) (h0 : t.val % 128 = 0) :
    (outsAt2 V c t.val t.isLt).1 = k0_pay1 (k0_pay5 (iblk2 V c 0 t) (iblk2 V c 1 t) (iblk2 V c 2 t)) (k0_pay2 (F := Ideal)) := by
  rw [outsAt2_A V c t h0, ← pay1_eq, ← pay5_eq, ← pay2_eq]
  dsimp only
  exact out_A_3 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

/-- The weighted-votes tile after any other point: what the point before left plus this tile's sum. -/
theorem point_acc_next (t : Fin cfg2.N) (h0 : ¬t.val % 128 = 0) :
    (outsAt2 V c t.val t.isLt).1
      = k0_pay1 (k0_pay5 (iblk2 V c 0 t) (iblk2 V c 1 t) (iblk2 V c 2 t)) (outsAt2 V c (t.val - 1) (Nat.lt_of_le_of_lt (Nat.sub_le _ _) t.isLt)).1 := by
  rw [outsAt2_B V c t h0, ← pay1_eq, ← pay5_eq]
  dsimp only
  exact out_B_3 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).1

/-- Coupling × vote of input capsule `n` (zero past the last one), and a tile's sum of them. -/
def term (b o : Fin 64) (d : Fin 16) (n : ℕ) : EReal :=
  if h : n < 2048 then passCoupling (votesIn V c) (capsIn V c) (logitsIn V c) b ⟨n, h⟩ o * votesIn V c b ⟨n, h⟩ o d else 0
def tileSum (b o : Fin 64) (d : Fin 16) (j : ℕ) : EReal := ∑ q : Fin 16, term V c b o d (16 * j + q.val)

/-- This tile's weighted votes at point `t`. -/
theorem point_term (t : Fin cfg2.N) (p : Fin 32) (o : Fin 64) (d : Fin 16) :
    ∑ q : Fin 16, k0_pay5 (iblk2 V c 0 t) (iblk2 V c 1 t) (iblk2 V c 2 t) (ix4 p q o d) = tileSum V c (bAt t p) o d (t.val % 128) := by
  refine Finset.sum_congr rfl fun q _ => ?_
  rw [Tile.pay5_apply, tile_passCoupling, iblk_votes]
  have hq : 16 * (t.val % 128) + q.val < 2048 := by have := q.isLt; omega
  unfold term
  rw [dif_pos hq]
  rfl

/-- THE ACCUMULATION: after point `n` the weighted-votes tile holds the sums of the row's tiles `0 … n % 128`. -/
theorem acc_eq : ∀ (n : ℕ) (h : n < cfg2.N) (p : Fin 32) (o : Fin 64) (d : Fin 16),
    (outsAt2 V c n h).1 (ix3 p o d) = ∑ j ∈ Finset.range (n % 128 + 1), tileSum V c (bAt ⟨n, h⟩ p) o d j := by
  intro n
  induction n with
  | zero =>
    intro h p o d
    have e := point_acc_first V c ⟨0, h⟩ rfl
    have e' : (outsAt2 V c 0 h).1 = _ := e
    rw [e', Tile.pay1_apply, Tile.pay2_apply, zero_add, point_term]
    show _ = ∑ j ∈ Finset.range 1, _
    rw [Finset.sum_range_one]
    rfl
  | succ n ih =>
    intro h p o d
    by_cases h0 : (n + 1) % 128 = 0
    · have e : (outsAt2 V c (n + 1) h).1 = _ := point_acc_first V c ⟨n + 1, h⟩ h0
      rw [e, Tile.pay1_apply, Tile.pay2_apply, zero_add, point_term]
      show tileSum V c _ o d ((n + 1) % 128) = ∑ j ∈ Finset.range ((n + 1) % 128 + 1), _
      rw [h0, Finset.sum_range_one]
    · have hlt : n < cfg2.N := Nat.lt_of_succ_lt h
      have e : (outsAt2 V c (n + 1) h).1 = k0_pay1 (k0_pay5 (iblk2 V c 0 ⟨n + 1, h⟩) (iblk2 V c 1 ⟨n + 1, h⟩) (iblk2 V c 2 ⟨n + 1, h⟩)) (outsAt2 V c n hlt).1 :=
        point_acc_next V c ⟨n + 1, h⟩ h0
      rw [e, Tile.pay1_apply, ih hlt p o d, point_term]
      have hb : bAt ⟨n + 1, h⟩ p = bAt ⟨n, hlt⟩ p := Fin.ext (by show 32 * ((n + 1) / 128) + p.val = 32 * (n / 128) + p.val; omega)
      have hm : (n + 1) % 128 = n % 128 + 1 := by omega
      show _ + tileSum V c _ o d ((n + 1) % 128) = ∑ j ∈ Finset.range ((n + 1) % 128 + 1), _
      rw [hb, hm, Finset.sum_range_succ _ (n % 128 + 1)]

/-- After a row's last point the tile holds the whole sum over the 2048 input capsules. -/
theorem acc_last (t : Fin cfg2.N) (h127 : t.val % 128 = 127) (p : Fin 32) (o : Fin 64) (d : Fin 16) :
    (outsAt2 V c t.val t.isLt).1 (ix3 p o d) = passCaps (votesIn V c) (capsIn V c) (logitsIn V c) (bAt t p) o d := by
  rw [acc_eq V c t.val t.isLt p o d, h127]
  show ∑ j ∈ Finset.range 128, tileSum V c (bAt t p) o d j = wsum _ _ (bAt t p) o d
  unfold wsum
  rw [sum_blocks, Finset.sum_range]
  refine Finset.sum_congr rfl fun j _ => Finset.sum_congr rfl fun q _ => ?_
  have hq : 16 * j.val + q.val < 2048 := by have := j.isLt; have := q.isLt; omega
  unfold term
  rw [dif_pos hq]
  rfl

end Cert.KernelIdeal.Pass2

end
-- ==== Proof.Pass2Final.lean ====
/-
  Pass 2 of the routing on the whole arrays: the three result arrays when the grid has run.

  The logits and coupling tiles are written back at every point; the tile of point `t` sits at batch rows
  `32·(t / 128) + p` and input capsules `16·(t % 128) + q`, and these tiles cover their [64, 2048, 64] arrays: the entry
  (b, n, o) lies in the tile of the point `128·(b / 32) + n / 16`. The weighted-votes tile is written back only after
  the last point of a row of the grid, when it holds the whole sum over the 2048 input capsules; the two tiles written
  back cover the [64, 64, 16] array: the entry (b, o, d) lies in the tile of the point `128·(b / 32) + 127`. So the
  three arrays end holding the round's weighted votes, logits and coupling weights of the arrays the pass found.
-/
import proofs.«134254_j89060441849992_2_alg».proof.Proof.Pass2Value

noncomputable section

open Idealize.ShloMosaic Idealize.ShloMosaic.TcCoe Idealize.SL.Sem
open Idealize.ShloMosaic.Pipeline (Dat)

namespace Cert.KernelIdeal.Pass2

open Cert.KernelIdeal Cert.KernelIdeal.Gen Cert.KernelIdeal.GenP Cert.Routing Idealize.ShloMosaic.ValueIdx

variable (V : (c : Dev nD) → (b : Ref sig .tc) → Buf (Elt Ideal) ((c : Thread nD τ).loc b)) (c : Dev nD)

/-! ## Where a tile's entry sits in its array -/

/-- Entry (p, o, d) of point `t`'s weighted-votes tile is entry (row of p, o, d) of the array. -/
theorem emb_caps (t : Fin cfg2.N) (p : Fin 32) (o : Fin 64) (d : Fin 16) :
    ((cfg2.win 3).blk t).view.emb (ix3 p o d) = ix3 (bAt t p) o d := by
  obtain ⟨-, -, -, -, -, -, -, -, -, -, e0, e1, e2, -⟩ := idx_facts t
  funext a
  apply Fin.ext
  match a with
  | ⟨0, _⟩ => show win2_3.index t (0 : Fin 3) * 32 + 1 * p.val = 32 * (t.val / 128) + p.val; rw [e0]; omega
  | ⟨1, _⟩ => show win2_3.index t (1 : Fin 3) * 64 + 1 * o.val = o.val; rw [e1]; omega
  | ⟨2, _⟩ => show win2_3.index t (2 : Fin 3) * 16 + 1 * d.val = d.val; rw [e2]; omega

/-- Entry (p, q, o) of point `t`'s logits tile is entry (row of p, input capsule of q, o) of the array. -/
theorem emb_logits (t : Fin cfg2.N) (p : Fin 32) (q : Fin 16) (o : Fin 64) :
    ((cfg2.win 4).blk t).view.emb (ix3 p q o) = ix3 (bAt t p) (nAt t q) o := by
  obtain ⟨-, -, -, -, -, -, -, -, -, -, -, -, -, e0, e1, e2, -⟩ := idx_facts t
  funext a
  apply Fin.ext
  match a with
  | ⟨0, _⟩ => show win2_4.index t (0 : Fin 3) * 32 + 1 * p.val = 32 * (t.val / 128) + p.val; rw [e0]; omega
  | ⟨1, _⟩ => show win2_4.index t (1 : Fin 3) * 16 + 1 * q.val = 16 * (t.val % 128) + q.val; rw [e1]; omega
  | ⟨2, _⟩ => show win2_4.index t (2 : Fin 3) * 64 + 1 * o.val = o.val; rw [e2]; omega

/-- The same for the coupling tile. -/
theorem emb_coupling (t : Fin cfg2.N) (p : Fin 32) (q : Fin 16) (o : Fin 64) :
    ((cfg2.win 5).blk t).view.emb (ix3 p q o) = ix3 (bAt t p) (nAt t q) o := by
  obtain ⟨-, -, -, -, -, -, -, -, -, -, -, -, -, -, -, -, e0, e1, e2⟩ := idx_facts t
  funext a
  apply Fin.ext
  match a with
  | ⟨0, _⟩ => show win2_5.index t (0 : Fin 3) * 32 + 1 * p.val = 32 * (t.val / 128) + p.val; rw [e0]; omega
  | ⟨1, _⟩ => show win2_5.index t (1 : Fin 3) * 16 + 1 * q.val = 16 * (t.val % 128) + q.val; rw [e1]; omega
  | ⟨2, _⟩ => show win2_5.index t (2 : Fin 3) * 64 + 1 * o.val = o.val; rw [e2]; omega

/-! ## What a point writes back -/

/-- After a row's last point the weighted-votes tile written back is the tile of the round's weighted votes. -/
theorem flushed_caps (t : Fin cfg2.N) (hf : (cfg2.win 3).flush t = true) :
    (dat2 V c).flushed 3 t
      = ((cfg2.win 3).blk t).view.read (Elt Ideal) (capsArr (passCaps (votesIn V c) (capsIn V c) (logitsIn V c))) := by
  have h127 : t.val % 128 = 127 := (flush2_3 t).mp hf
  show (cfg2.win 3).cut (grid2.coords t) ((dat2 V c).after 3 t) = _
  rw [after2_3]
  refine funext fun (y : (⟨3, ![32, 64, 16]⟩ : Shape).Idx) => ?_
  obtain ⟨p, o, d, rfl⟩ : ∃ (p : Fin 32) (o : Fin 64) (d : Fin 16), y = ix3 p o d := ⟨y 0, y 1, y 2, eq_ix3 y⟩
  rw [View.read_apply, emb_caps]
  exact acc_last V c t h127 p o d

/-- The logits tile written back is the tile of the round's logits. -/
theorem flushed_logits (t : Fin cfg2.N) :
    (dat2 V c).flushed 4 t
      = ((cfg2.win 4).blk t).view.read (Elt Ideal) (logitsArr (passLogits (votesIn V c) (capsIn V c) (logitsIn V c))) := by
  show (cfg2.win 4).cut (grid2.coords t) ((dat2 V c).after 4 t) = _
  rw [after2_4, point_logits]
  refine funext fun (y : (⟨3, ![32, 16, 64]⟩ : Shape).Idx) => ?_
  obtain ⟨p, q, o, rfl⟩ : ∃ (p : Fin 32) (q : Fin 16) (o : Fin 64), y = ix3 p q o := ⟨y 0, y 1, y 2, eq_ix3 y⟩
  rw [View.read_apply, emb_logits]
  exact (Tile.pay3_apply (iblk2 V c 0 t) (iblk2 V c 1 t) (iblk2 V c 2 t) p q o).trans (tile_passLogits V c t p q o)

/-- The coupling tile written back is the tile of the round's coupling weights. -/
theorem flushed_coupling (t : Fin cfg2.N) :
    (dat2 V c).flushed 5 t
      = ((cfg2.win 5).blk t).view.read (Elt Ideal) (logitsArr (passCoupling (votesIn V c) (capsIn V c) (logitsIn V c))) := by
  show (cfg2.win 5).cut (grid2.coords t) ((dat2 V c).after 5 t) = _
  rw [after2_5, point_coupling]
  refine funext fun (y : (⟨3, ![32, 16, 64]⟩ : Shape).Idx) => ?_
  obtain ⟨p, q, o, rfl⟩ : ∃ (p : Fin 32) (q : Fin 16) (o : Fin 64), y = ix3 p q o := ⟨y 0, y 1, y 2, eq_ix3 y⟩
  rw [View.read_apply, emb_coupling]
  exact (Tile.pay4_apply (iblk2 V c 0 t) (iblk2 V c 1 t) (iblk2 V c 2 t) p q o).trans (tile_passCoupling V c t p q o)

/-! ## The tiles cover the arrays -/

/-- An entry of the array is in point `t`'s tile iff each coordinate is in the tile's range on its axis. -/
theorem mem_caps (t : Fin cfg2.N) (i : (⟨3, ![64, 64, 16]⟩ : Shape).Idx) :
    i ∈ ((cfg2.win 3).blk t).view.set ↔ ∀ a : Fin 3, win2_3.index t a * S32x64x16.size a ≤ (i a).val ∧ (i a).val < win2_3.index t a * S32x64x16.size a + S32x64x16.size a := by
  show i ∈ ((View.whole (Pipeline.arrRef spec2 3)).slice (win2_3.rect t)).set ↔ _
  rw [View.set_slice_whole, Rect.mem_set_unit]
  exact Iff.rfl
theorem mem_logits (t : Fin cfg2.N) (i : (⟨3, ![64, 2048, 64]⟩ : Shape).Idx) :
    i ∈ ((cfg2.win 4).blk t).view.set ↔ ∀ a : Fin 3, win2_4.index t a * S32x16x64.size a ≤ (i a).val ∧ (i a).val < win2_4.index t a * S32x16x64.size a + S32x16x64.size a := by
  show i ∈ ((View.whole (Pipeline.arrRef spec2 4)).slice (win2_4.rect t)).set ↔ _
  rw [View.set_slice_whole, Rect.mem_set_unit]
  exact Iff.rfl
theorem mem_coupling (t : Fin cfg2.N) (i : (⟨3, ![64, 2048, 64]⟩ : Shape).Idx) :
    i ∈ ((cfg2.win 5).blk t).view.set ↔ ∀ a : Fin 3, win2_5.index t a * S32x16x64.size a ≤ (i a).val ∧ (i a).val < win2_5.index t a * S32x16x64.size a + S32x16x64.size a := by
  show i ∈ ((View.whole (Pipeline.arrRef spec2 5)).slice (win2_5.rect t)).set ↔ _
  rw [View.set_slice_whole, Rect.mem_set_unit]
  exact Iff.rfl

/-- The last point of the grid row that holds batch row `b`. -/
def rowEnd (b : Fin 64) : Fin cfg2.N := ⟨128 * (b.val / 32) + 127, by have := b.isLt; have := hN; omega⟩
/-- The point whose tile holds batch row `b` and input capsule `n`. -/
def pointOf (b : Fin 64) (n : Fin 2048) : Fin cfg2.N := ⟨128 * (b.val / 32) + n.val / 16, by have := b.isLt; have := n.isLt; have := hN; omega⟩

/-! ## The arrays when the grid has run -/

/-- The weighted votes. -/
theorem final_caps : (dat2 V c).arrAt 3 cfg2.N = capsArr (passCaps (votesIn V c) (capsIn V c) (logitsIn V c)) :=
  (dat2 V c).arrAt_eq_of_cover 3 _ (flushed_caps V c) fun i => by
    have hb : (i 0).val < 64 := (i 0).isLt
    have ho : (i 1).val < 64 := (i 1).isLt
    have hd : (i 2).val < 16 := (i 2).isLt
    refine ⟨rowEnd ⟨(i 0).val, hb⟩, (flush2_3 _).mpr (by show (128 * ((i 0).val / 32) + 127) % 128 = 127; omega), ?_⟩
    obtain ⟨-, -, -, -, -, -, -, -, -, -, e0, e1, e2, -⟩ := idx_facts (rowEnd ⟨(i 0).val, hb⟩)
    have ht : (rowEnd ⟨(i 0).val, hb⟩).val = 128 * ((i 0).val / 32) + 127 := rfl
    rw [mem_caps]
    intro a
    match a with
    | ⟨0, _⟩ => show win2_3.index _ (0 : Fin 3) * 32 ≤ (i 0).val ∧ (i 0).val < win2_3.index _ (0 : Fin 3) * 32 + 32; rw [e0, ht]; omega
    | ⟨1, _⟩ => show win2_3.index _ (1 : Fin 3) * 64 ≤ (i 1).val ∧ (i 1).val < win2_3.index _ (1 : Fin 3) * 64 + 64; rw [e1]; omega
    | ⟨2, _⟩ => show win2_3.index _ (2 : Fin 3) * 16 ≤ (i 2).val ∧ (i 2).val < win2_3.index _ (2 : Fin 3) * 16 + 16; rw [e2]; omega

/-- The logits. -/
theorem final_logits : (dat2 V c).arrAt 4 cfg2.N = logitsArr (passLogits (votesIn V c) (capsIn V c) (logitsIn V c)) :=
  (dat2 V c).arrAt_eq_of_cover 4 _ (fun t _ => flushed_logits V c t) fun i => by
    have hb : (i 0).val < 64 := (i 0).isLt
    have hn : (i 1).val < 2048 := (i 1).isLt
    have ho : (i 2).val < 64 := (i 2).isLt
    refine ⟨pointOf ⟨(i 0).val, hb⟩ ⟨(i 1).val, hn⟩, flush2_4 _, ?_⟩
    obtain ⟨-, -, -, -, -, -, -, -, -, -, -, -, -, e0, e1, e2, -⟩ := idx_facts (pointOf ⟨(i 0).val, hb⟩ ⟨(i 1).val, hn⟩)
    have ht : (pointOf ⟨(i 0).val, hb⟩ ⟨(i 1).val, hn⟩).val = 128 * ((i 0).val / 32) + (i 1).val / 16 := rfl
    rw [mem_logits]
    intro a
    match a with
    | ⟨0, _⟩ => show win2_4.index _ (0 : Fin 3) * 32 ≤ (i 0).val ∧ (i 0).val < win2_4.index _ (0 : Fin 3) * 32 + 32; rw [e0, ht]; omega
    | ⟨1, _⟩ => show win2_4.index _ (1 : Fin 3) * 16 ≤ (i 1).val ∧ (i 1).val < win2_4.index _ (1 : Fin 3) * 16 + 16; rw [e1, ht]; omega
    | ⟨2, _⟩ => show win2_4.index _ (2 : Fin 3) * 64 ≤ (i 2).val ∧ (i 2).val < win2_4.index _ (2 : Fin 3) * 64 + 64; rw [e2]; omega

/-- The coupling weights. -/
theorem final_coupling : (dat2 V c).arrAt 5 cfg2.N = logitsArr (passCoupling (votesIn V c) (capsIn V c) (logitsIn V c)) :=
  (dat2 V c).arrAt_eq_of_cover 5 _ (fun t _ => flushed_coupling V c t) fun i => by
    have hb : (i 0).val < 64 := (i 0).isLt
    have hn : (i 1).val < 2048 := (i 1).isLt
    have ho : (i 2).val < 64 := (i 2).isLt
    refine ⟨pointOf ⟨(i 0).val, hb⟩ ⟨(i 1).val, hn⟩, flush2_5 _, ?_⟩
    obtain ⟨-, -, -, -, -, -, -, -, -, -, -, -, -, -, -, -, e0, e1, e2⟩ := idx_facts (pointOf ⟨(i 0).val, hb⟩ ⟨(i 1).val, hn⟩)
    have ht : (pointOf ⟨(i 0).val, hb⟩ ⟨(i 1).val, hn⟩).val = 128 * ((i 0).val / 32) + (i 1).val / 16 := rfl
    rw [mem_coupling]
    intro a
    match a with
    | ⟨0, _⟩ => show win2_5.index _ (0 : Fin 3) * 32 ≤ (i 0).val ∧ (i 0).val < win2_5.index _ (0 : Fin 3) * 32 + 32; rw [e0, ht]; omega
    | ⟨1, _⟩ => show win2_5.index _ (1 : Fin 3) * 16 ≤ (i 1).val ∧ (i 1).val < win2_5.index _ (1 : Fin 3) * 16 + 16; rw [e1, ht]; omega
    | ⟨2, _⟩ => show win2_5.index _ (2 : Fin 3) * 64 ≤ (i 2).val ∧ (i 2).val < win2_5.index _ (2 : Fin 3) * 64 + 64; rw [e2]; omega

end Cert.KernelIdeal.Pass2

end
-- ==== Proof.KernelValue.lean ====
/-
  The kernel program's three results as functions of the votes it is launched with.

  The fold of buffer contents through the program is read stretch by stretch. Before the first region the capsule
  and logit arrays are zero, so the first pass forms its logits as 0 + ∑ d, 0 · P = 0 (the only step where a law of
  the extended reals is used: 0 · x = 0 for every x, infinite or not) and its weighted votes with the softmax of zero
  logits. Each later pass starts from the squash of the weighted votes and from the logits the pass before left, and
  the votes reach every pass unchanged: no host operation writes them and a region only reads them. After the third
  pass the capsules are squashed once more and their lengths taken. Unfolding the three rounds of the specification
  gives exactly these terms, so every step below is a rewriting of one stretch's or one pass's result followed by `rfl`.
-/
import proofs.«134254_j89060441849992_2_alg».proof.Proof.Spec
import proofs.«134254_j89060441849992_2_alg».proof.Proof.KernelHost
import proofs.«134254_j89060441849992_2_alg».proof.Proof.KernelRun
import proofs.«134254_j89060441849992_2_alg».proof.Proof.Pass0Final
import proofs.«134254_j89060441849992_2_alg».proof.Proof.Pass1Final
import proofs.«134254_j89060441849992_2_alg».proof.Proof.Pass2Final

set_option maxRecDepth 16384

noncomputable section

namespace Cert.KernelIdeal.HostValue

open Cert.KernelIdeal Cert.KernelIdeal.Gen Cert.KernelIdeal.GenP Cert.Routing

open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The votes core `c` is launched with. -/
def votes (c : Dev nD) : Votes' := votesOf (m ((c : Thread nD τ).loc main_arg0))

/-! ## The votes reach every pass unchanged -/

theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W4_arg0 (c : Dev nD) : W4 m ρ c (Proc.devRef .tc main_arg0) = W3 m ρ c (Proc.devRef .tc main_arg0) :=
  (W4_arr m ρ c 0).trans (((dat1 (V3 m ρ) c).arrAt_in 0 rfl _).trans (A_eq1 (V3 m ρ) c 0))

theorem votes_pass0 (c : Dev nD) : Pass0.votesIn (V1 m ρ) c = votes m c :=
  congrArg votesOf (W1_arg0 m ρ c)
theorem votes_pass1 (c : Dev nD) : Pass1.votesIn (V3 m ρ) c = votes m c :=
  congrArg votesOf ((W3_arg0 m ρ c).trans ((W2_arg0 m ρ c).trans (W1_arg0 m ρ c)))
theorem votes_pass2 (c : Dev nD) : Pass2.votesIn (V5 m ρ) c = votes m c :=
  congrArg votesOf ((W5_arg0 m ρ c).trans ((W4_arg0 m ρ c).trans ((W3_arg0 m ρ c).trans ((W2_arg0 m ρ c).trans (W1_arg0 m ρ c)))))

/-! ## The first pass: from zero capsules and zero logits -/

theorem caps_pass0 (c : Dev nD) : Pass0.capsIn (V1 m ρ) c = fun _ _ _ => 0 :=
  (congrArg capsOf (W1_v0 m ρ c)).trans (capsOf_capsArr _)
theorem logits_pass0 (c : Dev nD) : Pass0.logitsIn (V1 m ρ) c = fun _ _ _ => 0 :=
  (congrArg logitsOf (W1_v1 m ρ c)).trans (logitsOf_logitsArr _)

/-- The weighted votes the first pass leaves. -/
theorem W2_v2_0 (c : Dev nD) : W2 m ρ c (Proc.devRef .tc main_v2_0) = capsArr (wsum (coupling logits0) (votes m c)) := by
  refine (W2_arr m ρ c 3).trans ?_
  rw [Pass0.final_caps, votes_pass0, caps_pass0, logits_pass0]
  unfold passCaps passCoupling
  rw [passLogits_zero]
  rfl

/-- The logits the first pass leaves are zero again. -/
theorem W2_v2_1 (c : Dev nD) : W2 m ρ c (Proc.devRef .tc main_v2_1) = logitsArr logits0 := by
  refine (W2_arr m ρ c 4).trans ?_
  rw [Pass0.final_logits, votes_pass0, caps_pass0, logits_pass0, passLogits_zero]
  rfl

/-! ## The second pass -/

theorem caps_pass1 (c : Dev nD) : Pass1.capsIn (V3 m ρ) c = caps0 (votes m c) := by
  refine (congrArg capsOf (W3_v15 m ρ c)).trans ?_
  rw [capsOf_capsArr, W2_v2_0, capsOf_capsArr]
  rfl
theorem logits_pass1 (c : Dev nD) : Pass1.logitsIn (V3 m ρ) c = logits0 := by
  refine (congrArg logitsOf ((W3_v2_1 m ρ c).trans (W2_v2_1 m ρ c))).trans ?_
  exact logitsOf_logitsArr _

theorem W4_v16_0 (c : Dev nD) : W4 m ρ c (Proc.devRef .tc main_v16_0) = capsArr (wsum (coupling (logits1 (votes m c))) (votes m c)) := by
  refine (W4_arr m ρ c 3).trans ?_
  rw [Pass1.final_caps, votes_pass1, caps_pass1, logits_pass1]
  rfl
theorem W4_v16_1 (c : Dev nD) : W4 m ρ c (Proc.devRef .tc main_v16_1) = logitsArr (logits1 (votes m c)) := by
  refine (W4_arr m ρ c 4).trans ?_
  rw [Pass1.final_logits, votes_pass1, caps_pass1, logits_pass1]
  rfl

/-! ## The third pass -/

theorem caps_pass2 (c : Dev nD) : Pass2.capsIn (V5 m ρ) c = caps1 (votes m c) := by
  refine (congrArg capsOf (W5_v29 m ρ c)).trans ?_
  rw [capsOf_capsArr, W4_v16_0, capsOf_capsArr]
  rfl
theorem logits_pass2 (c : Dev nD) : Pass2.logitsIn (V5 m ρ) c = logits1 (votes m c) := by
  refine (congrArg logitsOf ((W5_v16_1 m ρ c).trans (W4_v16_1 m ρ c))).trans ?_
  exact logitsOf_logitsArr _

theorem W6_v30_0 (c : Dev nD) : W6 m ρ c (Proc.devRef .tc main_v30_0) = capsArr (wsum (couplingOut (votes m c)) (votes m c)) := by
  refine (W6_arr m ρ c 3).trans ?_
  rw [Pass2.final_caps, votes_pass2, caps_pass2, logits_pass2]
  rfl
theorem W6_v30_2 (c : Dev nD) : W6 m ρ c (Proc.devRef .tc main_v30_2) = logitsArr (couplingOut (votes m c)) := by
  refine (W6_arr m ρ c 5).trans ?_
  rw [Pass2.final_coupling, votes_pass2, caps_pass2, logits_pass2]
  rfl

/-! ## The three results -/

theorem pose_eq (c : Dev nD) : W7 m ρ c (Proc.devRef .tc main_v43) = capsArr (pose (votes m c)) := by
  rw [W7_v43, W6_v30_0, capsOf_capsArr]
  rfl
theorem prob_eq (c : Dev nD) : W7 m ρ c (Proc.devRef .tc main_v48) = lenArr (prob (votes m c)) := by
  rw [W7_v48, W6_v30_0, capsOf_capsArr]
  rfl
theorem coupling_eq (c : Dev nD) : W7 m ρ c (Proc.devRef .tc main_v30_2) = logitsArr (couplingOut (votes m c)) :=
  (W7_v30_2 m ρ c).trans (W6_v30_2 m ρ c)

/-- From any memory, every weakly fair execution of the kernel program terminates without fault, with the three
    result buffers at the specification's capsules, lengths and coupling weights of the launched votes, and the votes
    unchanged. -/
theorem run : θ_run defs (onTc (τ := τ) (main (F := Ideal))) ⟨m, fun _ => 0, ρ⟩ (fun r => ∀ c : Dev nD,
        r.2.mem ((c.tc : Thread nD τ).loc main_v43) = capsArr (pose (votes m c))
      ∧ r.2.mem ((c.tc : Thread nD τ).loc main_v48) = lenArr (prob (votes m c))
      ∧ r.2.mem ((c.tc : Thread nD τ).loc main_v30_2) = logitsArr (couplingOut (votes m c))
      ∧ r.2.mem ((c.tc : Thread nD τ).loc main_arg0) = m ((c.tc : Thread nD τ).loc main_arg0)) :=
  (θ_run defs _ _).mono (fun r h c => ⟨(h c).1.trans (pose_eq m ρ c), (h c).2.1.trans (prob_eq m ρ c),
    (h c).2.2.1.trans (coupling_eq m ρ c), (h c).2.2.2⟩) (run_named m ρ)

end Cert.KernelIdeal.HostValue

end
-- ==== Proof.lean ====
/-
  Routing by agreement between capsules: the tiled program and the reference compute the same three arrays.

  Both programs route a vote tensor P[b, n, o, d] in three rounds. A round forms the coupling weights (a softmax of the
  routing logits over the output capsules o), the weighted votes ∑ n, c[b, n, o] · P[b, n, o, d], and squashes them
  into output capsules; between rounds the logits grow by the agreement ∑ d, v[b, o, d] · P[b, n, o, d]. The results
  are the last capsules, their lengths, and the last coupling weights.

  The reference does this on whole arrays. The tiled program makes three passes over the votes; each pass first
  updates the logits with the capsules of the round before, then takes the softmax, and accumulates the weighted
  votes over 128 tiles of 16 input capsules. Its first pass starts from zero capsules and zero logits, so its update
  adds ∑ d, 0 · P = 0 and leaves the logits zero, as the reference's first round has them: 0 · x = 0 holds for infinite
  x too. The sum over 2048 input capsules is regrouped as 128 consecutive sums of 16, which needs only that addition
  of extended reals is commutative and associative, and each sum that starts from the zero word uses 0 + x = x. None
  of these laws fails at ±∞, so the proof does not open the precondition on the inputs.

  Both sides are shown equal to one specification (three rounds written as functions of the votes), the tiled
  program through what each pass leaves in its arrays, the reference operation by operation.
-/
import proofs.«134254_j89060441849992_2_alg».proof.Defs
import proofs.«134254_j89060441849992_2_alg».proof.Proof.Gen.Kernel
import proofs.«134254_j89060441849992_2_alg».proof.Proof.Gen.Kernel.Skeleton
import proofs.«134254_j89060441849992_2_alg».proof.Proof.KernelLaunch
import proofs.«134254_j89060441849992_2_alg».proof.Proof.Gen.Kernel.Points
import proofs.«134254_j89060441849992_2_alg».proof.Proof.KernelFrame
import proofs.«134254_j89060441849992_2_alg».proof.Proof.Gen.KernelIdeal
import proofs.«134254_j89060441849992_2_alg».proof.Proof.Gen.KernelIdeal.Skeleton
import proofs.«134254_j89060441849992_2_alg».proof.Proof.KernelIdealLaunch
import proofs.«134254_j89060441849992_2_alg».proof.Proof.Gen.KernelIdeal.Points
import proofs.«134254_j89060441849992_2_alg».proof.Proof.KernelIdealFrame
import proofs.«134254_j89060441849992_2_alg».proof.Proof.Gen.ReferenceIdeal
import proofs.«134254_j89060441849992_2_alg».proof.Proof.Gen.ReferenceIdeal.Run
import proofs.«134254_j89060441849992_2_alg».proof.Proof.Gen.Pre_finite_inputs
import proofs.«134254_j89060441849992_2_alg».proof.Proof.Spec
import proofs.«134254_j89060441849992_2_alg».proof.Proof.RefValue
import proofs.«134254_j89060441849992_2_alg».proof.Proof.KernelValue
import Idealize.ShloMosaic.Adequacy
import Idealize.ShloMosaic.Init

noncomputable section

namespace Cert.Proof

open Idealize.ShloMosaic Idealize.SL.Sem Cert.Routing

/-- The word-level program runs and leaves its argument as launched. -/
theorem frame_kernel : Cert.frame_Kernel := fun m ρ _ => Cert.Kernel.GenP.frame m ρ

/-- So does the program read at the extended reals. -/
theorem frame_kernelIdeal : Cert.frame_KernelIdeal := fun m ρ _ => Cert.KernelIdeal.GenP.frame m ρ

/-- The reference's run, with its results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the votes both programs end with the specification's capsules, lengths and coupling
    weights of those votes. -/
theorem algebraic : Cert.algebraic_KernelIdeal_ReferenceIdeal := by
  intro m ρ m' ρ' _ hagree
  refine ⟨fun c => capsArr (pose (Cert.KernelIdeal.HostValue.votes m c)),
    fun c => lenArr (prob (Cert.KernelIdeal.HostValue.votes m c)),
    fun c => logitsArr (couplingOut (Cert.KernelIdeal.HostValue.votes m c)),
    Cert.KernelIdeal.HostValue.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · exact (Cert.ReferenceIdeal.RefValue.pose_eq _).trans (congrArg (fun A => capsArr (pose (votesOf A))) (hagree c))
  · exact (Cert.ReferenceIdeal.RefValue.prob_eq _).trans (congrArg (fun A => lenArr (prob (votesOf A))) (hagree c))
  · exact (Cert.ReferenceIdeal.RefValue.coupling_eq _).trans (congrArg (fun A => logitsArr (couplingOut (votesOf A))) (hagree c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
